-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v280)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v280) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v369) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x500000x3 : Shape := ⟨3, ![1, 500000, 3]⟩
abbrev S1x128x256x256 : Shape := ⟨4, ![1, 128, 256, 256]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S1x500000x3 : S_.BroadcastsInDim S1x500000x3 (![] : Fin 0 → Fin S1x500000x3.rank)
  reducesTo_S1x500000x3_S_d0_1_2 : S1x500000x3.ReducesTo [0, 1, 2] S_
  h_S_ : 0 < S_.numel
  bcast_S_S1x128x256x256 : S_.BroadcastsInDim S1x128x256x256 (![] : Fin 0 → Fin S1x128x256x256.rank)
  reducesTo_S1x128x256x256_S_d0_1_2_3 : S1x128x256x256.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128 .f32) (main_arg8 : FVec F S1x128 .f32) (main_arg9 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S1x128 .f32) (main_arg9 : FVec F S1 .f32) (main_v13 : IVec S_ 1) (main_v16 : IVec S1x128x256x256 1) : IVec S_ 1 :=
  let main_c_5 : IVec S_ 1 := constantI S_ 1 1#1
  let main_v17 : IVec S_ 1 := (fun x v => Host.reduce IntOp.andi x v reducesTo_S1x128x256x256_S_d0_1_2_3 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S1x500000x3 .f32) (main_arg1 : FVec F S1x128x256x256 .f32) (main_arg2 : FVec F S1x128x256x256 .f32) (main_arg3 : FVec F S1x128x256x256 .f32) (main_arg4 : FVec F S128x128 .f32) (main_arg5 : FVec F S128 .f32) (main_arg6 : FVec F S128x128 .f32) (main_arg7 : FVec F S128 .f32) (main_arg8 : FVec F S1x128 .f32) (main_arg9 : FVec F S1 .f32) : IVec S_ 1 :=
  let main_v0 : FVec F S1x500000x3 .f32 := Host.absf main_arg0
  let main_cst : FVec F S_ .f32 := constant S_ .f32 0x7F800000#32
  let main_v1 : FVec F S1x500000x3 .f32 := broadcastInDim S1x500000x3 ![] bcast_S_S1x500000x3 main_cst
  let main_v2 : IVec S1x500000x3 1 := cmpf .olt main_v0 main_v1
  let main_c : IVec S_ 1 := constantI S_ 1 1#1
  let main_v3 : IVec S_ 1 := (fun x v => Host.reduce IntOp.andi x v reducesTo_S1x500000x3_S_d0_1_2 h_S_) main_v2 main_c
  let main_v4 : FVec F S1x128x256x256 .f32 := Host.absf main_arg1
  let main_cst_0 : FVec F S_ .f32 := constant S_ .f32 0x7F800000#32
  let main_v5 : FVec F S1x128x256x256 .f32 := broadcastInDim S1x128x256x256 ![] bcast_S_S1x128x256x256 main_cst_0
  let main_v6 : IVec S1x128x256x256 1 := cmpf .olt main_v4 main_v5
  let main_c_1 : IVec S_ 1 := constantI S_ 1 1#1
  let main_v7 : IVec S_ 1 := (fun x v => Host.reduce IntOp.andi x v reducesTo_S1x128x256x256_S_d0_1_2_3 h_S_) main_v6 main_c_1
  let main_v8 : IVec S_ 1 := andi main_v3 main_v7
  let main_v9 : FVec F S1x128x256x256 .f32 := Host.absf main_arg2
  let main_cst_2 : FVec F S_ .f32 := constant S_ .f32 0x7F800000#32
  let main_v10 : FVec F S1x128x256x256 .f32 := broadcastInDim S1x128x256x256 ![] bcast_S_S1x128x256x256 main_cst_2
  let main_v11 : IVec S1x128x256x256 1 := cmpf .olt main_v9 main_v10
  let main_c_3 : IVec S_ 1 := constantI S_ 1 1#1
  let main_v12 : IVec S_ 1 := (fun x v => Host.reduce IntOp.andi x v reducesTo_S1x128x256x256_S_d0_1_2_3 h_S_) main_v11 main_c_3
  let main_v13 : IVec S_ 1 := andi main_v8 main_v12
  let main_v14 : FVec F S1x128x256x256 .f32 := Host.absf main_arg3
  let main_cst_4 : FVec F S_ .f32 := constant S_ .f32 0x7F800000#32
  let main_v15 : FVec F S1x128x256x256 .f32 := broadcastInDim S1x128x256x256 ![] bcast_S_S1x128x256x256 main_cst_4
  let main_v16 : IVec S1x128x256x256 1 := cmpf .olt main_v14 main_v15
  fn_part1 (F := F) main_arg4 main_arg5 main_arg6 main_arg7 main_arg8 main_arg9 main_v13 main_v16
-- ==== Kernel.lean ====
abbrev S1x500000x3 : Shape := ⟨3, ![1, 500000, 3]⟩
abbrev S1x128x256x256 : Shape := ⟨4, ![1, 128, 256, 256]⟩
abbrev S128x128 : Shape := ⟨2, ![128, 128]⟩
abbrev S128 : Shape := ⟨1, ![128]⟩
abbrev S1x128 : Shape := ⟨2, ![1, 128]⟩
abbrev S1 : Shape := ⟨1, ![1]⟩
abbrev S500000x3 : Shape := ⟨2, ![500000, 3]⟩
abbrev S128x256x256 : Shape := ⟨3, ![128, 256, 256]⟩
abbrev S256x256x128 : Shape := ⟨3, ![256, 256, 128]⟩
abbrev S65536x128 : Shape := ⟨2, ![65536, 128]⟩
abbrev S500000x1 : Shape := ⟨2, ![500000, 1]⟩
abbrev S500000 : Shape := ⟨1, ![500000]⟩
abbrev S_ : Shape := ⟨0, ![]⟩
abbrev S1x1 : Shape := ⟨2, ![1, 1]⟩
abbrev S500000x128 : Shape := ⟨2, ![500000, 128]⟩
abbrev S507904x128 : Shape := ⟨2, ![507904, 128]⟩
abbrev S62x1x8192 : Shape := ⟨3, ![62, 1, 8192]⟩
abbrev S8192x128 : Shape := ⟨2, ![8192, 128]⟩
abbrev S1x1x8192 : Shape := ⟨3, ![1, 1, 8192]⟩
abbrev S8192 : Shape := ⟨1, ![8192]⟩
abbrev S8192x1 : Shape := ⟨2, ![8192, 1]⟩
abbrev S1x8192 : Shape := ⟨2, ![1, 8192]⟩
abbrev S507904 : Shape := ⟨1, ![507904]⟩
abbrev S1x500000x1 : Shape := ⟨3, ![1, 500000, 1]⟩

abbrev nBuf : Space → Nat
  | .hbm => 643
  | .vmem => 12
  | .smem => 0
  | _ => 0

abbrev hbmTy0_0 (i : Nat) : BufTy := match i % 128 with
  | 0 => ⟨S1x500000x3, .f32⟩
  | 1 => ⟨S1x128x256x256, .f32⟩
  | 2 => ⟨S1x128x256x256, .f32⟩
  | 3 => ⟨S1x128x256x256, .f32⟩
  | 4 => ⟨S128x128, .f32⟩
  | 5 => ⟨S128, .f32⟩
  | 6 => ⟨S128x128, .f32⟩
  | 7 => ⟨S128, .f32⟩
  | 8 => ⟨S1x128, .f32⟩
  | 9 => ⟨S1, .f32⟩
  | 10 => ⟨S500000x3, .f32⟩
  | 11 => ⟨S128x256x256, .f32⟩
  | 12 => ⟨S256x256x128, .f32⟩
  | 13 => ⟨S65536x128, .f32⟩
  | 14 => ⟨S500000x1, .f32⟩
  | 15 => ⟨S500000, .f32⟩
  | 16 => ⟨S500000x1, .f32⟩
  | 17 => ⟨S500000, .f32⟩
  | 18 => ⟨S_, .f32⟩
  | 19 => ⟨S500000, .f32⟩
  | 20 => ⟨S500000, .f32⟩
  | 21 => ⟨S_, .f32⟩
  | 22 => ⟨S500000, .f32⟩
  | 23 => ⟨S500000, .f32⟩
  | 24 => ⟨S_, .f32⟩
  | 25 => ⟨S500000, .f32⟩
  | 26 => ⟨S500000, .f32⟩
  | 27 => ⟨S_, .f32⟩
  | 28 => ⟨S500000, .f32⟩
  | 29 => ⟨S500000, .f32⟩
  | 30 => ⟨S_, .f32⟩
  | 31 => ⟨S500000, .f32⟩
  | 32 => ⟨S500000, .f32⟩
  | 33 => ⟨S_, .f32⟩
  | 34 => ⟨S500000, .f32⟩
  | 35 => ⟨S500000, .f32⟩
  | 36 => ⟨S500000, .f32⟩
  | 37 => ⟨S500000, .f32⟩
  | 38 => ⟨S_, .f32⟩
  | 39 => ⟨S500000, .f32⟩
  | 40 => ⟨S500000, .f32⟩
  | 41 => ⟨S_, .f32⟩
  | 42 => ⟨S500000, .f32⟩
  | 43 => ⟨S500000, .f32⟩
  | 44 => ⟨S500000, .f32⟩
  | 45 => ⟨S_, .f32⟩
  | 46 => ⟨S500000, .f32⟩
  | 47 => ⟨S500000, .f32⟩
  | 48 => ⟨S500000, .f32⟩
  | 49 => ⟨S_, .f32⟩
  | 50 => ⟨S500000, .f32⟩
  | 51 => ⟨S500000, .f32⟩
  | 52 => ⟨S500000, .f32⟩
  | 53 => ⟨S_, .f32⟩
  | 54 => ⟨S500000, .f32⟩
  | 55 => ⟨S500000, .i1⟩
  | 56 => ⟨S_, .f32⟩
  | 57 => ⟨S500000, .f32⟩
  | 58 => ⟨S500000, .i1⟩
  | 59 => ⟨S500000, .i1⟩
  | 60 => ⟨S_, .f32⟩
  | 61 => ⟨S500000, .f32⟩
  | 62 => ⟨S500000, .i1⟩
  | 63 => ⟨S500000, .i1⟩
  | 64 => ⟨S_, .f32⟩
  | 65 => ⟨S500000, .f32⟩
  | 66 => ⟨S500000, .i1⟩
  | 67 => ⟨S500000, .i1⟩
  | 68 => ⟨S500000, .f32⟩
  | 69 => ⟨S_, .i32⟩
  | 70 => ⟨S_, .i32⟩
  | 71 => ⟨S_, .f32⟩
  | 72 => ⟨S500000, .f32⟩
  | 73 => ⟨S500000, .f32⟩
  | 74 => ⟨S_, .f32⟩
  | 75 => ⟨S500000, .f32⟩
  | 76 => ⟨S500000, .f32⟩
  | 77 => ⟨S500000, .i32⟩
  | 78 => ⟨S_, .i32⟩
  | 79 => ⟨S_, .i32⟩
  | 80 => ⟨S_, .f32⟩
  | 81 => ⟨S500000, .f32⟩
  | 82 => ⟨S500000, .f32⟩
  | 83 => ⟨S_, .f32⟩
  | 84 => ⟨S500000, .f32⟩
  | 85 => ⟨S500000, .f32⟩
  | 86 => ⟨S500000, .i32⟩
  | 87 => ⟨S_, .i32⟩
  | 88 => ⟨S500000, .i32⟩
  | 89 => ⟨S500000, .i32⟩
  | 90 => ⟨S500000, .i32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S1, .i32⟩
  | 100 => ⟨S_, .i32⟩
  | 101 => ⟨S500000x1, .i32⟩
  | 102 => ⟨S500000x1, .i1⟩
  | 103 => ⟨S1x1, .i32⟩
  | 104 => ⟨S500000x1, .i32⟩
  | 105 => ⟨S500000x1, .i1⟩
  | 106 => ⟨S500000x1, .i1⟩
  | 107 => ⟨S_, .i1⟩
  | 108 => ⟨S500000, .i1⟩
  | 109 => ⟨S500000x128, .f32⟩
  | 110 => ⟨S500000x128, .i1⟩
  | 111 => ⟨S_, .f32⟩
  | 112 => ⟨S500000x128, .f32⟩
  | 113 => ⟨S500000x128, .f32⟩
  | 114 => ⟨S500000, .f32⟩
  | 115 => ⟨S500000x1, .f32⟩
  | 116 => ⟨S500000x128, .f32⟩
  | 117 => ⟨S500000x128, .f32⟩
  | 118 => ⟨S500000, .f32⟩
  | 119 => ⟨S_, .f32⟩
  | 120 => ⟨S500000, .f32⟩
  | 121 => ⟨S500000, .i1⟩
  | 122 => ⟨S_, .f32⟩
  | 123 => ⟨S500000, .f32⟩
  | 124 => ⟨S500000, .i1⟩
  | 125 => ⟨S500000, .i1⟩
  | 126 => ⟨S_, .f32⟩
  | 127 => ⟨S500000, .f32⟩
  | _ => ⟨S1x500000x3, .f32⟩

abbrev hbmTy0_1 (i : Nat) : BufTy := match i % 128 with
  | 0 => ⟨S500000, .i1⟩
  | 1 => ⟨S500000, .i1⟩
  | 2 => ⟨S_, .f32⟩
  | 3 => ⟨S500000, .f32⟩
  | 4 => ⟨S500000, .i1⟩
  | 5 => ⟨S500000, .i1⟩
  | 6 => ⟨S500000, .f32⟩
  | 7 => ⟨S_, .i32⟩
  | 8 => ⟨S_, .i32⟩
  | 9 => ⟨S_, .f32⟩
  | 10 => ⟨S500000, .f32⟩
  | 11 => ⟨S500000, .f32⟩
  | 12 => ⟨S_, .f32⟩
  | 13 => ⟨S500000, .f32⟩
  | 14 => ⟨S500000, .f32⟩
  | 15 => ⟨S500000, .i32⟩
  | 16 => ⟨S_, .i32⟩
  | 17 => ⟨S_, .i32⟩
  | 18 => ⟨S_, .f32⟩
  | 19 => ⟨S500000, .f32⟩
  | 20 => ⟨S500000, .f32⟩
  | 21 => ⟨S_, .f32⟩
  | 22 => ⟨S500000, .f32⟩
  | 23 => ⟨S500000, .f32⟩
  | 24 => ⟨S500000, .i32⟩
  | 25 => ⟨S_, .i32⟩
  | 26 => ⟨S500000, .i32⟩
  | 27 => ⟨S500000, .i32⟩
  | 28 => ⟨S500000, .i32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S1, .i32⟩
  | 38 => ⟨S_, .i32⟩
  | 39 => ⟨S500000x1, .i32⟩
  | 40 => ⟨S500000x1, .i1⟩
  | 41 => ⟨S1x1, .i32⟩
  | 42 => ⟨S500000x1, .i32⟩
  | 43 => ⟨S500000x1, .i1⟩
  | 44 => ⟨S500000x1, .i1⟩
  | 45 => ⟨S_, .i1⟩
  | 46 => ⟨S500000, .i1⟩
  | 47 => ⟨S500000x128, .f32⟩
  | 48 => ⟨S500000x128, .i1⟩
  | 49 => ⟨S_, .f32⟩
  | 50 => ⟨S500000x128, .f32⟩
  | 51 => ⟨S500000x128, .f32⟩
  | 52 => ⟨S500000, .f32⟩
  | 53 => ⟨S500000x1, .f32⟩
  | 54 => ⟨S500000x128, .f32⟩
  | 55 => ⟨S500000x128, .f32⟩
  | 56 => ⟨S500000x128, .f32⟩
  | 57 => ⟨S500000, .f32⟩
  | 58 => ⟨S_, .f32⟩
  | 59 => ⟨S500000, .f32⟩
  | 60 => ⟨S500000, .i1⟩
  | 61 => ⟨S_, .f32⟩
  | 62 => ⟨S500000, .f32⟩
  | 63 => ⟨S500000, .i1⟩
  | 64 => ⟨S500000, .i1⟩
  | 65 => ⟨S_, .f32⟩
  | 66 => ⟨S500000, .f32⟩
  | 67 => ⟨S500000, .i1⟩
  | 68 => ⟨S500000, .i1⟩
  | 69 => ⟨S_, .f32⟩
  | 70 => ⟨S500000, .f32⟩
  | 71 => ⟨S500000, .i1⟩
  | 72 => ⟨S500000, .i1⟩
  | 73 => ⟨S500000, .f32⟩
  | 74 => ⟨S_, .i32⟩
  | 75 => ⟨S_, .i32⟩
  | 76 => ⟨S_, .f32⟩
  | 77 => ⟨S500000, .f32⟩
  | 78 => ⟨S500000, .f32⟩
  | 79 => ⟨S_, .f32⟩
  | 80 => ⟨S500000, .f32⟩
  | 81 => ⟨S500000, .f32⟩
  | 82 => ⟨S500000, .i32⟩
  | 83 => ⟨S_, .i32⟩
  | 84 => ⟨S_, .i32⟩
  | 85 => ⟨S_, .f32⟩
  | 86 => ⟨S500000, .f32⟩
  | 87 => ⟨S500000, .f32⟩
  | 88 => ⟨S_, .f32⟩
  | 89 => ⟨S500000, .f32⟩
  | 90 => ⟨S500000, .f32⟩
  | 91 => ⟨S500000, .i32⟩
  | 92 => ⟨S_, .i32⟩
  | 93 => ⟨S500000, .i32⟩
  | 94 => ⟨S500000, .i32⟩
  | 95 => ⟨S500000, .i32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S1, .i32⟩
  | 105 => ⟨S_, .i32⟩
  | 106 => ⟨S500000x1, .i32⟩
  | 107 => ⟨S500000x1, .i1⟩
  | 108 => ⟨S1x1, .i32⟩
  | 109 => ⟨S500000x1, .i32⟩
  | 110 => ⟨S500000x1, .i1⟩
  | 111 => ⟨S500000x1, .i1⟩
  | 112 => ⟨S_, .i1⟩
  | 113 => ⟨S500000, .i1⟩
  | 114 => ⟨S500000x128, .f32⟩
  | 115 => ⟨S500000x128, .i1⟩
  | 116 => ⟨S_, .f32⟩
  | 117 => ⟨S500000x128, .f32⟩
  | 118 => ⟨S500000x128, .f32⟩
  | 119 => ⟨S500000, .f32⟩
  | 120 => ⟨S500000x1, .f32⟩
  | 121 => ⟨S500000x128, .f32⟩
  | 122 => ⟨S500000x128, .f32⟩
  | 123 => ⟨S500000x128, .f32⟩
  | 124 => ⟨S500000, .f32⟩
  | 125 => ⟨S_, .f32⟩
  | 126 => ⟨S500000, .f32⟩
  | 127 => ⟨S500000, .i1⟩
  | _ => ⟨S1x500000x3, .f32⟩

abbrev hbmTy0_2 (i : Nat) : BufTy := match i % 128 with
  | 0 => ⟨S_, .f32⟩
  | 1 => ⟨S500000, .f32⟩
  | 2 => ⟨S500000, .i1⟩
  | 3 => ⟨S500000, .i1⟩
  | 4 => ⟨S_, .f32⟩
  | 5 => ⟨S500000, .f32⟩
  | 6 => ⟨S500000, .i1⟩
  | 7 => ⟨S500000, .i1⟩
  | 8 => ⟨S_, .f32⟩
  | 9 => ⟨S500000, .f32⟩
  | 10 => ⟨S500000, .i1⟩
  | 11 => ⟨S500000, .i1⟩
  | 12 => ⟨S500000, .f32⟩
  | 13 => ⟨S_, .i32⟩
  | 14 => ⟨S_, .i32⟩
  | 15 => ⟨S_, .f32⟩
  | 16 => ⟨S500000, .f32⟩
  | 17 => ⟨S500000, .f32⟩
  | 18 => ⟨S_, .f32⟩
  | 19 => ⟨S500000, .f32⟩
  | 20 => ⟨S500000, .f32⟩
  | 21 => ⟨S500000, .i32⟩
  | 22 => ⟨S_, .i32⟩
  | 23 => ⟨S_, .i32⟩
  | 24 => ⟨S_, .f32⟩
  | 25 => ⟨S500000, .f32⟩
  | 26 => ⟨S500000, .f32⟩
  | 27 => ⟨S_, .f32⟩
  | 28 => ⟨S500000, .f32⟩
  | 29 => ⟨S500000, .f32⟩
  | 30 => ⟨S500000, .i32⟩
  | 31 => ⟨S_, .i32⟩
  | 32 => ⟨S500000, .i32⟩
  | 33 => ⟨S500000, .i32⟩
  | 34 => ⟨S500000, .i32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S1, .i32⟩
  | 44 => ⟨S_, .i32⟩
  | 45 => ⟨S500000x1, .i32⟩
  | 46 => ⟨S500000x1, .i1⟩
  | 47 => ⟨S1x1, .i32⟩
  | 48 => ⟨S500000x1, .i32⟩
  | 49 => ⟨S500000x1, .i1⟩
  | 50 => ⟨S500000x1, .i1⟩
  | 51 => ⟨S_, .i1⟩
  | 52 => ⟨S500000, .i1⟩
  | 53 => ⟨S500000x128, .f32⟩
  | 54 => ⟨S500000x128, .i1⟩
  | 55 => ⟨S_, .f32⟩
  | 56 => ⟨S500000x128, .f32⟩
  | 57 => ⟨S500000x128, .f32⟩
  | 58 => ⟨S500000, .f32⟩
  | 59 => ⟨S500000x1, .f32⟩
  | 60 => ⟨S500000x128, .f32⟩
  | 61 => ⟨S500000x128, .f32⟩
  | 62 => ⟨S500000x128, .f32⟩
  | 63 => ⟨S500000x128, .bf16⟩
  | 64 => ⟨S500000x1, .f32⟩
  | 65 => ⟨S500000, .f32⟩
  | 66 => ⟨S500000x1, .f32⟩
  | 67 => ⟨S500000, .f32⟩
  | 68 => ⟨S_, .f32⟩
  | 69 => ⟨S500000, .f32⟩
  | 70 => ⟨S500000, .f32⟩
  | 71 => ⟨S_, .f32⟩
  | 72 => ⟨S500000, .f32⟩
  | 73 => ⟨S500000, .f32⟩
  | 74 => ⟨S_, .f32⟩
  | 75 => ⟨S500000, .f32⟩
  | 76 => ⟨S500000, .f32⟩
  | 77 => ⟨S_, .f32⟩
  | 78 => ⟨S500000, .f32⟩
  | 79 => ⟨S500000, .f32⟩
  | 80 => ⟨S_, .f32⟩
  | 81 => ⟨S500000, .f32⟩
  | 82 => ⟨S500000, .f32⟩
  | 83 => ⟨S_, .f32⟩
  | 84 => ⟨S500000, .f32⟩
  | 85 => ⟨S500000, .f32⟩
  | 86 => ⟨S500000, .f32⟩
  | 87 => ⟨S500000, .f32⟩
  | 88 => ⟨S_, .f32⟩
  | 89 => ⟨S500000, .f32⟩
  | 90 => ⟨S500000, .f32⟩
  | 91 => ⟨S_, .f32⟩
  | 92 => ⟨S500000, .f32⟩
  | 93 => ⟨S500000, .f32⟩
  | 94 => ⟨S500000, .f32⟩
  | 95 => ⟨S_, .f32⟩
  | 96 => ⟨S500000, .f32⟩
  | 97 => ⟨S500000, .f32⟩
  | 98 => ⟨S500000, .f32⟩
  | 99 => ⟨S_, .f32⟩
  | 100 => ⟨S500000, .f32⟩
  | 101 => ⟨S500000, .f32⟩
  | 102 => ⟨S500000, .f32⟩
  | 103 => ⟨S_, .f32⟩
  | 104 => ⟨S500000, .f32⟩
  | 105 => ⟨S500000, .i1⟩
  | 106 => ⟨S_, .f32⟩
  | 107 => ⟨S500000, .f32⟩
  | 108 => ⟨S500000, .i1⟩
  | 109 => ⟨S500000, .i1⟩
  | 110 => ⟨S_, .f32⟩
  | 111 => ⟨S500000, .f32⟩
  | 112 => ⟨S500000, .i1⟩
  | 113 => ⟨S500000, .i1⟩
  | 114 => ⟨S_, .f32⟩
  | 115 => ⟨S500000, .f32⟩
  | 116 => ⟨S500000, .i1⟩
  | 117 => ⟨S500000, .i1⟩
  | 118 => ⟨S500000, .f32⟩
  | 119 => ⟨S_, .i32⟩
  | 120 => ⟨S_, .i32⟩
  | 121 => ⟨S_, .f32⟩
  | 122 => ⟨S500000, .f32⟩
  | 123 => ⟨S500000, .f32⟩
  | 124 => ⟨S_, .f32⟩
  | 125 => ⟨S500000, .f32⟩
  | 126 => ⟨S500000, .f32⟩
  | 127 => ⟨S500000, .i32⟩
  | _ => ⟨S1x500000x3, .f32⟩

abbrev hbmTy0_3 (i : Nat) : BufTy := match i % 128 with
  | 0 => ⟨S_, .i32⟩
  | 1 => ⟨S_, .i32⟩
  | 2 => ⟨S_, .f32⟩
  | 3 => ⟨S500000, .f32⟩
  | 4 => ⟨S500000, .f32⟩
  | 5 => ⟨S_, .f32⟩
  | 6 => ⟨S500000, .f32⟩
  | 7 => ⟨S500000, .f32⟩
  | 8 => ⟨S500000, .i32⟩
  | 9 => ⟨S_, .i32⟩
  | 10 => ⟨S500000, .i32⟩
  | 11 => ⟨S500000, .i32⟩
  | 12 => ⟨S500000, .i32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S1, .i32⟩
  | 22 => ⟨S_, .i32⟩
  | 23 => ⟨S500000x1, .i32⟩
  | 24 => ⟨S500000x1, .i1⟩
  | 25 => ⟨S1x1, .i32⟩
  | 26 => ⟨S500000x1, .i32⟩
  | 27 => ⟨S500000x1, .i1⟩
  | 28 => ⟨S500000x1, .i1⟩
  | 29 => ⟨S_, .i1⟩
  | 30 => ⟨S500000, .i1⟩
  | 31 => ⟨S500000x128, .f32⟩
  | 32 => ⟨S500000x128, .i1⟩
  | 33 => ⟨S_, .f32⟩
  | 34 => ⟨S500000x128, .f32⟩
  | 35 => ⟨S500000x128, .f32⟩
  | 36 => ⟨S500000, .f32⟩
  | 37 => ⟨S500000x1, .f32⟩
  | 38 => ⟨S500000x128, .f32⟩
  | 39 => ⟨S500000x128, .f32⟩
  | 40 => ⟨S500000, .f32⟩
  | 41 => ⟨S_, .f32⟩
  | 42 => ⟨S500000, .f32⟩
  | 43 => ⟨S500000, .i1⟩
  | 44 => ⟨S_, .f32⟩
  | 45 => ⟨S500000, .f32⟩
  | 46 => ⟨S500000, .i1⟩
  | 47 => ⟨S500000, .i1⟩
  | 48 => ⟨S_, .f32⟩
  | 49 => ⟨S500000, .f32⟩
  | 50 => ⟨S500000, .i1⟩
  | 51 => ⟨S500000, .i1⟩
  | 52 => ⟨S_, .f32⟩
  | 53 => ⟨S500000, .f32⟩
  | 54 => ⟨S500000, .i1⟩
  | 55 => ⟨S500000, .i1⟩
  | 56 => ⟨S500000, .f32⟩
  | 57 => ⟨S_, .i32⟩
  | 58 => ⟨S_, .i32⟩
  | 59 => ⟨S_, .f32⟩
  | 60 => ⟨S500000, .f32⟩
  | 61 => ⟨S500000, .f32⟩
  | 62 => ⟨S_, .f32⟩
  | 63 => ⟨S500000, .f32⟩
  | 64 => ⟨S500000, .f32⟩
  | 65 => ⟨S500000, .i32⟩
  | 66 => ⟨S_, .i32⟩
  | 67 => ⟨S_, .i32⟩
  | 68 => ⟨S_, .f32⟩
  | 69 => ⟨S500000, .f32⟩
  | 70 => ⟨S500000, .f32⟩
  | 71 => ⟨S_, .f32⟩
  | 72 => ⟨S500000, .f32⟩
  | 73 => ⟨S500000, .f32⟩
  | 74 => ⟨S500000, .i32⟩
  | 75 => ⟨S_, .i32⟩
  | 76 => ⟨S500000, .i32⟩
  | 77 => ⟨S500000, .i32⟩
  | 78 => ⟨S500000, .i32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S1, .i32⟩
  | 88 => ⟨S_, .i32⟩
  | 89 => ⟨S500000x1, .i32⟩
  | 90 => ⟨S500000x1, .i1⟩
  | 91 => ⟨S1x1, .i32⟩
  | 92 => ⟨S500000x1, .i32⟩
  | 93 => ⟨S500000x1, .i1⟩
  | 94 => ⟨S500000x1, .i1⟩
  | 95 => ⟨S_, .i1⟩
  | 96 => ⟨S500000, .i1⟩
  | 97 => ⟨S500000x128, .f32⟩
  | 98 => ⟨S500000x128, .i1⟩
  | 99 => ⟨S_, .f32⟩
  | 100 => ⟨S500000x128, .f32⟩
  | 101 => ⟨S500000x128, .f32⟩
  | 102 => ⟨S500000, .f32⟩
  | 103 => ⟨S500000x1, .f32⟩
  | 104 => ⟨S500000x128, .f32⟩
  | 105 => ⟨S500000x128, .f32⟩
  | 106 => ⟨S500000x128, .f32⟩
  | 107 => ⟨S500000, .f32⟩
  | 108 => ⟨S_, .f32⟩
  | 109 => ⟨S500000, .f32⟩
  | 110 => ⟨S500000, .i1⟩
  | 111 => ⟨S_, .f32⟩
  | 112 => ⟨S500000, .f32⟩
  | 113 => ⟨S500000, .i1⟩
  | 114 => ⟨S500000, .i1⟩
  | 115 => ⟨S_, .f32⟩
  | 116 => ⟨S500000, .f32⟩
  | 117 => ⟨S500000, .i1⟩
  | 118 => ⟨S500000, .i1⟩
  | 119 => ⟨S_, .f32⟩
  | 120 => ⟨S500000, .f32⟩
  | 121 => ⟨S500000, .i1⟩
  | 122 => ⟨S500000, .i1⟩
  | 123 => ⟨S500000, .f32⟩
  | 124 => ⟨S_, .i32⟩
  | 125 => ⟨S_, .i32⟩
  | 126 => ⟨S_, .f32⟩
  | 127 => ⟨S500000, .f32⟩
  | _ => ⟨S1x500000x3, .f32⟩

abbrev hbmTy0_4 (i : Nat) : BufTy := match i % 128 with
  | 0 => ⟨S500000, .f32⟩
  | 1 => ⟨S_, .f32⟩
  | 2 => ⟨S500000, .f32⟩
  | 3 => ⟨S500000, .f32⟩
  | 4 => ⟨S500000, .i32⟩
  | 5 => ⟨S_, .i32⟩
  | 6 => ⟨S_, .i32⟩
  | 7 => ⟨S_, .f32⟩
  | 8 => ⟨S500000, .f32⟩
  | 9 => ⟨S500000, .f32⟩
  | 10 => ⟨S_, .f32⟩
  | 11 => ⟨S500000, .f32⟩
  | 12 => ⟨S500000, .f32⟩
  | 13 => ⟨S500000, .i32⟩
  | 14 => ⟨S_, .i32⟩
  | 15 => ⟨S500000, .i32⟩
  | 16 => ⟨S500000, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S1, .i32⟩
  | 27 => ⟨S_, .i32⟩
  | 28 => ⟨S500000x1, .i32⟩
  | 29 => ⟨S500000x1, .i1⟩
  | 30 => ⟨S1x1, .i32⟩
  | 31 => ⟨S500000x1, .i32⟩
  | 32 => ⟨S500000x1, .i1⟩
  | 33 => ⟨S500000x1, .i1⟩
  | 34 => ⟨S_, .i1⟩
  | 35 => ⟨S500000, .i1⟩
  | 36 => ⟨S500000x128, .f32⟩
  | 37 => ⟨S500000x128, .i1⟩
  | 38 => ⟨S_, .f32⟩
  | 39 => ⟨S500000x128, .f32⟩
  | 40 => ⟨S500000x128, .f32⟩
  | 41 => ⟨S500000, .f32⟩
  | 42 => ⟨S500000x1, .f32⟩
  | 43 => ⟨S500000x128, .f32⟩
  | 44 => ⟨S500000x128, .f32⟩
  | 45 => ⟨S500000x128, .f32⟩
  | 46 => ⟨S500000, .f32⟩
  | 47 => ⟨S_, .f32⟩
  | 48 => ⟨S500000, .f32⟩
  | 49 => ⟨S500000, .i1⟩
  | 50 => ⟨S_, .f32⟩
  | 51 => ⟨S500000, .f32⟩
  | 52 => ⟨S500000, .i1⟩
  | 53 => ⟨S500000, .i1⟩
  | 54 => ⟨S_, .f32⟩
  | 55 => ⟨S500000, .f32⟩
  | 56 => ⟨S500000, .i1⟩
  | 57 => ⟨S500000, .i1⟩
  | 58 => ⟨S_, .f32⟩
  | 59 => ⟨S500000, .f32⟩
  | 60 => ⟨S500000, .i1⟩
  | 61 => ⟨S500000, .i1⟩
  | 62 => ⟨S500000, .f32⟩
  | 63 => ⟨S_, .i32⟩
  | 64 => ⟨S_, .i32⟩
  | 65 => ⟨S_, .f32⟩
  | 66 => ⟨S500000, .f32⟩
  | 67 => ⟨S500000, .f32⟩
  | 68 => ⟨S_, .f32⟩
  | 69 => ⟨S500000, .f32⟩
  | 70 => ⟨S500000, .f32⟩
  | 71 => ⟨S500000, .i32⟩
  | 72 => ⟨S_, .i32⟩
  | 73 => ⟨S_, .i32⟩
  | 74 => ⟨S_, .f32⟩
  | 75 => ⟨S500000, .f32⟩
  | 76 => ⟨S500000, .f32⟩
  | 77 => ⟨S_, .f32⟩
  | 78 => ⟨S500000, .f32⟩
  | 79 => ⟨S500000, .f32⟩
  | 80 => ⟨S500000, .i32⟩
  | 81 => ⟨S_, .i32⟩
  | 82 => ⟨S500000, .i32⟩
  | 83 => ⟨S500000, .i32⟩
  | 84 => ⟨S500000, .i32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S500000x1, .i32⟩
  | 93 => ⟨S1, .i32⟩
  | 94 => ⟨S_, .i32⟩
  | 95 => ⟨S500000x1, .i32⟩
  | 96 => ⟨S500000x1, .i1⟩
  | 97 => ⟨S1x1, .i32⟩
  | 98 => ⟨S500000x1, .i32⟩
  | 99 => ⟨S500000x1, .i1⟩
  | 100 => ⟨S500000x1, .i1⟩
  | 101 => ⟨S_, .i1⟩
  | 102 => ⟨S500000, .i1⟩
  | 103 => ⟨S500000x128, .f32⟩
  | 104 => ⟨S500000x128, .i1⟩
  | 105 => ⟨S_, .f32⟩
  | 106 => ⟨S500000x128, .f32⟩
  | 107 => ⟨S500000x128, .f32⟩
  | 108 => ⟨S500000, .f32⟩
  | 109 => ⟨S500000x1, .f32⟩
  | 110 => ⟨S500000x128, .f32⟩
  | 111 => ⟨S500000x128, .f32⟩
  | 112 => ⟨S500000x128, .f32⟩
  | 113 => ⟨S500000x128, .bf16⟩
  | 114 => ⟨S128x128, .f32⟩
  | 115 => ⟨S128x128, .bf16⟩
  | 116 => ⟨S128x128, .f32⟩
  | 117 => ⟨S128x128, .bf16⟩
  | 118 => ⟨S1x128, .f32⟩
  | 119 => ⟨S1x128, .f32⟩
  | 120 => ⟨S1x1, .f32⟩
  | 121 => ⟨S_, .i32⟩
  | 122 => ⟨S_, .bf16⟩
  | 123 => ⟨S507904x128, .bf16⟩
  | 124 => ⟨S_, .i32⟩
  | 125 => ⟨S_, .bf16⟩
  | 126 => ⟨S507904x128, .bf16⟩
  | 127 => ⟨S62x1x8192, .f32⟩
  | _ => ⟨S1x500000x3, .f32⟩

abbrev hbmTy0_5 (i : Nat) : BufTy := match i % 128 with
  | 0 => ⟨S507904, .f32⟩
  | 1 => ⟨S500000, .f32⟩
  | 2 => ⟨S1x500000x1, .f32⟩
  | _ => ⟨S1x500000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x500000x3, .f32⟩

abbrev bufTy : (tb : Table) → Fin (tcTables nBuf tb) → BufTy
  | .hbm, ⟨i, _⟩ => hbmTy i
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S1x128, .f32⟩
  | .local _ .vmem, ⟨9, _⟩ => ⟨S1x1, .f32⟩
  | .local _ .vmem, ⟨10, _⟩ => ⟨S1x1x8192, .f32⟩
  | .local _ .vmem, ⟨11, _⟩ => ⟨S1x1x8192, .f32⟩
  | _, _ => ⟨S1x500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_12 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c : Ref sig .tc := ⟨.hbm, 69, rfl⟩
abbrev main_c_13 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_v45 : Ref sig .tc := ⟨.hbm, 76, rfl⟩
abbrev main_v46 : Ref sig .tc := ⟨.hbm, 77, rfl⟩
abbrev main_c_14 : Ref sig .tc := ⟨.hbm, 78, rfl⟩
abbrev main_c_15 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v47 : Ref sig .tc := ⟨.hbm, 85, rfl⟩
abbrev main_v48 : Ref sig .tc := ⟨.hbm, 86, rfl⟩
abbrev main_c_16 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_c_1 : Ref sig .tc := ⟨.hbm, 99, rfl⟩
abbrev main_call2_c_2 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_c_3 : Ref sig .tc := ⟨.hbm, 107, rfl⟩
abbrev main_call2_v12 : Ref sig .tc := ⟨.hbm, 108, rfl⟩
abbrev main_call2_v13 : Ref sig .tc := ⟨.hbm, 109, rfl⟩
abbrev main_call2_v14 : Ref sig .tc := ⟨.hbm, 110, rfl⟩
abbrev main_call2_cst : Ref sig .tc := ⟨.hbm, 111, rfl⟩
abbrev main_call2_v15 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_cst_17 : Ref sig .tc := ⟨.hbm, 119, rfl⟩
abbrev main_v58 : Ref sig .tc := ⟨.hbm, 120, rfl⟩
abbrev main_v59 : Ref sig .tc := ⟨.hbm, 121, rfl⟩
abbrev main_cst_18 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_cst_19 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_20 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_c_21 : Ref sig .tc := ⟨.hbm, 135, rfl⟩
abbrev main_c_22 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_v70 : Ref sig .tc := ⟨.hbm, 142, rfl⟩
abbrev main_v71 : Ref sig .tc := ⟨.hbm, 143, rfl⟩
abbrev main_c_23 : Ref sig .tc := ⟨.hbm, 144, rfl⟩
abbrev main_c_24 : Ref sig .tc := ⟨.hbm, 145, rfl⟩
abbrev main_call4_v0 : Ref sig .tc := ⟨.hbm, 146, rfl⟩
abbrev main_call4_v1 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_v72 : Ref sig .tc := ⟨.hbm, 151, rfl⟩
abbrev main_v73 : Ref sig .tc := ⟨.hbm, 152, rfl⟩
abbrev main_c_25 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_call5_c : Ref sig .tc := ⟨.hbm, 157, rfl⟩
abbrev main_call5_v0 : Ref sig .tc := ⟨.hbm, 158, rfl⟩
abbrev main_call5_v1 : Ref sig .tc := ⟨.hbm, 159, rfl⟩
abbrev main_call5_c_0 : Ref sig .tc := ⟨.hbm, 160, rfl⟩
abbrev main_call5_v2 : Ref sig .tc := ⟨.hbm, 161, rfl⟩
abbrev main_call5_v3 : Ref sig .tc := ⟨.hbm, 162, rfl⟩
abbrev main_call5_v4 : Ref sig .tc := ⟨.hbm, 163, rfl⟩
abbrev main_call5_v5 : Ref sig .tc := ⟨.hbm, 164, rfl⟩
abbrev main_call5_c_1 : Ref sig .tc := ⟨.hbm, 165, rfl⟩
abbrev main_call5_c_2 : Ref sig .tc := ⟨.hbm, 166, rfl⟩
abbrev main_call5_v6 : Ref sig .tc := ⟨.hbm, 167, rfl⟩
abbrev main_call5_v7 : Ref sig .tc := ⟨.hbm, 168, rfl⟩
abbrev main_call5_v8 : Ref sig .tc := ⟨.hbm, 169, rfl⟩
abbrev main_call5_v9 : Ref sig .tc := ⟨.hbm, 170, rfl⟩
abbrev main_call5_v10 : Ref sig .tc := ⟨.hbm, 171, rfl⟩
abbrev main_call5_v11 : Ref sig .tc := ⟨.hbm, 172, rfl⟩
abbrev main_call5_c_3 : Ref sig .tc := ⟨.hbm, 173, rfl⟩
abbrev main_call5_v12 : Ref sig .tc := ⟨.hbm, 174, rfl⟩
abbrev main_call5_v13 : Ref sig .tc := ⟨.hbm, 175, rfl⟩
abbrev main_call5_v14 : Ref sig .tc := ⟨.hbm, 176, rfl⟩
abbrev main_call5_cst : Ref sig .tc := ⟨.hbm, 177, rfl⟩
abbrev main_call5_v15 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_cst_26 : Ref sig .tc := ⟨.hbm, 186, rfl⟩
abbrev main_v84 : Ref sig .tc := ⟨.hbm, 187, rfl⟩
abbrev main_v85 : Ref sig .tc := ⟨.hbm, 188, rfl⟩
abbrev main_cst_27 : Ref sig .tc := ⟨.hbm, 189, rfl⟩
abbrev main_v86 : Ref sig .tc := ⟨.hbm, 190, rfl⟩
abbrev main_v87 : Ref sig .tc := ⟨.hbm, 191, rfl⟩
abbrev main_v88 : Ref sig .tc := ⟨.hbm, 192, rfl⟩
abbrev main_cst_28 : Ref sig .tc := ⟨.hbm, 193, rfl⟩
abbrev main_v89 : Ref sig .tc := ⟨.hbm, 194, rfl⟩
abbrev main_v90 : Ref sig .tc := ⟨.hbm, 195, rfl⟩
abbrev main_v91 : Ref sig .tc := ⟨.hbm, 196, rfl⟩
abbrev main_cst_29 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_c_30 : Ref sig .tc := ⟨.hbm, 202, rfl⟩
abbrev main_c_31 : Ref sig .tc := ⟨.hbm, 203, rfl⟩
abbrev main_call6_v0 : Ref sig .tc := ⟨.hbm, 204, rfl⟩
abbrev main_call6_v1 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_v96 : Ref sig .tc := ⟨.hbm, 209, rfl⟩
abbrev main_v97 : Ref sig .tc := ⟨.hbm, 210, rfl⟩
abbrev main_c_32 : Ref sig .tc := ⟨.hbm, 211, rfl⟩
abbrev main_c_33 : Ref sig .tc := ⟨.hbm, 212, rfl⟩
abbrev main_call7_v0 : Ref sig .tc := ⟨.hbm, 213, rfl⟩
abbrev main_call7_v1 : Ref sig .tc := ⟨.hbm, 214, rfl⟩
abbrev main_call7_v2 : Ref sig .tc := ⟨.hbm, 215, rfl⟩
abbrev main_call7_v3 : Ref sig .tc := ⟨.hbm, 216, rfl⟩
abbrev main_call7_v4 : Ref sig .tc := ⟨.hbm, 217, rfl⟩
abbrev main_v98 : Ref sig .tc := ⟨.hbm, 218, rfl⟩
abbrev main_v99 : Ref sig .tc := ⟨.hbm, 219, rfl⟩
abbrev main_c_34 : Ref sig .tc := ⟨.hbm, 220, rfl⟩
abbrev main_v100 : Ref sig .tc := ⟨.hbm, 221, rfl⟩
abbrev main_v101 : Ref sig .tc := ⟨.hbm, 222, rfl⟩
abbrev main_v102 : Ref sig .tc := ⟨.hbm, 223, rfl⟩
abbrev main_call8_c : Ref sig .tc := ⟨.hbm, 224, rfl⟩
abbrev main_call8_v0 : Ref sig .tc := ⟨.hbm, 225, rfl⟩
abbrev main_call8_v1 : Ref sig .tc := ⟨.hbm, 226, rfl⟩
abbrev main_call8_c_0 : Ref sig .tc := ⟨.hbm, 227, rfl⟩
abbrev main_call8_v2 : Ref sig .tc := ⟨.hbm, 228, rfl⟩
abbrev main_call8_v3 : Ref sig .tc := ⟨.hbm, 229, rfl⟩
abbrev main_call8_v4 : Ref sig .tc := ⟨.hbm, 230, rfl⟩
abbrev main_call8_v5 : Ref sig .tc := ⟨.hbm, 231, rfl⟩
abbrev main_call8_c_1 : Ref sig .tc := ⟨.hbm, 232, rfl⟩
abbrev main_call8_c_2 : Ref sig .tc := ⟨.hbm, 233, rfl⟩
abbrev main_call8_v6 : Ref sig .tc := ⟨.hbm, 234, rfl⟩
abbrev main_call8_v7 : Ref sig .tc := ⟨.hbm, 235, rfl⟩
abbrev main_call8_v8 : Ref sig .tc := ⟨.hbm, 236, rfl⟩
abbrev main_call8_v9 : Ref sig .tc := ⟨.hbm, 237, rfl⟩
abbrev main_call8_v10 : Ref sig .tc := ⟨.hbm, 238, rfl⟩
abbrev main_call8_v11 : Ref sig .tc := ⟨.hbm, 239, rfl⟩
abbrev main_call8_c_3 : Ref sig .tc := ⟨.hbm, 240, rfl⟩
abbrev main_call8_v12 : Ref sig .tc := ⟨.hbm, 241, rfl⟩
abbrev main_call8_v13 : Ref sig .tc := ⟨.hbm, 242, rfl⟩
abbrev main_call8_v14 : Ref sig .tc := ⟨.hbm, 243, rfl⟩
abbrev main_call8_cst : Ref sig .tc := ⟨.hbm, 244, rfl⟩
abbrev main_call8_v15 : Ref sig .tc := ⟨.hbm, 245, rfl⟩
abbrev main_v103 : Ref sig .tc := ⟨.hbm, 246, rfl⟩
abbrev main_v104 : Ref sig .tc := ⟨.hbm, 247, rfl⟩
abbrev main_v105 : Ref sig .tc := ⟨.hbm, 248, rfl⟩
abbrev main_v106 : Ref sig .tc := ⟨.hbm, 249, rfl⟩
abbrev main_v107 : Ref sig .tc := ⟨.hbm, 250, rfl⟩
abbrev main_v108 : Ref sig .tc := ⟨.hbm, 251, rfl⟩
abbrev main_v109 : Ref sig .tc := ⟨.hbm, 252, rfl⟩
abbrev main_cst_35 : Ref sig .tc := ⟨.hbm, 253, rfl⟩
abbrev main_v110 : Ref sig .tc := ⟨.hbm, 254, rfl⟩
abbrev main_v111 : Ref sig .tc := ⟨.hbm, 255, rfl⟩
abbrev main_cst_36 : Ref sig .tc := ⟨.hbm, 256, rfl⟩
abbrev main_v112 : Ref sig .tc := ⟨.hbm, 257, rfl⟩
abbrev main_v113 : Ref sig .tc := ⟨.hbm, 258, rfl⟩
abbrev main_v114 : Ref sig .tc := ⟨.hbm, 259, rfl⟩
abbrev main_cst_37 : Ref sig .tc := ⟨.hbm, 260, rfl⟩
abbrev main_v115 : Ref sig .tc := ⟨.hbm, 261, rfl⟩
abbrev main_v116 : Ref sig .tc := ⟨.hbm, 262, rfl⟩
abbrev main_v117 : Ref sig .tc := ⟨.hbm, 263, rfl⟩
abbrev main_cst_38 : Ref sig .tc := ⟨.hbm, 264, rfl⟩
abbrev main_v118 : Ref sig .tc := ⟨.hbm, 265, rfl⟩
abbrev main_v119 : Ref sig .tc := ⟨.hbm, 266, rfl⟩
abbrev main_v120 : Ref sig .tc := ⟨.hbm, 267, rfl⟩
abbrev main_v121 : Ref sig .tc := ⟨.hbm, 268, rfl⟩
abbrev main_c_39 : Ref sig .tc := ⟨.hbm, 269, rfl⟩
abbrev main_c_40 : Ref sig .tc := ⟨.hbm, 270, rfl⟩
abbrev main_call9_v0 : Ref sig .tc := ⟨.hbm, 271, rfl⟩
abbrev main_call9_v1 : Ref sig .tc := ⟨.hbm, 272, rfl⟩
abbrev main_call9_v2 : Ref sig .tc := ⟨.hbm, 273, rfl⟩
abbrev main_call9_v3 : Ref sig .tc := ⟨.hbm, 274, rfl⟩
abbrev main_call9_v4 : Ref sig .tc := ⟨.hbm, 275, rfl⟩
abbrev main_v122 : Ref sig .tc := ⟨.hbm, 276, rfl⟩
abbrev main_v123 : Ref sig .tc := ⟨.hbm, 277, rfl⟩
abbrev main_c_41 : Ref sig .tc := ⟨.hbm, 278, rfl⟩
abbrev main_c_42 : Ref sig .tc := ⟨.hbm, 279, rfl⟩
abbrev main_call10_v0 : Ref sig .tc := ⟨.hbm, 280, rfl⟩
abbrev main_call10_v1 : Ref sig .tc := ⟨.hbm, 281, rfl⟩
abbrev main_call10_v2 : Ref sig .tc := ⟨.hbm, 282, rfl⟩
abbrev main_call10_v3 : Ref sig .tc := ⟨.hbm, 283, rfl⟩
abbrev main_call10_v4 : Ref sig .tc := ⟨.hbm, 284, rfl⟩
abbrev main_v124 : Ref sig .tc := ⟨.hbm, 285, rfl⟩
abbrev main_v125 : Ref sig .tc := ⟨.hbm, 286, rfl⟩
abbrev main_c_43 : Ref sig .tc := ⟨.hbm, 287, rfl⟩
abbrev main_v126 : Ref sig .tc := ⟨.hbm, 288, rfl⟩
abbrev main_v127 : Ref sig .tc := ⟨.hbm, 289, rfl⟩
abbrev main_v128 : Ref sig .tc := ⟨.hbm, 290, rfl⟩
abbrev main_call11_c : Ref sig .tc := ⟨.hbm, 291, rfl⟩
abbrev main_call11_v0 : Ref sig .tc := ⟨.hbm, 292, rfl⟩
abbrev main_call11_v1 : Ref sig .tc := ⟨.hbm, 293, rfl⟩
abbrev main_call11_c_0 : Ref sig .tc := ⟨.hbm, 294, rfl⟩
abbrev main_call11_v2 : Ref sig .tc := ⟨.hbm, 295, rfl⟩
abbrev main_call11_v3 : Ref sig .tc := ⟨.hbm, 296, rfl⟩
abbrev main_call11_v4 : Ref sig .tc := ⟨.hbm, 297, rfl⟩
abbrev main_call11_v5 : Ref sig .tc := ⟨.hbm, 298, rfl⟩
abbrev main_call11_c_1 : Ref sig .tc := ⟨.hbm, 299, rfl⟩
abbrev main_call11_c_2 : Ref sig .tc := ⟨.hbm, 300, rfl⟩
abbrev main_call11_v6 : Ref sig .tc := ⟨.hbm, 301, rfl⟩
abbrev main_call11_v7 : Ref sig .tc := ⟨.hbm, 302, rfl⟩
abbrev main_call11_v8 : Ref sig .tc := ⟨.hbm, 303, rfl⟩
abbrev main_call11_v9 : Ref sig .tc := ⟨.hbm, 304, rfl⟩
abbrev main_call11_v10 : Ref sig .tc := ⟨.hbm, 305, rfl⟩
abbrev main_call11_v11 : Ref sig .tc := ⟨.hbm, 306, rfl⟩
abbrev main_call11_c_3 : Ref sig .tc := ⟨.hbm, 307, rfl⟩
abbrev main_call11_v12 : Ref sig .tc := ⟨.hbm, 308, rfl⟩
abbrev main_call11_v13 : Ref sig .tc := ⟨.hbm, 309, rfl⟩
abbrev main_call11_v14 : Ref sig .tc := ⟨.hbm, 310, rfl⟩
abbrev main_call11_cst : Ref sig .tc := ⟨.hbm, 311, rfl⟩
abbrev main_call11_v15 : Ref sig .tc := ⟨.hbm, 312, rfl⟩
abbrev main_v129 : Ref sig .tc := ⟨.hbm, 313, rfl⟩
abbrev main_v130 : Ref sig .tc := ⟨.hbm, 314, rfl⟩
abbrev main_v131 : Ref sig .tc := ⟨.hbm, 315, rfl⟩
abbrev main_v132 : Ref sig .tc := ⟨.hbm, 316, rfl⟩
abbrev main_v133 : Ref sig .tc := ⟨.hbm, 317, rfl⟩
abbrev main_v134 : Ref sig .tc := ⟨.hbm, 318, rfl⟩
abbrev main_v135 : Ref sig .tc := ⟨.hbm, 319, rfl⟩
abbrev main_v136 : Ref sig .tc := ⟨.hbm, 320, rfl⟩
abbrev main_v137 : Ref sig .tc := ⟨.hbm, 321, rfl⟩
abbrev main_v138 : Ref sig .tc := ⟨.hbm, 322, rfl⟩
abbrev main_v139 : Ref sig .tc := ⟨.hbm, 323, rfl⟩
abbrev main_cst_44 : Ref sig .tc := ⟨.hbm, 324, rfl⟩
abbrev main_v140 : Ref sig .tc := ⟨.hbm, 325, rfl⟩
abbrev main_v141 : Ref sig .tc := ⟨.hbm, 326, rfl⟩
abbrev main_cst_45 : Ref sig .tc := ⟨.hbm, 327, rfl⟩
abbrev main_v142 : Ref sig .tc := ⟨.hbm, 328, rfl⟩
abbrev main_v143 : Ref sig .tc := ⟨.hbm, 329, rfl⟩
abbrev main_cst_46 : Ref sig .tc := ⟨.hbm, 330, rfl⟩
abbrev main_v144 : Ref sig .tc := ⟨.hbm, 331, rfl⟩
abbrev main_v145 : Ref sig .tc := ⟨.hbm, 332, rfl⟩
abbrev main_cst_47 : Ref sig .tc := ⟨.hbm, 333, rfl⟩
abbrev main_v146 : Ref sig .tc := ⟨.hbm, 334, rfl⟩
abbrev main_v147 : Ref sig .tc := ⟨.hbm, 335, rfl⟩
abbrev main_cst_48 : Ref sig .tc := ⟨.hbm, 336, rfl⟩
abbrev main_v148 : Ref sig .tc := ⟨.hbm, 337, rfl⟩
abbrev main_v149 : Ref sig .tc := ⟨.hbm, 338, rfl⟩
abbrev main_cst_49 : Ref sig .tc := ⟨.hbm, 339, rfl⟩
abbrev main_v150 : Ref sig .tc := ⟨.hbm, 340, rfl⟩
abbrev main_v151 : Ref sig .tc := ⟨.hbm, 341, rfl⟩
abbrev main_v152 : Ref sig .tc := ⟨.hbm, 342, rfl⟩
abbrev main_v153 : Ref sig .tc := ⟨.hbm, 343, rfl⟩
abbrev main_cst_50 : Ref sig .tc := ⟨.hbm, 344, rfl⟩
abbrev main_v154 : Ref sig .tc := ⟨.hbm, 345, rfl⟩
abbrev main_v155 : Ref sig .tc := ⟨.hbm, 346, rfl⟩
abbrev main_cst_51 : Ref sig .tc := ⟨.hbm, 347, rfl⟩
abbrev main_v156 : Ref sig .tc := ⟨.hbm, 348, rfl⟩
abbrev main_v157 : Ref sig .tc := ⟨.hbm, 349, rfl⟩
abbrev main_v158 : Ref sig .tc := ⟨.hbm, 350, rfl⟩
abbrev main_cst_52 : Ref sig .tc := ⟨.hbm, 351, rfl⟩
abbrev main_v159 : Ref sig .tc := ⟨.hbm, 352, rfl⟩
abbrev main_v160 : Ref sig .tc := ⟨.hbm, 353, rfl⟩
abbrev main_v161 : Ref sig .tc := ⟨.hbm, 354, rfl⟩
abbrev main_cst_53 : Ref sig .tc := ⟨.hbm, 355, rfl⟩
abbrev main_v162 : Ref sig .tc := ⟨.hbm, 356, rfl⟩
abbrev main_v163 : Ref sig .tc := ⟨.hbm, 357, rfl⟩
abbrev main_v164 : Ref sig .tc := ⟨.hbm, 358, rfl⟩
abbrev main_cst_54 : Ref sig .tc := ⟨.hbm, 359, rfl⟩
abbrev main_v165 : Ref sig .tc := ⟨.hbm, 360, rfl⟩
abbrev main_v166 : Ref sig .tc := ⟨.hbm, 361, rfl⟩
abbrev main_cst_55 : Ref sig .tc := ⟨.hbm, 362, rfl⟩
abbrev main_v167 : Ref sig .tc := ⟨.hbm, 363, rfl⟩
abbrev main_v168 : Ref sig .tc := ⟨.hbm, 364, rfl⟩
abbrev main_v169 : Ref sig .tc := ⟨.hbm, 365, rfl⟩
abbrev main_cst_56 : Ref sig .tc := ⟨.hbm, 366, rfl⟩
abbrev main_v170 : Ref sig .tc := ⟨.hbm, 367, rfl⟩
abbrev main_v171 : Ref sig .tc := ⟨.hbm, 368, rfl⟩
abbrev main_v172 : Ref sig .tc := ⟨.hbm, 369, rfl⟩
abbrev main_cst_57 : Ref sig .tc := ⟨.hbm, 370, rfl⟩
abbrev main_v173 : Ref sig .tc := ⟨.hbm, 371, rfl⟩
abbrev main_v174 : Ref sig .tc := ⟨.hbm, 372, rfl⟩
abbrev main_v175 : Ref sig .tc := ⟨.hbm, 373, rfl⟩
abbrev main_v176 : Ref sig .tc := ⟨.hbm, 374, rfl⟩
abbrev main_c_58 : Ref sig .tc := ⟨.hbm, 375, rfl⟩
abbrev main_c_59 : Ref sig .tc := ⟨.hbm, 376, rfl⟩
abbrev main_call12_v0 : Ref sig .tc := ⟨.hbm, 377, rfl⟩
abbrev main_call12_v1 : Ref sig .tc := ⟨.hbm, 378, rfl⟩
abbrev main_call12_v2 : Ref sig .tc := ⟨.hbm, 379, rfl⟩
abbrev main_call12_v3 : Ref sig .tc := ⟨.hbm, 380, rfl⟩
abbrev main_call12_v4 : Ref sig .tc := ⟨.hbm, 381, rfl⟩
abbrev main_v177 : Ref sig .tc := ⟨.hbm, 382, rfl⟩
abbrev main_v178 : Ref sig .tc := ⟨.hbm, 383, rfl⟩
abbrev main_c_60 : Ref sig .tc := ⟨.hbm, 384, rfl⟩
abbrev main_c_61 : Ref sig .tc := ⟨.hbm, 385, rfl⟩
abbrev main_call13_v0 : Ref sig .tc := ⟨.hbm, 386, rfl⟩
abbrev main_call13_v1 : Ref sig .tc := ⟨.hbm, 387, rfl⟩
abbrev main_call13_v2 : Ref sig .tc := ⟨.hbm, 388, rfl⟩
abbrev main_call13_v3 : Ref sig .tc := ⟨.hbm, 389, rfl⟩
abbrev main_call13_v4 : Ref sig .tc := ⟨.hbm, 390, rfl⟩
abbrev main_v179 : Ref sig .tc := ⟨.hbm, 391, rfl⟩
abbrev main_v180 : Ref sig .tc := ⟨.hbm, 392, rfl⟩
abbrev main_c_62 : Ref sig .tc := ⟨.hbm, 393, rfl⟩
abbrev main_v181 : Ref sig .tc := ⟨.hbm, 394, rfl⟩
abbrev main_v182 : Ref sig .tc := ⟨.hbm, 395, rfl⟩
abbrev main_v183 : Ref sig .tc := ⟨.hbm, 396, rfl⟩
abbrev main_call14_c : Ref sig .tc := ⟨.hbm, 397, rfl⟩
abbrev main_call14_v0 : Ref sig .tc := ⟨.hbm, 398, rfl⟩
abbrev main_call14_v1 : Ref sig .tc := ⟨.hbm, 399, rfl⟩
abbrev main_call14_c_0 : Ref sig .tc := ⟨.hbm, 400, rfl⟩
abbrev main_call14_v2 : Ref sig .tc := ⟨.hbm, 401, rfl⟩
abbrev main_call14_v3 : Ref sig .tc := ⟨.hbm, 402, rfl⟩
abbrev main_call14_v4 : Ref sig .tc := ⟨.hbm, 403, rfl⟩
abbrev main_call14_v5 : Ref sig .tc := ⟨.hbm, 404, rfl⟩
abbrev main_call14_c_1 : Ref sig .tc := ⟨.hbm, 405, rfl⟩
abbrev main_call14_c_2 : Ref sig .tc := ⟨.hbm, 406, rfl⟩
abbrev main_call14_v6 : Ref sig .tc := ⟨.hbm, 407, rfl⟩
abbrev main_call14_v7 : Ref sig .tc := ⟨.hbm, 408, rfl⟩
abbrev main_call14_v8 : Ref sig .tc := ⟨.hbm, 409, rfl⟩
abbrev main_call14_v9 : Ref sig .tc := ⟨.hbm, 410, rfl⟩
abbrev main_call14_v10 : Ref sig .tc := ⟨.hbm, 411, rfl⟩
abbrev main_call14_v11 : Ref sig .tc := ⟨.hbm, 412, rfl⟩
abbrev main_call14_c_3 : Ref sig .tc := ⟨.hbm, 413, rfl⟩
abbrev main_call14_v12 : Ref sig .tc := ⟨.hbm, 414, rfl⟩
abbrev main_call14_v13 : Ref sig .tc := ⟨.hbm, 415, rfl⟩
abbrev main_call14_v14 : Ref sig .tc := ⟨.hbm, 416, rfl⟩
abbrev main_call14_cst : Ref sig .tc := ⟨.hbm, 417, rfl⟩
abbrev main_call14_v15 : Ref sig .tc := ⟨.hbm, 418, rfl⟩
abbrev main_v184 : Ref sig .tc := ⟨.hbm, 419, rfl⟩
abbrev main_v185 : Ref sig .tc := ⟨.hbm, 420, rfl⟩
abbrev main_v186 : Ref sig .tc := ⟨.hbm, 421, rfl⟩
abbrev main_v187 : Ref sig .tc := ⟨.hbm, 422, rfl⟩
abbrev main_v188 : Ref sig .tc := ⟨.hbm, 423, rfl⟩
abbrev main_v189 : Ref sig .tc := ⟨.hbm, 424, rfl⟩
abbrev main_cst_63 : Ref sig .tc := ⟨.hbm, 425, rfl⟩
abbrev main_v190 : Ref sig .tc := ⟨.hbm, 426, rfl⟩
abbrev main_v191 : Ref sig .tc := ⟨.hbm, 427, rfl⟩
abbrev main_cst_64 : Ref sig .tc := ⟨.hbm, 428, rfl⟩
abbrev main_v192 : Ref sig .tc := ⟨.hbm, 429, rfl⟩
abbrev main_v193 : Ref sig .tc := ⟨.hbm, 430, rfl⟩
abbrev main_v194 : Ref sig .tc := ⟨.hbm, 431, rfl⟩
abbrev main_cst_65 : Ref sig .tc := ⟨.hbm, 432, rfl⟩
abbrev main_v195 : Ref sig .tc := ⟨.hbm, 433, rfl⟩
abbrev main_v196 : Ref sig .tc := ⟨.hbm, 434, rfl⟩
abbrev main_v197 : Ref sig .tc := ⟨.hbm, 435, rfl⟩
abbrev main_cst_66 : Ref sig .tc := ⟨.hbm, 436, rfl⟩
abbrev main_v198 : Ref sig .tc := ⟨.hbm, 437, rfl⟩
abbrev main_v199 : Ref sig .tc := ⟨.hbm, 438, rfl⟩
abbrev main_v200 : Ref sig .tc := ⟨.hbm, 439, rfl⟩
abbrev main_v201 : Ref sig .tc := ⟨.hbm, 440, rfl⟩
abbrev main_c_67 : Ref sig .tc := ⟨.hbm, 441, rfl⟩
abbrev main_c_68 : Ref sig .tc := ⟨.hbm, 442, rfl⟩
abbrev main_call15_v0 : Ref sig .tc := ⟨.hbm, 443, rfl⟩
abbrev main_call15_v1 : Ref sig .tc := ⟨.hbm, 444, rfl⟩
abbrev main_call15_v2 : Ref sig .tc := ⟨.hbm, 445, rfl⟩
abbrev main_call15_v3 : Ref sig .tc := ⟨.hbm, 446, rfl⟩
abbrev main_call15_v4 : Ref sig .tc := ⟨.hbm, 447, rfl⟩
abbrev main_v202 : Ref sig .tc := ⟨.hbm, 448, rfl⟩
abbrev main_v203 : Ref sig .tc := ⟨.hbm, 449, rfl⟩
abbrev main_c_69 : Ref sig .tc := ⟨.hbm, 450, rfl⟩
abbrev main_c_70 : Ref sig .tc := ⟨.hbm, 451, rfl⟩
abbrev main_call16_v0 : Ref sig .tc := ⟨.hbm, 452, rfl⟩
abbrev main_call16_v1 : Ref sig .tc := ⟨.hbm, 453, rfl⟩
abbrev main_call16_v2 : Ref sig .tc := ⟨.hbm, 454, rfl⟩
abbrev main_call16_v3 : Ref sig .tc := ⟨.hbm, 455, rfl⟩
abbrev main_call16_v4 : Ref sig .tc := ⟨.hbm, 456, rfl⟩
abbrev main_v204 : Ref sig .tc := ⟨.hbm, 457, rfl⟩
abbrev main_v205 : Ref sig .tc := ⟨.hbm, 458, rfl⟩
abbrev main_c_71 : Ref sig .tc := ⟨.hbm, 459, rfl⟩
abbrev main_v206 : Ref sig .tc := ⟨.hbm, 460, rfl⟩
abbrev main_v207 : Ref sig .tc := ⟨.hbm, 461, rfl⟩
abbrev main_v208 : Ref sig .tc := ⟨.hbm, 462, rfl⟩
abbrev main_call17_c : Ref sig .tc := ⟨.hbm, 463, rfl⟩
abbrev main_call17_v0 : Ref sig .tc := ⟨.hbm, 464, rfl⟩
abbrev main_call17_v1 : Ref sig .tc := ⟨.hbm, 465, rfl⟩
abbrev main_call17_c_0 : Ref sig .tc := ⟨.hbm, 466, rfl⟩
abbrev main_call17_v2 : Ref sig .tc := ⟨.hbm, 467, rfl⟩
abbrev main_call17_v3 : Ref sig .tc := ⟨.hbm, 468, rfl⟩
abbrev main_call17_v4 : Ref sig .tc := ⟨.hbm, 469, rfl⟩
abbrev main_call17_v5 : Ref sig .tc := ⟨.hbm, 470, rfl⟩
abbrev main_call17_c_1 : Ref sig .tc := ⟨.hbm, 471, rfl⟩
abbrev main_call17_c_2 : Ref sig .tc := ⟨.hbm, 472, rfl⟩
abbrev main_call17_v6 : Ref sig .tc := ⟨.hbm, 473, rfl⟩
abbrev main_call17_v7 : Ref sig .tc := ⟨.hbm, 474, rfl⟩
abbrev main_call17_v8 : Ref sig .tc := ⟨.hbm, 475, rfl⟩
abbrev main_call17_v9 : Ref sig .tc := ⟨.hbm, 476, rfl⟩
abbrev main_call17_v10 : Ref sig .tc := ⟨.hbm, 477, rfl⟩
abbrev main_call17_v11 : Ref sig .tc := ⟨.hbm, 478, rfl⟩
abbrev main_call17_c_3 : Ref sig .tc := ⟨.hbm, 479, rfl⟩
abbrev main_call17_v12 : Ref sig .tc := ⟨.hbm, 480, rfl⟩
abbrev main_call17_v13 : Ref sig .tc := ⟨.hbm, 481, rfl⟩
abbrev main_call17_v14 : Ref sig .tc := ⟨.hbm, 482, rfl⟩
abbrev main_call17_cst : Ref sig .tc := ⟨.hbm, 483, rfl⟩
abbrev main_call17_v15 : Ref sig .tc := ⟨.hbm, 484, rfl⟩
abbrev main_v209 : Ref sig .tc := ⟨.hbm, 485, rfl⟩
abbrev main_v210 : Ref sig .tc := ⟨.hbm, 486, rfl⟩
abbrev main_v211 : Ref sig .tc := ⟨.hbm, 487, rfl⟩
abbrev main_v212 : Ref sig .tc := ⟨.hbm, 488, rfl⟩
abbrev main_v213 : Ref sig .tc := ⟨.hbm, 489, rfl⟩
abbrev main_v214 : Ref sig .tc := ⟨.hbm, 490, rfl⟩
abbrev main_v215 : Ref sig .tc := ⟨.hbm, 491, rfl⟩
abbrev main_cst_72 : Ref sig .tc := ⟨.hbm, 492, rfl⟩
abbrev main_v216 : Ref sig .tc := ⟨.hbm, 493, rfl⟩
abbrev main_v217 : Ref sig .tc := ⟨.hbm, 494, rfl⟩
abbrev main_cst_73 : Ref sig .tc := ⟨.hbm, 495, rfl⟩
abbrev main_v218 : Ref sig .tc := ⟨.hbm, 496, rfl⟩
abbrev main_v219 : Ref sig .tc := ⟨.hbm, 497, rfl⟩
abbrev main_v220 : Ref sig .tc := ⟨.hbm, 498, rfl⟩
abbrev main_cst_74 : Ref sig .tc := ⟨.hbm, 499, rfl⟩
abbrev main_v221 : Ref sig .tc := ⟨.hbm, 500, rfl⟩
abbrev main_v222 : Ref sig .tc := ⟨.hbm, 501, rfl⟩
abbrev main_v223 : Ref sig .tc := ⟨.hbm, 502, rfl⟩
abbrev main_cst_75 : Ref sig .tc := ⟨.hbm, 503, rfl⟩
abbrev main_v224 : Ref sig .tc := ⟨.hbm, 504, rfl⟩
abbrev main_v225 : Ref sig .tc := ⟨.hbm, 505, rfl⟩
abbrev main_v226 : Ref sig .tc := ⟨.hbm, 506, rfl⟩
abbrev main_v227 : Ref sig .tc := ⟨.hbm, 507, rfl⟩
abbrev main_c_76 : Ref sig .tc := ⟨.hbm, 508, rfl⟩
abbrev main_c_77 : Ref sig .tc := ⟨.hbm, 509, rfl⟩
abbrev main_call18_v0 : Ref sig .tc := ⟨.hbm, 510, rfl⟩
abbrev main_call18_v1 : Ref sig .tc := ⟨.hbm, 511, rfl⟩
abbrev main_call18_v2 : Ref sig .tc := ⟨.hbm, 512, rfl⟩
abbrev main_call18_v3 : Ref sig .tc := ⟨.hbm, 513, rfl⟩
abbrev main_call18_v4 : Ref sig .tc := ⟨.hbm, 514, rfl⟩
abbrev main_v228 : Ref sig .tc := ⟨.hbm, 515, rfl⟩
abbrev main_v229 : Ref sig .tc := ⟨.hbm, 516, rfl⟩
abbrev main_c_78 : Ref sig .tc := ⟨.hbm, 517, rfl⟩
abbrev main_c_79 : Ref sig .tc := ⟨.hbm, 518, rfl⟩
abbrev main_call19_v0 : Ref sig .tc := ⟨.hbm, 519, rfl⟩
abbrev main_call19_v1 : Ref sig .tc := ⟨.hbm, 520, rfl⟩
abbrev main_call19_v2 : Ref sig .tc := ⟨.hbm, 521, rfl⟩
abbrev main_call19_v3 : Ref sig .tc := ⟨.hbm, 522, rfl⟩
abbrev main_call19_v4 : Ref sig .tc := ⟨.hbm, 523, rfl⟩
abbrev main_v230 : Ref sig .tc := ⟨.hbm, 524, rfl⟩
abbrev main_v231 : Ref sig .tc := ⟨.hbm, 525, rfl⟩
abbrev main_c_80 : Ref sig .tc := ⟨.hbm, 526, rfl⟩
abbrev main_v232 : Ref sig .tc := ⟨.hbm, 527, rfl⟩
abbrev main_v233 : Ref sig .tc := ⟨.hbm, 528, rfl⟩
abbrev main_v234 : Ref sig .tc := ⟨.hbm, 529, rfl⟩
abbrev main_call20_c : Ref sig .tc := ⟨.hbm, 530, rfl⟩
abbrev main_call20_v0 : Ref sig .tc := ⟨.hbm, 531, rfl⟩
abbrev main_call20_v1 : Ref sig .tc := ⟨.hbm, 532, rfl⟩
abbrev main_call20_c_0 : Ref sig .tc := ⟨.hbm, 533, rfl⟩
abbrev main_call20_v2 : Ref sig .tc := ⟨.hbm, 534, rfl⟩
abbrev main_call20_v3 : Ref sig .tc := ⟨.hbm, 535, rfl⟩
abbrev main_call20_v4 : Ref sig .tc := ⟨.hbm, 536, rfl⟩
abbrev main_call20_v5 : Ref sig .tc := ⟨.hbm, 537, rfl⟩
abbrev main_call20_c_1 : Ref sig .tc := ⟨.hbm, 538, rfl⟩
abbrev main_call20_c_2 : Ref sig .tc := ⟨.hbm, 539, rfl⟩
abbrev main_call20_v6 : Ref sig .tc := ⟨.hbm, 540, rfl⟩
abbrev main_call20_v7 : Ref sig .tc := ⟨.hbm, 541, rfl⟩
abbrev main_call20_v8 : Ref sig .tc := ⟨.hbm, 542, rfl⟩
abbrev main_call20_v9 : Ref sig .tc := ⟨.hbm, 543, rfl⟩
abbrev main_call20_v10 : Ref sig .tc := ⟨.hbm, 544, rfl⟩
abbrev main_call20_v11 : Ref sig .tc := ⟨.hbm, 545, rfl⟩
abbrev main_call20_c_3 : Ref sig .tc := ⟨.hbm, 546, rfl⟩
abbrev main_call20_v12 : Ref sig .tc := ⟨.hbm, 547, rfl⟩
abbrev main_call20_v13 : Ref sig .tc := ⟨.hbm, 548, rfl⟩
abbrev main_call20_v14 : Ref sig .tc := ⟨.hbm, 549, rfl⟩
abbrev main_call20_cst : Ref sig .tc := ⟨.hbm, 550, rfl⟩
abbrev main_call20_v15 : Ref sig .tc := ⟨.hbm, 551, rfl⟩
abbrev main_v235 : Ref sig .tc := ⟨.hbm, 552, rfl⟩
abbrev main_v236 : Ref sig .tc := ⟨.hbm, 553, rfl⟩
abbrev main_v237 : Ref sig .tc := ⟨.hbm, 554, rfl⟩
abbrev main_v238 : Ref sig .tc := ⟨.hbm, 555, rfl⟩
abbrev main_v239 : Ref sig .tc := ⟨.hbm, 556, rfl⟩
abbrev main_v240 : Ref sig .tc := ⟨.hbm, 557, rfl⟩
abbrev main_v241 : Ref sig .tc := ⟨.hbm, 558, rfl⟩
abbrev main_cst_81 : Ref sig .tc := ⟨.hbm, 559, rfl⟩
abbrev main_v242 : Ref sig .tc := ⟨.hbm, 560, rfl⟩
abbrev main_v243 : Ref sig .tc := ⟨.hbm, 561, rfl⟩
abbrev main_cst_82 : Ref sig .tc := ⟨.hbm, 562, rfl⟩
abbrev main_v244 : Ref sig .tc := ⟨.hbm, 563, rfl⟩
abbrev main_v245 : Ref sig .tc := ⟨.hbm, 564, rfl⟩
abbrev main_v246 : Ref sig .tc := ⟨.hbm, 565, rfl⟩
abbrev main_cst_83 : Ref sig .tc := ⟨.hbm, 566, rfl⟩
abbrev main_v247 : Ref sig .tc := ⟨.hbm, 567, rfl⟩
abbrev main_v248 : Ref sig .tc := ⟨.hbm, 568, rfl⟩
abbrev main_v249 : Ref sig .tc := ⟨.hbm, 569, rfl⟩
abbrev main_cst_84 : Ref sig .tc := ⟨.hbm, 570, rfl⟩
abbrev main_v250 : Ref sig .tc := ⟨.hbm, 571, rfl⟩
abbrev main_v251 : Ref sig .tc := ⟨.hbm, 572, rfl⟩
abbrev main_v252 : Ref sig .tc := ⟨.hbm, 573, rfl⟩
abbrev main_v253 : Ref sig .tc := ⟨.hbm, 574, rfl⟩
abbrev main_c_85 : Ref sig .tc := ⟨.hbm, 575, rfl⟩
abbrev main_c_86 : Ref sig .tc := ⟨.hbm, 576, rfl⟩
abbrev main_call21_v0 : Ref sig .tc := ⟨.hbm, 577, rfl⟩
abbrev main_call21_v1 : Ref sig .tc := ⟨.hbm, 578, rfl⟩
abbrev main_call21_v2 : Ref sig .tc := ⟨.hbm, 579, rfl⟩
abbrev main_call21_v3 : Ref sig .tc := ⟨.hbm, 580, rfl⟩
abbrev main_call21_v4 : Ref sig .tc := ⟨.hbm, 581, rfl⟩
abbrev main_v254 : Ref sig .tc := ⟨.hbm, 582, rfl⟩
abbrev main_v255 : Ref sig .tc := ⟨.hbm, 583, rfl⟩
abbrev main_c_87 : Ref sig .tc := ⟨.hbm, 584, rfl⟩
abbrev main_c_88 : Ref sig .tc := ⟨.hbm, 585, rfl⟩
abbrev main_call22_v0 : Ref sig .tc := ⟨.hbm, 586, rfl⟩
abbrev main_call22_v1 : Ref sig .tc := ⟨.hbm, 587, rfl⟩
abbrev main_call22_v2 : Ref sig .tc := ⟨.hbm, 588, rfl⟩
abbrev main_call22_v3 : Ref sig .tc := ⟨.hbm, 589, rfl⟩
abbrev main_call22_v4 : Ref sig .tc := ⟨.hbm, 590, rfl⟩
abbrev main_v256 : Ref sig .tc := ⟨.hbm, 591, rfl⟩
abbrev main_v257 : Ref sig .tc := ⟨.hbm, 592, rfl⟩
abbrev main_c_89 : Ref sig .tc := ⟨.hbm, 593, rfl⟩
abbrev main_v258 : Ref sig .tc := ⟨.hbm, 594, rfl⟩
abbrev main_v259 : Ref sig .tc := ⟨.hbm, 595, rfl⟩
abbrev main_v260 : Ref sig .tc := ⟨.hbm, 596, rfl⟩
abbrev main_call23_c : Ref sig .tc := ⟨.hbm, 597, rfl⟩
abbrev main_call23_v0 : Ref sig .tc := ⟨.hbm, 598, rfl⟩
abbrev main_call23_v1 : Ref sig .tc := ⟨.hbm, 599, rfl⟩
abbrev main_call23_c_0 : Ref sig .tc := ⟨.hbm, 600, rfl⟩
abbrev main_call23_v2 : Ref sig .tc := ⟨.hbm, 601, rfl⟩
abbrev main_call23_v3 : Ref sig .tc := ⟨.hbm, 602, rfl⟩
abbrev main_call23_v4 : Ref sig .tc := ⟨.hbm, 603, rfl⟩
abbrev main_call23_v5 : Ref sig .tc := ⟨.hbm, 604, rfl⟩
abbrev main_call23_c_1 : Ref sig .tc := ⟨.hbm, 605, rfl⟩
abbrev main_call23_c_2 : Ref sig .tc := ⟨.hbm, 606, rfl⟩
abbrev main_call23_v6 : Ref sig .tc := ⟨.hbm, 607, rfl⟩
abbrev main_call23_v7 : Ref sig .tc := ⟨.hbm, 608, rfl⟩
abbrev main_call23_v8 : Ref sig .tc := ⟨.hbm, 609, rfl⟩
abbrev main_call23_v9 : Ref sig .tc := ⟨.hbm, 610, rfl⟩
abbrev main_call23_v10 : Ref sig .tc := ⟨.hbm, 611, rfl⟩
abbrev main_call23_v11 : Ref sig .tc := ⟨.hbm, 612, rfl⟩
abbrev main_call23_c_3 : Ref sig .tc := ⟨.hbm, 613, rfl⟩
abbrev main_call23_v12 : Ref sig .tc := ⟨.hbm, 614, rfl⟩
abbrev main_call23_v13 : Ref sig .tc := ⟨.hbm, 615, rfl⟩
abbrev main_call23_v14 : Ref sig .tc := ⟨.hbm, 616, rfl⟩
abbrev main_call23_cst : Ref sig .tc := ⟨.hbm, 617, rfl⟩
abbrev main_call23_v15 : Ref sig .tc := ⟨.hbm, 618, rfl⟩
abbrev main_v261 : Ref sig .tc := ⟨.hbm, 619, rfl⟩
abbrev main_v262 : Ref sig .tc := ⟨.hbm, 620, rfl⟩
abbrev main_v263 : Ref sig .tc := ⟨.hbm, 621, rfl⟩
abbrev main_v264 : Ref sig .tc := ⟨.hbm, 622, rfl⟩
abbrev main_v265 : Ref sig .tc := ⟨.hbm, 623, rfl⟩
abbrev main_v266 : Ref sig .tc := ⟨.hbm, 624, rfl⟩
abbrev main_v267 : Ref sig .tc := ⟨.hbm, 625, rfl⟩
abbrev main_v268 : Ref sig .tc := ⟨.hbm, 626, rfl⟩
abbrev main_v269 : Ref sig .tc := ⟨.hbm, 627, rfl⟩
abbrev main_v270 : Ref sig .tc := ⟨.hbm, 628, rfl⟩
abbrev main_v271 : Ref sig .tc := ⟨.hbm, 629, rfl⟩
abbrev main_v272 : Ref sig .tc := ⟨.hbm, 630, rfl⟩
abbrev main_v273 : Ref sig .tc := ⟨.hbm, 631, rfl⟩
abbrev main_v274 : Ref sig .tc := ⟨.hbm, 632, rfl⟩
abbrev main_c_90 : Ref sig .tc := ⟨.hbm, 633, rfl⟩
abbrev main_call24_v0 : Ref sig .tc := ⟨.hbm, 634, rfl⟩
abbrev main_v275 : Ref sig .tc := ⟨.hbm, 635, rfl⟩
abbrev main_c_91 : Ref sig .tc := ⟨.hbm, 636, rfl⟩
abbrev main_call25_v0 : Ref sig .tc := ⟨.hbm, 637, rfl⟩
abbrev main_v276 : Ref sig .tc := ⟨.hbm, 638, rfl⟩
abbrev main_v277 : Ref sig .tc := ⟨.hbm, 639, rfl⟩
abbrev main_v278 : Ref sig .tc := ⟨.hbm, 640, rfl⟩
abbrev main_v279 : Ref sig .tc := ⟨.hbm, 641, rfl⟩
abbrev main_v280 : Ref sig .tc := ⟨.hbm, 642, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S1x500000x3_S500000x3 : S1x500000x3.ShapeCasts S500000x3
  shapeCasts_S1x128x256x256_S128x256x256 : S1x128x256x256.ShapeCasts S128x256x256
  transposes_S128x256x256_S256x256x128_1_2_0 : S128x256x256.Transposes [1, 2, 0] S256x256x128
  shapeCasts_S256x256x128_S65536x128 : S256x256x128.ShapeCasts S65536x128
  slices_S500000x3_S500000x1_0_0 : S500000x3.Slices ![0, 0] S500000x1
  shapeCasts_S500000x1_S500000 : S500000x1.ShapeCasts S500000
  slices_S500000x3_S500000x1_0_1 : S500000x3.Slices ![0, 1] S500000x1
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S500000x1_S500000x128_0_1 : S500000x1.BroadcastsInDim S500000x128 (![0, 1] : Fin 2 → Fin S500000x128.rank)
  bitsLt_bf16_f32 : FTy.bits .bf16 < FTy.bits .f32
  slices_S500000x3_S500000x1_0_2 : S500000x3.Slices ![0, 2] S500000x1
  transposes_S128x128_S128x128_1_0 : S128x128.Transposes [1, 0] S128x128
  shapeCasts_S128_S1x128 : S128.ShapeCasts S1x128
  shapeCasts_S1_S1x1 : S1.ShapeCasts S1x1
  pads_S500000x128_S507904x128_079040_000 : S500000x128.Pads (![0, 0] : Fin 2 → Nat) ![7904, 0] ![0, 0] S507904x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  reduces_S8192x128_S8192 : S8192x128.Reduces [1] S8192
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  transposes_S8192x1_p1_0_S1x8192 : S8192x1.Transposes [1, 0] S1x8192
  shapeCasts_S1x8192_S1x1x8192 : S1x8192.ShapeCasts S1x1x8192
  inb_S1x1x8192_S1x1x8192_0_0_0 : ∀ a, (![0, 0, 0] : Fin 3 → Nat) a + S1x1x8192.size a ≤ S1x1x8192.size a
  h_S1x1x8192 : 0 < S1x1x8192.numel
  shapeCasts_S62x1x8192_S507904 : S62x1x8192.ShapeCasts S507904
  slices_S507904_S500000_0 : S507904.Slices ![0] S500000
  shapeCasts_S500000_S1x500000x1 : S500000.ShapeCasts S1x500000x1
  gather_S65536x128_S500000x1_S500000x128_1_0_n_n_0_1_1128_wf : GatherDims.WF S65536x128 S500000x1 S500000x128 [1] [0] [] [0] [] 1 ![1, 128]
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S507904x128.size a
  hwx0_0 : ∀ i : grid0.Coords, EltTy.bits .bf16 = 32 ∨ (Rect.block (s := S507904x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S507904x128.size a
  hwx0_1 : ∀ i : grid0.Coords, EltTy.bits .bf16 = 32 ∨ (Rect.block (s := S507904x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x8192.size a ≤ S62x1x8192.size a
  hwx0_8 : ∀ i : grid0.Coords, EltTy.bits .f32 = 32 ∨ (Rect.block (s := S62x1x8192) S1x1x8192.size (cc0_transform_8 i) (hinb0_8 i)).WholeWords (EltTy.packing .f32)

variable [Facts₀]

def gather_S65536x128_S500000x1_S500000x128_1_0_n_n_0_1_1128 : GatherDims S65536x128 S500000x1 S500000x128 where
  offsetDims := [1]
  collapsedSliceDims := [0]
  operandBatchingDims := []
  startIndicesBatchingDims := []
  startIndexMap := [0]
  indexVectorDim := 1
  sliceSizes := ![1, 128]
  wf := gather_S65536x128_S500000x1_S500000x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v275) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v276) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v269) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v272) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v271) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v273) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v274) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v277) S1x1x8192.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1x500000x3 : Shape := ⟨3, ![1, 500000, 3]⟩
abbrev S1x128x256x256 : Shape := ⟨4, ![1, 128, 256, 256]⟩
abbrev S128x128 : Shape := ⟨2, ![128, 128]⟩
abbrev S128 : Shape := ⟨1, ![128]⟩
abbrev S1x128 : Shape := ⟨2, ![1, 128]⟩
abbrev S1 : Shape := ⟨1, ![1]⟩
abbrev S500000x3 : Shape := ⟨2, ![500000, 3]⟩
abbrev S128x256x256 : Shape := ⟨3, ![128, 256, 256]⟩
abbrev S500000x1 : Shape := ⟨2, ![500000, 1]⟩
abbrev S500000 : Shape := ⟨1, ![500000]⟩
abbrev S_ : Shape := ⟨0, ![]⟩
abbrev S500000x2 : Shape := ⟨2, ![500000, 2]⟩
abbrev S128x500000 : Shape := ⟨2, ![128, 500000]⟩
abbrev S1x500000 : Shape := ⟨2, ![1, 500000]⟩
abbrev S500000x128 : Shape := ⟨2, ![500000, 128]⟩
abbrev S128x1 : Shape := ⟨2, ![128, 1]⟩
abbrev S1x1 : Shape := ⟨2, ![1, 1]⟩
abbrev S1x500000x1 : Shape := ⟨3, ![1, 500000, 1]⟩

abbrev nBuf : Space → Nat
  | .hbm => 578
  | .vmem => 0
  | .smem => 0
  | _ => 0

abbrev hbmTy0_0 (i : Nat) : BufTy := match i % 128 with
  | 0 => ⟨S1x500000x3, .f32⟩
  | 1 => ⟨S1x128x256x256, .f32⟩
  | 2 => ⟨S1x128x256x256, .f32⟩
  | 3 => ⟨S1x128x256x256, .f32⟩
  | 4 => ⟨S128x128, .f32⟩
  | 5 => ⟨S128, .f32⟩
  | 6 => ⟨S128x128, .f32⟩
  | 7 => ⟨S128, .f32⟩
  | 8 => ⟨S1x128, .f32⟩
  | 9 => ⟨S1, .f32⟩
  | 10 => ⟨S500000x3, .f32⟩
  | 11 => ⟨S128x256x256, .f32⟩
  | 12 => ⟨S500000x1, .f32⟩
  | 13 => ⟨S500000, .f32⟩
  | 14 => ⟨S500000x1, .f32⟩
  | 15 => ⟨S500000, .f32⟩
  | 16 => ⟨S_, .f32⟩
  | 17 => ⟨S500000, .f32⟩
  | 18 => ⟨S500000, .f32⟩
  | 19 => ⟨S_, .f32⟩
  | 20 => ⟨S500000, .f32⟩
  | 21 => ⟨S500000, .f32⟩
  | 22 => ⟨S_, .f32⟩
  | 23 => ⟨S500000, .f32⟩
  | 24 => ⟨S500000, .f32⟩
  | 25 => ⟨S_, .f32⟩
  | 26 => ⟨S500000, .f32⟩
  | 27 => ⟨S500000, .f32⟩
  | 28 => ⟨S_, .f32⟩
  | 29 => ⟨S500000, .f32⟩
  | 30 => ⟨S500000, .f32⟩
  | 31 => ⟨S_, .f32⟩
  | 32 => ⟨S500000, .f32⟩
  | 33 => ⟨S500000, .f32⟩
  | 34 => ⟨S500000, .f32⟩
  | 35 => ⟨S500000, .f32⟩
  | 36 => ⟨S_, .f32⟩
  | 37 => ⟨S500000, .f32⟩
  | 38 => ⟨S500000, .f32⟩
  | 39 => ⟨S_, .f32⟩
  | 40 => ⟨S500000, .f32⟩
  | 41 => ⟨S500000, .f32⟩
  | 42 => ⟨S500000, .f32⟩
  | 43 => ⟨S_, .f32⟩
  | 44 => ⟨S500000, .f32⟩
  | 45 => ⟨S500000, .f32⟩
  | 46 => ⟨S500000, .f32⟩
  | 47 => ⟨S_, .f32⟩
  | 48 => ⟨S500000, .f32⟩
  | 49 => ⟨S500000, .f32⟩
  | 50 => ⟨S500000, .f32⟩
  | 51 => ⟨S_, .f32⟩
  | 52 => ⟨S500000, .f32⟩
  | 53 => ⟨S500000, .i1⟩
  | 54 => ⟨S_, .f32⟩
  | 55 => ⟨S500000, .f32⟩
  | 56 => ⟨S500000, .i1⟩
  | 57 => ⟨S500000, .i1⟩
  | 58 => ⟨S_, .f32⟩
  | 59 => ⟨S500000, .f32⟩
  | 60 => ⟨S500000, .i1⟩
  | 61 => ⟨S500000, .i1⟩
  | 62 => ⟨S_, .f32⟩
  | 63 => ⟨S500000, .f32⟩
  | 64 => ⟨S500000, .i1⟩
  | 65 => ⟨S500000, .i1⟩
  | 66 => ⟨S500000, .f32⟩
  | 67 => ⟨S_, .i32⟩
  | 68 => ⟨S_, .i32⟩
  | 69 => ⟨S_, .f32⟩
  | 70 => ⟨S500000, .f32⟩
  | 71 => ⟨S500000, .f32⟩
  | 72 => ⟨S_, .f32⟩
  | 73 => ⟨S500000, .f32⟩
  | 74 => ⟨S500000, .f32⟩
  | 75 => ⟨S500000, .i32⟩
  | 76 => ⟨S_, .i32⟩
  | 77 => ⟨S_, .i32⟩
  | 78 => ⟨S_, .f32⟩
  | 79 => ⟨S500000, .f32⟩
  | 80 => ⟨S500000, .f32⟩
  | 81 => ⟨S_, .f32⟩
  | 82 => ⟨S500000, .f32⟩
  | 83 => ⟨S500000, .f32⟩
  | 84 => ⟨S500000, .i32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000x1, .i32⟩
  | 101 => ⟨S500000x2, .i32⟩
  | 102 => ⟨S128x500000, .f32⟩
  | 103 => ⟨S500000, .f32⟩
  | 104 => ⟨S1x500000, .f32⟩
  | 105 => ⟨S128x500000, .f32⟩
  | 106 => ⟨S128x500000, .f32⟩
  | 107 => ⟨S500000, .f32⟩
  | 108 => ⟨S_, .f32⟩
  | 109 => ⟨S500000, .f32⟩
  | 110 => ⟨S500000, .i1⟩
  | 111 => ⟨S_, .f32⟩
  | 112 => ⟨S500000, .f32⟩
  | 113 => ⟨S500000, .i1⟩
  | 114 => ⟨S500000, .i1⟩
  | 115 => ⟨S_, .f32⟩
  | 116 => ⟨S500000, .f32⟩
  | 117 => ⟨S500000, .i1⟩
  | 118 => ⟨S500000, .i1⟩
  | 119 => ⟨S_, .f32⟩
  | 120 => ⟨S500000, .f32⟩
  | 121 => ⟨S500000, .i1⟩
  | 122 => ⟨S500000, .i1⟩
  | 123 => ⟨S500000, .f32⟩
  | 124 => ⟨S_, .i32⟩
  | 125 => ⟨S_, .i32⟩
  | 126 => ⟨S_, .f32⟩
  | 127 => ⟨S500000, .f32⟩
  | _ => ⟨S1x500000x3, .f32⟩

abbrev hbmTy0_1 (i : Nat) : BufTy := match i % 128 with
  | 0 => ⟨S500000, .f32⟩
  | 1 => ⟨S_, .f32⟩
  | 2 => ⟨S500000, .f32⟩
  | 3 => ⟨S500000, .f32⟩
  | 4 => ⟨S500000, .i32⟩
  | 5 => ⟨S_, .i32⟩
  | 6 => ⟨S_, .i32⟩
  | 7 => ⟨S_, .f32⟩
  | 8 => ⟨S500000, .f32⟩
  | 9 => ⟨S500000, .f32⟩
  | 10 => ⟨S_, .f32⟩
  | 11 => ⟨S500000, .f32⟩
  | 12 => ⟨S500000, .f32⟩
  | 13 => ⟨S500000, .i32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x1, .i32⟩
  | 30 => ⟨S500000x2, .i32⟩
  | 31 => ⟨S128x500000, .f32⟩
  | 32 => ⟨S500000, .f32⟩
  | 33 => ⟨S1x500000, .f32⟩
  | 34 => ⟨S128x500000, .f32⟩
  | 35 => ⟨S128x500000, .f32⟩
  | 36 => ⟨S128x500000, .f32⟩
  | 37 => ⟨S500000, .f32⟩
  | 38 => ⟨S_, .f32⟩
  | 39 => ⟨S500000, .f32⟩
  | 40 => ⟨S500000, .i1⟩
  | 41 => ⟨S_, .f32⟩
  | 42 => ⟨S500000, .f32⟩
  | 43 => ⟨S500000, .i1⟩
  | 44 => ⟨S500000, .i1⟩
  | 45 => ⟨S_, .f32⟩
  | 46 => ⟨S500000, .f32⟩
  | 47 => ⟨S500000, .i1⟩
  | 48 => ⟨S500000, .i1⟩
  | 49 => ⟨S_, .f32⟩
  | 50 => ⟨S500000, .f32⟩
  | 51 => ⟨S500000, .i1⟩
  | 52 => ⟨S500000, .i1⟩
  | 53 => ⟨S500000, .f32⟩
  | 54 => ⟨S_, .i32⟩
  | 55 => ⟨S_, .i32⟩
  | 56 => ⟨S_, .f32⟩
  | 57 => ⟨S500000, .f32⟩
  | 58 => ⟨S500000, .f32⟩
  | 59 => ⟨S_, .f32⟩
  | 60 => ⟨S500000, .f32⟩
  | 61 => ⟨S500000, .f32⟩
  | 62 => ⟨S500000, .i32⟩
  | 63 => ⟨S_, .i32⟩
  | 64 => ⟨S_, .i32⟩
  | 65 => ⟨S_, .f32⟩
  | 66 => ⟨S500000, .f32⟩
  | 67 => ⟨S500000, .f32⟩
  | 68 => ⟨S_, .f32⟩
  | 69 => ⟨S500000, .f32⟩
  | 70 => ⟨S500000, .f32⟩
  | 71 => ⟨S500000, .i32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S500000x1, .i32⟩
  | 88 => ⟨S500000x2, .i32⟩
  | 89 => ⟨S128x500000, .f32⟩
  | 90 => ⟨S500000, .f32⟩
  | 91 => ⟨S1x500000, .f32⟩
  | 92 => ⟨S128x500000, .f32⟩
  | 93 => ⟨S128x500000, .f32⟩
  | 94 => ⟨S128x500000, .f32⟩
  | 95 => ⟨S500000, .f32⟩
  | 96 => ⟨S_, .f32⟩
  | 97 => ⟨S500000, .f32⟩
  | 98 => ⟨S500000, .i1⟩
  | 99 => ⟨S_, .f32⟩
  | 100 => ⟨S500000, .f32⟩
  | 101 => ⟨S500000, .i1⟩
  | 102 => ⟨S500000, .i1⟩
  | 103 => ⟨S_, .f32⟩
  | 104 => ⟨S500000, .f32⟩
  | 105 => ⟨S500000, .i1⟩
  | 106 => ⟨S500000, .i1⟩
  | 107 => ⟨S_, .f32⟩
  | 108 => ⟨S500000, .f32⟩
  | 109 => ⟨S500000, .i1⟩
  | 110 => ⟨S500000, .i1⟩
  | 111 => ⟨S500000, .f32⟩
  | 112 => ⟨S_, .i32⟩
  | 113 => ⟨S_, .i32⟩
  | 114 => ⟨S_, .f32⟩
  | 115 => ⟨S500000, .f32⟩
  | 116 => ⟨S500000, .f32⟩
  | 117 => ⟨S_, .f32⟩
  | 118 => ⟨S500000, .f32⟩
  | 119 => ⟨S500000, .f32⟩
  | 120 => ⟨S500000, .i32⟩
  | 121 => ⟨S_, .i32⟩
  | 122 => ⟨S_, .i32⟩
  | 123 => ⟨S_, .f32⟩
  | 124 => ⟨S500000, .f32⟩
  | 125 => ⟨S500000, .f32⟩
  | 126 => ⟨S_, .f32⟩
  | 127 => ⟨S500000, .f32⟩
  | _ => ⟨S1x500000x3, .f32⟩

abbrev hbmTy0_2 (i : Nat) : BufTy := match i % 128 with
  | 0 => ⟨S500000, .f32⟩
  | 1 => ⟨S500000, .i32⟩
  | 2 => ⟨S_, .i32⟩
  | 3 => ⟨S500000, .i32⟩
  | 4 => ⟨S500000, .i1⟩
  | 5 => ⟨S_, .i32⟩
  | 6 => ⟨S500000, .i32⟩
  | 7 => ⟨S500000, .i32⟩
  | 8 => ⟨S500000, .i32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x1, .i32⟩
  | 18 => ⟨S500000x2, .i32⟩
  | 19 => ⟨S128x500000, .f32⟩
  | 20 => ⟨S500000, .f32⟩
  | 21 => ⟨S1x500000, .f32⟩
  | 22 => ⟨S128x500000, .f32⟩
  | 23 => ⟨S128x500000, .f32⟩
  | 24 => ⟨S128x500000, .f32⟩
  | 25 => ⟨S500000x128, .f32⟩
  | 26 => ⟨S500000x1, .f32⟩
  | 27 => ⟨S500000, .f32⟩
  | 28 => ⟨S500000x1, .f32⟩
  | 29 => ⟨S500000, .f32⟩
  | 30 => ⟨S_, .f32⟩
  | 31 => ⟨S500000, .f32⟩
  | 32 => ⟨S500000, .f32⟩
  | 33 => ⟨S_, .f32⟩
  | 34 => ⟨S500000, .f32⟩
  | 35 => ⟨S500000, .f32⟩
  | 36 => ⟨S_, .f32⟩
  | 37 => ⟨S500000, .f32⟩
  | 38 => ⟨S500000, .f32⟩
  | 39 => ⟨S_, .f32⟩
  | 40 => ⟨S500000, .f32⟩
  | 41 => ⟨S500000, .f32⟩
  | 42 => ⟨S_, .f32⟩
  | 43 => ⟨S500000, .f32⟩
  | 44 => ⟨S500000, .f32⟩
  | 45 => ⟨S_, .f32⟩
  | 46 => ⟨S500000, .f32⟩
  | 47 => ⟨S500000, .f32⟩
  | 48 => ⟨S500000, .f32⟩
  | 49 => ⟨S500000, .f32⟩
  | 50 => ⟨S_, .f32⟩
  | 51 => ⟨S500000, .f32⟩
  | 52 => ⟨S500000, .f32⟩
  | 53 => ⟨S_, .f32⟩
  | 54 => ⟨S500000, .f32⟩
  | 55 => ⟨S500000, .f32⟩
  | 56 => ⟨S500000, .f32⟩
  | 57 => ⟨S_, .f32⟩
  | 58 => ⟨S500000, .f32⟩
  | 59 => ⟨S500000, .f32⟩
  | 60 => ⟨S500000, .f32⟩
  | 61 => ⟨S_, .f32⟩
  | 62 => ⟨S500000, .f32⟩
  | 63 => ⟨S500000, .f32⟩
  | 64 => ⟨S500000, .f32⟩
  | 65 => ⟨S_, .f32⟩
  | 66 => ⟨S500000, .f32⟩
  | 67 => ⟨S500000, .i1⟩
  | 68 => ⟨S_, .f32⟩
  | 69 => ⟨S500000, .f32⟩
  | 70 => ⟨S500000, .i1⟩
  | 71 => ⟨S500000, .i1⟩
  | 72 => ⟨S_, .f32⟩
  | 73 => ⟨S500000, .f32⟩
  | 74 => ⟨S500000, .i1⟩
  | 75 => ⟨S500000, .i1⟩
  | 76 => ⟨S_, .f32⟩
  | 77 => ⟨S500000, .f32⟩
  | 78 => ⟨S500000, .i1⟩
  | 79 => ⟨S500000, .i1⟩
  | 80 => ⟨S500000, .f32⟩
  | 81 => ⟨S_, .i32⟩
  | 82 => ⟨S_, .i32⟩
  | 83 => ⟨S_, .f32⟩
  | 84 => ⟨S500000, .f32⟩
  | 85 => ⟨S500000, .f32⟩
  | 86 => ⟨S_, .f32⟩
  | 87 => ⟨S500000, .f32⟩
  | 88 => ⟨S500000, .f32⟩
  | 89 => ⟨S500000, .i32⟩
  | 90 => ⟨S_, .i32⟩
  | 91 => ⟨S_, .i32⟩
  | 92 => ⟨S_, .f32⟩
  | 93 => ⟨S500000, .f32⟩
  | 94 => ⟨S500000, .f32⟩
  | 95 => ⟨S_, .f32⟩
  | 96 => ⟨S500000, .f32⟩
  | 97 => ⟨S500000, .f32⟩
  | 98 => ⟨S500000, .i32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S_, .i32⟩
  | 107 => ⟨S500000, .i32⟩
  | 108 => ⟨S500000, .i1⟩
  | 109 => ⟨S_, .i32⟩
  | 110 => ⟨S500000, .i32⟩
  | 111 => ⟨S500000, .i32⟩
  | 112 => ⟨S500000, .i32⟩
  | 113 => ⟨S500000x1, .i32⟩
  | 114 => ⟨S500000x1, .i32⟩
  | 115 => ⟨S500000x2, .i32⟩
  | 116 => ⟨S128x500000, .f32⟩
  | 117 => ⟨S500000, .f32⟩
  | 118 => ⟨S1x500000, .f32⟩
  | 119 => ⟨S128x500000, .f32⟩
  | 120 => ⟨S128x500000, .f32⟩
  | 121 => ⟨S500000, .f32⟩
  | 122 => ⟨S_, .f32⟩
  | 123 => ⟨S500000, .f32⟩
  | 124 => ⟨S500000, .i1⟩
  | 125 => ⟨S_, .f32⟩
  | 126 => ⟨S500000, .f32⟩
  | 127 => ⟨S500000, .i1⟩
  | _ => ⟨S1x500000x3, .f32⟩

abbrev hbmTy0_3 (i : Nat) : BufTy := match i % 128 with
  | 0 => ⟨S500000, .i1⟩
  | 1 => ⟨S_, .f32⟩
  | 2 => ⟨S500000, .f32⟩
  | 3 => ⟨S500000, .i1⟩
  | 4 => ⟨S500000, .i1⟩
  | 5 => ⟨S_, .f32⟩
  | 6 => ⟨S500000, .f32⟩
  | 7 => ⟨S500000, .i1⟩
  | 8 => ⟨S500000, .i1⟩
  | 9 => ⟨S500000, .f32⟩
  | 10 => ⟨S_, .i32⟩
  | 11 => ⟨S_, .i32⟩
  | 12 => ⟨S_, .f32⟩
  | 13 => ⟨S500000, .f32⟩
  | 14 => ⟨S500000, .f32⟩
  | 15 => ⟨S_, .f32⟩
  | 16 => ⟨S500000, .f32⟩
  | 17 => ⟨S500000, .f32⟩
  | 18 => ⟨S500000, .i32⟩
  | 19 => ⟨S_, .i32⟩
  | 20 => ⟨S_, .i32⟩
  | 21 => ⟨S_, .f32⟩
  | 22 => ⟨S500000, .f32⟩
  | 23 => ⟨S500000, .f32⟩
  | 24 => ⟨S_, .f32⟩
  | 25 => ⟨S500000, .f32⟩
  | 26 => ⟨S500000, .f32⟩
  | 27 => ⟨S500000, .i32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S500000x1, .i32⟩
  | 44 => ⟨S500000x2, .i32⟩
  | 45 => ⟨S128x500000, .f32⟩
  | 46 => ⟨S500000, .f32⟩
  | 47 => ⟨S1x500000, .f32⟩
  | 48 => ⟨S128x500000, .f32⟩
  | 49 => ⟨S128x500000, .f32⟩
  | 50 => ⟨S128x500000, .f32⟩
  | 51 => ⟨S500000, .f32⟩
  | 52 => ⟨S_, .f32⟩
  | 53 => ⟨S500000, .f32⟩
  | 54 => ⟨S500000, .i1⟩
  | 55 => ⟨S_, .f32⟩
  | 56 => ⟨S500000, .f32⟩
  | 57 => ⟨S500000, .i1⟩
  | 58 => ⟨S500000, .i1⟩
  | 59 => ⟨S_, .f32⟩
  | 60 => ⟨S500000, .f32⟩
  | 61 => ⟨S500000, .i1⟩
  | 62 => ⟨S500000, .i1⟩
  | 63 => ⟨S_, .f32⟩
  | 64 => ⟨S500000, .f32⟩
  | 65 => ⟨S500000, .i1⟩
  | 66 => ⟨S500000, .i1⟩
  | 67 => ⟨S500000, .f32⟩
  | 68 => ⟨S_, .i32⟩
  | 69 => ⟨S_, .i32⟩
  | 70 => ⟨S_, .f32⟩
  | 71 => ⟨S500000, .f32⟩
  | 72 => ⟨S500000, .f32⟩
  | 73 => ⟨S_, .f32⟩
  | 74 => ⟨S500000, .f32⟩
  | 75 => ⟨S500000, .f32⟩
  | 76 => ⟨S500000, .i32⟩
  | 77 => ⟨S_, .i32⟩
  | 78 => ⟨S_, .i32⟩
  | 79 => ⟨S_, .f32⟩
  | 80 => ⟨S500000, .f32⟩
  | 81 => ⟨S500000, .f32⟩
  | 82 => ⟨S_, .f32⟩
  | 83 => ⟨S500000, .f32⟩
  | 84 => ⟨S500000, .f32⟩
  | 85 => ⟨S500000, .i32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000x1, .i32⟩
  | 102 => ⟨S500000x2, .i32⟩
  | 103 => ⟨S128x500000, .f32⟩
  | 104 => ⟨S500000, .f32⟩
  | 105 => ⟨S1x500000, .f32⟩
  | 106 => ⟨S128x500000, .f32⟩
  | 107 => ⟨S128x500000, .f32⟩
  | 108 => ⟨S128x500000, .f32⟩
  | 109 => ⟨S500000, .f32⟩
  | 110 => ⟨S_, .f32⟩
  | 111 => ⟨S500000, .f32⟩
  | 112 => ⟨S500000, .i1⟩
  | 113 => ⟨S_, .f32⟩
  | 114 => ⟨S500000, .f32⟩
  | 115 => ⟨S500000, .i1⟩
  | 116 => ⟨S500000, .i1⟩
  | 117 => ⟨S_, .f32⟩
  | 118 => ⟨S500000, .f32⟩
  | 119 => ⟨S500000, .i1⟩
  | 120 => ⟨S500000, .i1⟩
  | 121 => ⟨S_, .f32⟩
  | 122 => ⟨S500000, .f32⟩
  | 123 => ⟨S500000, .i1⟩
  | 124 => ⟨S500000, .i1⟩
  | 125 => ⟨S500000, .f32⟩
  | 126 => ⟨S_, .i32⟩
  | 127 => ⟨S_, .i32⟩
  | _ => ⟨S1x500000x3, .f32⟩

abbrev hbmTy0_4 (i : Nat) : BufTy := match i % 128 with
  | 0 => ⟨S_, .f32⟩
  | 1 => ⟨S500000, .f32⟩
  | 2 => ⟨S500000, .f32⟩
  | 3 => ⟨S_, .f32⟩
  | 4 => ⟨S500000, .f32⟩
  | 5 => ⟨S500000, .f32⟩
  | 6 => ⟨S500000, .i32⟩
  | 7 => ⟨S_, .i32⟩
  | 8 => ⟨S_, .i32⟩
  | 9 => ⟨S_, .f32⟩
  | 10 => ⟨S500000, .f32⟩
  | 11 => ⟨S500000, .f32⟩
  | 12 => ⟨S_, .f32⟩
  | 13 => ⟨S500000, .f32⟩
  | 14 => ⟨S500000, .f32⟩
  | 15 => ⟨S500000, .i32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x1, .i32⟩
  | 32 => ⟨S500000x2, .i32⟩
  | 33 => ⟨S128x500000, .f32⟩
  | 34 => ⟨S500000, .f32⟩
  | 35 => ⟨S1x500000, .f32⟩
  | 36 => ⟨S128x500000, .f32⟩
  | 37 => ⟨S128x500000, .f32⟩
  | 38 => ⟨S128x500000, .f32⟩
  | 39 => ⟨S500000x128, .f32⟩
  | 40 => ⟨S500000x128, .f32⟩
  | 41 => ⟨S500000x128, .f32⟩
  | 42 => ⟨S128x128, .f32⟩
  | 43 => ⟨S500000x128, .f32⟩
  | 44 => ⟨S1x128, .f32⟩
  | 45 => ⟨S500000x128, .f32⟩
  | 46 => ⟨S500000x128, .f32⟩
  | 47 => ⟨S_, .f32⟩
  | 48 => ⟨S500000x128, .f32⟩
  | 49 => ⟨S500000x128, .f32⟩
  | 50 => ⟨S500000x128, .f32⟩
  | 51 => ⟨S128x128, .f32⟩
  | 52 => ⟨S500000x128, .f32⟩
  | 53 => ⟨S1x128, .f32⟩
  | 54 => ⟨S500000x128, .f32⟩
  | 55 => ⟨S500000x128, .f32⟩
  | 56 => ⟨S_, .f32⟩
  | 57 => ⟨S500000x128, .f32⟩
  | 58 => ⟨S500000x128, .f32⟩
  | 59 => ⟨S500000x128, .f32⟩
  | 60 => ⟨S128x1, .f32⟩
  | 61 => ⟨S500000x1, .f32⟩
  | 62 => ⟨S1x1, .f32⟩
  | 63 => ⟨S500000x1, .f32⟩
  | 64 => ⟨S500000x1, .f32⟩
  | 65 => ⟨S1x500000x1, .f32⟩
  | _ => ⟨S1x500000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x500000x3, .f32⟩

abbrev bufTy : (tb : Table) → Fin (tcTables nBuf tb) → BufTy
  | .hbm, ⟨i, _⟩ => hbmTy i
  | _, _ => ⟨S1x500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_12 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c : Ref sig .tc := ⟨.hbm, 67, rfl⟩
abbrev main_c_13 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_v43 : Ref sig .tc := ⟨.hbm, 74, rfl⟩
abbrev main_v44 : Ref sig .tc := ⟨.hbm, 75, rfl⟩
abbrev main_c_14 : Ref sig .tc := ⟨.hbm, 76, rfl⟩
abbrev main_c_15 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_v45 : Ref sig .tc := ⟨.hbm, 83, rfl⟩
abbrev main_v46 : Ref sig .tc := ⟨.hbm, 84, rfl⟩
abbrev main_c_16 : Ref sig .tc := ⟨.hbm, 85, rfl⟩
abbrev main_v47 : Ref sig .tc := ⟨.hbm, 86, rfl⟩
abbrev main_v48 : Ref sig .tc := ⟨.hbm, 87, rfl⟩
abbrev main_c_17 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_c_18 : Ref sig .tc := ⟨.hbm, 92, rfl⟩
abbrev main_v52 : Ref sig .tc := ⟨.hbm, 93, rfl⟩
abbrev main_v53 : Ref sig .tc := ⟨.hbm, 94, rfl⟩
abbrev main_c_19 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_20 : Ref sig .tc := ⟨.hbm, 108, rfl⟩
abbrev main_v66 : Ref sig .tc := ⟨.hbm, 109, rfl⟩
abbrev main_v67 : Ref sig .tc := ⟨.hbm, 110, rfl⟩
abbrev main_cst_21 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_22 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_23 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_c_24 : Ref sig .tc := ⟨.hbm, 124, rfl⟩
abbrev main_c_25 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_v78 : Ref sig .tc := ⟨.hbm, 131, rfl⟩
abbrev main_v79 : Ref sig .tc := ⟨.hbm, 132, rfl⟩
abbrev main_c_26 : Ref sig .tc := ⟨.hbm, 133, rfl⟩
abbrev main_c_27 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_v80 : Ref sig .tc := ⟨.hbm, 140, rfl⟩
abbrev main_v81 : Ref sig .tc := ⟨.hbm, 141, rfl⟩
abbrev main_c_28 : Ref sig .tc := ⟨.hbm, 142, rfl⟩
abbrev main_v82 : Ref sig .tc := ⟨.hbm, 143, rfl⟩
abbrev main_v83 : Ref sig .tc := ⟨.hbm, 144, rfl⟩
abbrev main_c_29 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_c_30 : Ref sig .tc := ⟨.hbm, 149, rfl⟩
abbrev main_v87 : Ref sig .tc := ⟨.hbm, 150, rfl⟩
abbrev main_v88 : Ref sig .tc := ⟨.hbm, 151, rfl⟩
abbrev main_c_31 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_cst_32 : Ref sig .tc := ⟨.hbm, 166, rfl⟩
abbrev main_v102 : Ref sig .tc := ⟨.hbm, 167, rfl⟩
abbrev main_v103 : Ref sig .tc := ⟨.hbm, 168, rfl⟩
abbrev main_cst_33 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_cst_34 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_cst_35 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_c_36 : Ref sig .tc := ⟨.hbm, 182, rfl⟩
abbrev main_c_37 : Ref sig .tc := ⟨.hbm, 183, rfl⟩
abbrev main_call4_v0 : Ref sig .tc := ⟨.hbm, 184, rfl⟩
abbrev main_call4_v1 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_v114 : Ref sig .tc := ⟨.hbm, 189, rfl⟩
abbrev main_v115 : Ref sig .tc := ⟨.hbm, 190, rfl⟩
abbrev main_c_38 : Ref sig .tc := ⟨.hbm, 191, rfl⟩
abbrev main_c_39 : Ref sig .tc := ⟨.hbm, 192, rfl⟩
abbrev main_call5_v0 : Ref sig .tc := ⟨.hbm, 193, rfl⟩
abbrev main_call5_v1 : Ref sig .tc := ⟨.hbm, 194, rfl⟩
abbrev main_call5_v2 : Ref sig .tc := ⟨.hbm, 195, rfl⟩
abbrev main_call5_v3 : Ref sig .tc := ⟨.hbm, 196, rfl⟩
abbrev main_call5_v4 : Ref sig .tc := ⟨.hbm, 197, rfl⟩
abbrev main_v116 : Ref sig .tc := ⟨.hbm, 198, rfl⟩
abbrev main_v117 : Ref sig .tc := ⟨.hbm, 199, rfl⟩
abbrev main_c_40 : Ref sig .tc := ⟨.hbm, 200, rfl⟩
abbrev main_v118 : Ref sig .tc := ⟨.hbm, 201, rfl⟩
abbrev main_v119 : Ref sig .tc := ⟨.hbm, 202, rfl⟩
abbrev main_c_41 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_c_42 : Ref sig .tc := ⟨.hbm, 207, rfl⟩
abbrev main_v123 : Ref sig .tc := ⟨.hbm, 208, rfl⟩
abbrev main_v124 : Ref sig .tc := ⟨.hbm, 209, rfl⟩
abbrev main_c_43 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_cst_44 : Ref sig .tc := ⟨.hbm, 224, rfl⟩
abbrev main_v138 : Ref sig .tc := ⟨.hbm, 225, rfl⟩
abbrev main_v139 : Ref sig .tc := ⟨.hbm, 226, rfl⟩
abbrev main_cst_45 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_cst_46 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_cst_47 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_c_48 : Ref sig .tc := ⟨.hbm, 240, rfl⟩
abbrev main_c_49 : Ref sig .tc := ⟨.hbm, 241, rfl⟩
abbrev main_call6_v0 : Ref sig .tc := ⟨.hbm, 242, rfl⟩
abbrev main_call6_v1 : Ref sig .tc := ⟨.hbm, 243, rfl⟩
abbrev main_call6_v2 : Ref sig .tc := ⟨.hbm, 244, rfl⟩
abbrev main_call6_v3 : Ref sig .tc := ⟨.hbm, 245, rfl⟩
abbrev main_call6_v4 : Ref sig .tc := ⟨.hbm, 246, rfl⟩
abbrev main_v150 : Ref sig .tc := ⟨.hbm, 247, rfl⟩
abbrev main_v151 : Ref sig .tc := ⟨.hbm, 248, rfl⟩
abbrev main_c_50 : Ref sig .tc := ⟨.hbm, 249, rfl⟩
abbrev main_c_51 : Ref sig .tc := ⟨.hbm, 250, rfl⟩
abbrev main_call7_v0 : Ref sig .tc := ⟨.hbm, 251, rfl⟩
abbrev main_call7_v1 : Ref sig .tc := ⟨.hbm, 252, rfl⟩
abbrev main_call7_v2 : Ref sig .tc := ⟨.hbm, 253, rfl⟩
abbrev main_call7_v3 : Ref sig .tc := ⟨.hbm, 254, rfl⟩
abbrev main_call7_v4 : Ref sig .tc := ⟨.hbm, 255, rfl⟩
abbrev main_v152 : Ref sig .tc := ⟨.hbm, 256, rfl⟩
abbrev main_v153 : Ref sig .tc := ⟨.hbm, 257, rfl⟩
abbrev main_c_52 : Ref sig .tc := ⟨.hbm, 258, rfl⟩
abbrev main_v154 : Ref sig .tc := ⟨.hbm, 259, rfl⟩
abbrev main_v155 : Ref sig .tc := ⟨.hbm, 260, rfl⟩
abbrev main_c_53 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_c_54 : Ref sig .tc := ⟨.hbm, 265, rfl⟩
abbrev main_v159 : Ref sig .tc := ⟨.hbm, 266, rfl⟩
abbrev main_v160 : Ref sig .tc := ⟨.hbm, 267, rfl⟩
abbrev main_c_55 : Ref sig .tc := ⟨.hbm, 268, rfl⟩
abbrev main_v161 : Ref sig .tc := ⟨.hbm, 269, rfl⟩
abbrev main_v162 : Ref sig .tc := ⟨.hbm, 270, rfl⟩
abbrev main_v163 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_v171 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_cst_56 : Ref sig .tc := ⟨.hbm, 286, rfl⟩
abbrev main_v178 : Ref sig .tc := ⟨.hbm, 287, rfl⟩
abbrev main_v179 : Ref sig .tc := ⟨.hbm, 288, rfl⟩
abbrev main_cst_57 : Ref sig .tc := ⟨.hbm, 289, rfl⟩
abbrev main_v180 : Ref sig .tc := ⟨.hbm, 290, rfl⟩
abbrev main_v181 : Ref sig .tc := ⟨.hbm, 291, rfl⟩
abbrev main_cst_58 : Ref sig .tc := ⟨.hbm, 292, rfl⟩
abbrev main_v182 : Ref sig .tc := ⟨.hbm, 293, rfl⟩
abbrev main_v183 : Ref sig .tc := ⟨.hbm, 294, rfl⟩
abbrev main_cst_59 : Ref sig .tc := ⟨.hbm, 295, rfl⟩
abbrev main_v184 : Ref sig .tc := ⟨.hbm, 296, rfl⟩
abbrev main_v185 : Ref sig .tc := ⟨.hbm, 297, rfl⟩
abbrev main_cst_60 : Ref sig .tc := ⟨.hbm, 298, rfl⟩
abbrev main_v186 : Ref sig .tc := ⟨.hbm, 299, rfl⟩
abbrev main_v187 : Ref sig .tc := ⟨.hbm, 300, rfl⟩
abbrev main_cst_61 : Ref sig .tc := ⟨.hbm, 301, rfl⟩
abbrev main_v188 : Ref sig .tc := ⟨.hbm, 302, rfl⟩
abbrev main_v189 : Ref sig .tc := ⟨.hbm, 303, rfl⟩
abbrev main_v190 : Ref sig .tc := ⟨.hbm, 304, rfl⟩
abbrev main_v191 : Ref sig .tc := ⟨.hbm, 305, rfl⟩
abbrev main_cst_62 : Ref sig .tc := ⟨.hbm, 306, rfl⟩
abbrev main_v192 : Ref sig .tc := ⟨.hbm, 307, rfl⟩
abbrev main_v193 : Ref sig .tc := ⟨.hbm, 308, rfl⟩
abbrev main_cst_63 : Ref sig .tc := ⟨.hbm, 309, rfl⟩
abbrev main_v194 : Ref sig .tc := ⟨.hbm, 310, rfl⟩
abbrev main_v195 : Ref sig .tc := ⟨.hbm, 311, rfl⟩
abbrev main_v196 : Ref sig .tc := ⟨.hbm, 312, rfl⟩
abbrev main_cst_64 : Ref sig .tc := ⟨.hbm, 313, rfl⟩
abbrev main_v197 : Ref sig .tc := ⟨.hbm, 314, rfl⟩
abbrev main_v198 : Ref sig .tc := ⟨.hbm, 315, rfl⟩
abbrev main_v199 : Ref sig .tc := ⟨.hbm, 316, rfl⟩
abbrev main_cst_65 : Ref sig .tc := ⟨.hbm, 317, rfl⟩
abbrev main_v200 : Ref sig .tc := ⟨.hbm, 318, rfl⟩
abbrev main_v201 : Ref sig .tc := ⟨.hbm, 319, rfl⟩
abbrev main_v202 : Ref sig .tc := ⟨.hbm, 320, rfl⟩
abbrev main_cst_66 : Ref sig .tc := ⟨.hbm, 321, rfl⟩
abbrev main_v203 : Ref sig .tc := ⟨.hbm, 322, rfl⟩
abbrev main_v204 : Ref sig .tc := ⟨.hbm, 323, rfl⟩
abbrev main_cst_67 : Ref sig .tc := ⟨.hbm, 324, rfl⟩
abbrev main_v205 : Ref sig .tc := ⟨.hbm, 325, rfl⟩
abbrev main_v206 : Ref sig .tc := ⟨.hbm, 326, rfl⟩
abbrev main_v207 : Ref sig .tc := ⟨.hbm, 327, rfl⟩
abbrev main_cst_68 : Ref sig .tc := ⟨.hbm, 328, rfl⟩
abbrev main_v208 : Ref sig .tc := ⟨.hbm, 329, rfl⟩
abbrev main_v209 : Ref sig .tc := ⟨.hbm, 330, rfl⟩
abbrev main_v210 : Ref sig .tc := ⟨.hbm, 331, rfl⟩
abbrev main_cst_69 : Ref sig .tc := ⟨.hbm, 332, rfl⟩
abbrev main_v211 : Ref sig .tc := ⟨.hbm, 333, rfl⟩
abbrev main_v212 : Ref sig .tc := ⟨.hbm, 334, rfl⟩
abbrev main_v213 : Ref sig .tc := ⟨.hbm, 335, rfl⟩
abbrev main_v214 : Ref sig .tc := ⟨.hbm, 336, rfl⟩
abbrev main_c_70 : Ref sig .tc := ⟨.hbm, 337, rfl⟩
abbrev main_c_71 : Ref sig .tc := ⟨.hbm, 338, rfl⟩
abbrev main_call8_v0 : Ref sig .tc := ⟨.hbm, 339, rfl⟩
abbrev main_call8_v1 : Ref sig .tc := ⟨.hbm, 340, rfl⟩
abbrev main_call8_v2 : Ref sig .tc := ⟨.hbm, 341, rfl⟩
abbrev main_call8_v3 : Ref sig .tc := ⟨.hbm, 342, rfl⟩
abbrev main_call8_v4 : Ref sig .tc := ⟨.hbm, 343, rfl⟩
abbrev main_v215 : Ref sig .tc := ⟨.hbm, 344, rfl⟩
abbrev main_v216 : Ref sig .tc := ⟨.hbm, 345, rfl⟩
abbrev main_c_72 : Ref sig .tc := ⟨.hbm, 346, rfl⟩
abbrev main_c_73 : Ref sig .tc := ⟨.hbm, 347, rfl⟩
abbrev main_call9_v0 : Ref sig .tc := ⟨.hbm, 348, rfl⟩
abbrev main_call9_v1 : Ref sig .tc := ⟨.hbm, 349, rfl⟩
abbrev main_call9_v2 : Ref sig .tc := ⟨.hbm, 350, rfl⟩
abbrev main_call9_v3 : Ref sig .tc := ⟨.hbm, 351, rfl⟩
abbrev main_call9_v4 : Ref sig .tc := ⟨.hbm, 352, rfl⟩
abbrev main_v217 : Ref sig .tc := ⟨.hbm, 353, rfl⟩
abbrev main_v218 : Ref sig .tc := ⟨.hbm, 354, rfl⟩
abbrev main_c_74 : Ref sig .tc := ⟨.hbm, 355, rfl⟩
abbrev main_v219 : Ref sig .tc := ⟨.hbm, 356, rfl⟩
abbrev main_v220 : Ref sig .tc := ⟨.hbm, 357, rfl⟩
abbrev main_c_75 : Ref sig .tc := ⟨.hbm, 358, rfl⟩
abbrev main_v221 : Ref sig .tc := ⟨.hbm, 359, rfl⟩
abbrev main_v222 : Ref sig .tc := ⟨.hbm, 360, rfl⟩
abbrev main_v223 : Ref sig .tc := ⟨.hbm, 361, rfl⟩
abbrev main_c_76 : Ref sig .tc := ⟨.hbm, 362, rfl⟩
abbrev main_v224 : Ref sig .tc := ⟨.hbm, 363, rfl⟩
abbrev main_v225 : Ref sig .tc := ⟨.hbm, 364, rfl⟩
abbrev main_c_77 : Ref sig .tc := ⟨.hbm, 365, rfl⟩
abbrev main_v226 : Ref sig .tc := ⟨.hbm, 366, rfl⟩
abbrev main_v227 : Ref sig .tc := ⟨.hbm, 367, rfl⟩
abbrev main_v228 : Ref sig .tc := ⟨.hbm, 368, rfl⟩
abbrev main_v229 : Ref sig .tc := ⟨.hbm, 369, rfl⟩
abbrev main_v230 : Ref sig .tc := ⟨.hbm, 370, rfl⟩
abbrev main_v231 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_v235 : Ref sig .tc := ⟨.hbm, 375, rfl⟩
abbrev main_v236 : Ref sig .tc := ⟨.hbm, 376, rfl⟩
abbrev main_v237 : Ref sig .tc := ⟨.hbm, 377, rfl⟩
abbrev main_cst_78 : Ref sig .tc := ⟨.hbm, 378, rfl⟩
abbrev main_v238 : Ref sig .tc := ⟨.hbm, 379, rfl⟩
abbrev main_v239 : Ref sig .tc := ⟨.hbm, 380, rfl⟩
abbrev main_cst_79 : Ref sig .tc := ⟨.hbm, 381, rfl⟩
abbrev main_v240 : Ref sig .tc := ⟨.hbm, 382, rfl⟩
abbrev main_v241 : Ref sig .tc := ⟨.hbm, 383, rfl⟩
abbrev main_v242 : Ref sig .tc := ⟨.hbm, 384, rfl⟩
abbrev main_cst_80 : Ref sig .tc := ⟨.hbm, 385, rfl⟩
abbrev main_v243 : Ref sig .tc := ⟨.hbm, 386, rfl⟩
abbrev main_v244 : Ref sig .tc := ⟨.hbm, 387, rfl⟩
abbrev main_v245 : Ref sig .tc := ⟨.hbm, 388, rfl⟩
abbrev main_cst_81 : Ref sig .tc := ⟨.hbm, 389, rfl⟩
abbrev main_v246 : Ref sig .tc := ⟨.hbm, 390, rfl⟩
abbrev main_v247 : Ref sig .tc := ⟨.hbm, 391, rfl⟩
abbrev main_v248 : Ref sig .tc := ⟨.hbm, 392, rfl⟩
abbrev main_v249 : Ref sig .tc := ⟨.hbm, 393, rfl⟩
abbrev main_c_82 : Ref sig .tc := ⟨.hbm, 394, rfl⟩
abbrev main_c_83 : Ref sig .tc := ⟨.hbm, 395, rfl⟩
abbrev main_call10_v0 : Ref sig .tc := ⟨.hbm, 396, rfl⟩
abbrev main_call10_v1 : Ref sig .tc := ⟨.hbm, 397, rfl⟩
abbrev main_call10_v2 : Ref sig .tc := ⟨.hbm, 398, rfl⟩
abbrev main_call10_v3 : Ref sig .tc := ⟨.hbm, 399, rfl⟩
abbrev main_call10_v4 : Ref sig .tc := ⟨.hbm, 400, rfl⟩
abbrev main_v250 : Ref sig .tc := ⟨.hbm, 401, rfl⟩
abbrev main_v251 : Ref sig .tc := ⟨.hbm, 402, rfl⟩
abbrev main_c_84 : Ref sig .tc := ⟨.hbm, 403, rfl⟩
abbrev main_c_85 : Ref sig .tc := ⟨.hbm, 404, rfl⟩
abbrev main_call11_v0 : Ref sig .tc := ⟨.hbm, 405, rfl⟩
abbrev main_call11_v1 : Ref sig .tc := ⟨.hbm, 406, rfl⟩
abbrev main_call11_v2 : Ref sig .tc := ⟨.hbm, 407, rfl⟩
abbrev main_call11_v3 : Ref sig .tc := ⟨.hbm, 408, rfl⟩
abbrev main_call11_v4 : Ref sig .tc := ⟨.hbm, 409, rfl⟩
abbrev main_v252 : Ref sig .tc := ⟨.hbm, 410, rfl⟩
abbrev main_v253 : Ref sig .tc := ⟨.hbm, 411, rfl⟩
abbrev main_c_86 : Ref sig .tc := ⟨.hbm, 412, rfl⟩
abbrev main_v254 : Ref sig .tc := ⟨.hbm, 413, rfl⟩
abbrev main_v255 : Ref sig .tc := ⟨.hbm, 414, rfl⟩
abbrev main_c_87 : Ref sig .tc := ⟨.hbm, 415, rfl⟩
abbrev main_v256 : Ref sig .tc := ⟨.hbm, 416, rfl⟩
abbrev main_v257 : Ref sig .tc := ⟨.hbm, 417, rfl⟩
abbrev main_v258 : Ref sig .tc := ⟨.hbm, 418, rfl⟩
abbrev main_c_88 : Ref sig .tc := ⟨.hbm, 419, rfl⟩
abbrev main_v259 : Ref sig .tc := ⟨.hbm, 420, rfl⟩
abbrev main_v260 : Ref sig .tc := ⟨.hbm, 421, rfl⟩
abbrev main_c_89 : Ref sig .tc := ⟨.hbm, 422, rfl⟩
abbrev main_v261 : Ref sig .tc := ⟨.hbm, 423, rfl⟩
abbrev main_v262 : Ref sig .tc := ⟨.hbm, 424, rfl⟩
abbrev main_v263 : Ref sig .tc := ⟨.hbm, 425, rfl⟩
abbrev main_v264 : Ref sig .tc := ⟨.hbm, 426, rfl⟩
abbrev main_v265 : Ref sig .tc := ⟨.hbm, 427, rfl⟩
abbrev main_v266 : Ref sig .tc := ⟨.hbm, 428, rfl⟩
abbrev main_v267 : Ref sig .tc := ⟨.hbm, 429, rfl⟩
abbrev main_v268 : Ref sig .tc := ⟨.hbm, 430, rfl⟩
abbrev main_v269 : Ref sig .tc := ⟨.hbm, 431, rfl⟩
abbrev main_v270 : Ref sig .tc := ⟨.hbm, 432, rfl⟩
abbrev main_v271 : Ref sig .tc := ⟨.hbm, 433, rfl⟩
abbrev main_v272 : Ref sig .tc := ⟨.hbm, 434, rfl⟩
abbrev main_v273 : Ref sig .tc := ⟨.hbm, 435, rfl⟩
abbrev main_cst_90 : Ref sig .tc := ⟨.hbm, 436, rfl⟩
abbrev main_v274 : Ref sig .tc := ⟨.hbm, 437, rfl⟩
abbrev main_v275 : Ref sig .tc := ⟨.hbm, 438, rfl⟩
abbrev main_cst_91 : Ref sig .tc := ⟨.hbm, 439, rfl⟩
abbrev main_v276 : Ref sig .tc := ⟨.hbm, 440, rfl⟩
abbrev main_v277 : Ref sig .tc := ⟨.hbm, 441, rfl⟩
abbrev main_v278 : Ref sig .tc := ⟨.hbm, 442, rfl⟩
abbrev main_cst_92 : Ref sig .tc := ⟨.hbm, 443, rfl⟩
abbrev main_v279 : Ref sig .tc := ⟨.hbm, 444, rfl⟩
abbrev main_v280 : Ref sig .tc := ⟨.hbm, 445, rfl⟩
abbrev main_v281 : Ref sig .tc := ⟨.hbm, 446, rfl⟩
abbrev main_cst_93 : Ref sig .tc := ⟨.hbm, 447, rfl⟩
abbrev main_v282 : Ref sig .tc := ⟨.hbm, 448, rfl⟩
abbrev main_v283 : Ref sig .tc := ⟨.hbm, 449, rfl⟩
abbrev main_v284 : Ref sig .tc := ⟨.hbm, 450, rfl⟩
abbrev main_v285 : Ref sig .tc := ⟨.hbm, 451, rfl⟩
abbrev main_c_94 : Ref sig .tc := ⟨.hbm, 452, rfl⟩
abbrev main_c_95 : Ref sig .tc := ⟨.hbm, 453, rfl⟩
abbrev main_call12_v0 : Ref sig .tc := ⟨.hbm, 454, rfl⟩
abbrev main_call12_v1 : Ref sig .tc := ⟨.hbm, 455, rfl⟩
abbrev main_call12_v2 : Ref sig .tc := ⟨.hbm, 456, rfl⟩
abbrev main_call12_v3 : Ref sig .tc := ⟨.hbm, 457, rfl⟩
abbrev main_call12_v4 : Ref sig .tc := ⟨.hbm, 458, rfl⟩
abbrev main_v286 : Ref sig .tc := ⟨.hbm, 459, rfl⟩
abbrev main_v287 : Ref sig .tc := ⟨.hbm, 460, rfl⟩
abbrev main_c_96 : Ref sig .tc := ⟨.hbm, 461, rfl⟩
abbrev main_c_97 : Ref sig .tc := ⟨.hbm, 462, rfl⟩
abbrev main_call13_v0 : Ref sig .tc := ⟨.hbm, 463, rfl⟩
abbrev main_call13_v1 : Ref sig .tc := ⟨.hbm, 464, rfl⟩
abbrev main_call13_v2 : Ref sig .tc := ⟨.hbm, 465, rfl⟩
abbrev main_call13_v3 : Ref sig .tc := ⟨.hbm, 466, rfl⟩
abbrev main_call13_v4 : Ref sig .tc := ⟨.hbm, 467, rfl⟩
abbrev main_v288 : Ref sig .tc := ⟨.hbm, 468, rfl⟩
abbrev main_v289 : Ref sig .tc := ⟨.hbm, 469, rfl⟩
abbrev main_c_98 : Ref sig .tc := ⟨.hbm, 470, rfl⟩
abbrev main_v290 : Ref sig .tc := ⟨.hbm, 471, rfl⟩
abbrev main_v291 : Ref sig .tc := ⟨.hbm, 472, rfl⟩
abbrev main_c_99 : Ref sig .tc := ⟨.hbm, 473, rfl⟩
abbrev main_v292 : Ref sig .tc := ⟨.hbm, 474, rfl⟩
abbrev main_v293 : Ref sig .tc := ⟨.hbm, 475, rfl⟩
abbrev main_v294 : Ref sig .tc := ⟨.hbm, 476, rfl⟩
abbrev main_c_100 : Ref sig .tc := ⟨.hbm, 477, rfl⟩
abbrev main_v295 : Ref sig .tc := ⟨.hbm, 478, rfl⟩
abbrev main_v296 : Ref sig .tc := ⟨.hbm, 479, rfl⟩
abbrev main_c_101 : Ref sig .tc := ⟨.hbm, 480, rfl⟩
abbrev main_v297 : Ref sig .tc := ⟨.hbm, 481, rfl⟩
abbrev main_v298 : Ref sig .tc := ⟨.hbm, 482, rfl⟩
abbrev main_v299 : Ref sig .tc := ⟨.hbm, 483, rfl⟩
abbrev main_v300 : Ref sig .tc := ⟨.hbm, 484, rfl⟩
abbrev main_v301 : Ref sig .tc := ⟨.hbm, 485, rfl⟩
abbrev main_v302 : Ref sig .tc := ⟨.hbm, 486, rfl⟩
abbrev main_v303 : Ref sig .tc := ⟨.hbm, 487, rfl⟩
abbrev main_v304 : Ref sig .tc := ⟨.hbm, 488, rfl⟩
abbrev main_v305 : Ref sig .tc := ⟨.hbm, 489, rfl⟩
abbrev main_v306 : Ref sig .tc := ⟨.hbm, 490, rfl⟩
abbrev main_v307 : Ref sig .tc := ⟨.hbm, 491, rfl⟩
abbrev main_v308 : Ref sig .tc := ⟨.hbm, 492, rfl⟩
abbrev main_v309 : Ref sig .tc := ⟨.hbm, 493, rfl⟩
abbrev main_cst_102 : Ref sig .tc := ⟨.hbm, 494, rfl⟩
abbrev main_v310 : Ref sig .tc := ⟨.hbm, 495, rfl⟩
abbrev main_v311 : Ref sig .tc := ⟨.hbm, 496, rfl⟩
abbrev main_cst_103 : Ref sig .tc := ⟨.hbm, 497, rfl⟩
abbrev main_v312 : Ref sig .tc := ⟨.hbm, 498, rfl⟩
abbrev main_v313 : Ref sig .tc := ⟨.hbm, 499, rfl⟩
abbrev main_v314 : Ref sig .tc := ⟨.hbm, 500, rfl⟩
abbrev main_cst_104 : Ref sig .tc := ⟨.hbm, 501, rfl⟩
abbrev main_v315 : Ref sig .tc := ⟨.hbm, 502, rfl⟩
abbrev main_v316 : Ref sig .tc := ⟨.hbm, 503, rfl⟩
abbrev main_v317 : Ref sig .tc := ⟨.hbm, 504, rfl⟩
abbrev main_cst_105 : Ref sig .tc := ⟨.hbm, 505, rfl⟩
abbrev main_v318 : Ref sig .tc := ⟨.hbm, 506, rfl⟩
abbrev main_v319 : Ref sig .tc := ⟨.hbm, 507, rfl⟩
abbrev main_v320 : Ref sig .tc := ⟨.hbm, 508, rfl⟩
abbrev main_v321 : Ref sig .tc := ⟨.hbm, 509, rfl⟩
abbrev main_c_106 : Ref sig .tc := ⟨.hbm, 510, rfl⟩
abbrev main_c_107 : Ref sig .tc := ⟨.hbm, 511, rfl⟩
abbrev main_call14_v0 : Ref sig .tc := ⟨.hbm, 512, rfl⟩
abbrev main_call14_v1 : Ref sig .tc := ⟨.hbm, 513, rfl⟩
abbrev main_call14_v2 : Ref sig .tc := ⟨.hbm, 514, rfl⟩
abbrev main_call14_v3 : Ref sig .tc := ⟨.hbm, 515, rfl⟩
abbrev main_call14_v4 : Ref sig .tc := ⟨.hbm, 516, rfl⟩
abbrev main_v322 : Ref sig .tc := ⟨.hbm, 517, rfl⟩
abbrev main_v323 : Ref sig .tc := ⟨.hbm, 518, rfl⟩
abbrev main_c_108 : Ref sig .tc := ⟨.hbm, 519, rfl⟩
abbrev main_c_109 : Ref sig .tc := ⟨.hbm, 520, rfl⟩
abbrev main_call15_v0 : Ref sig .tc := ⟨.hbm, 521, rfl⟩
abbrev main_call15_v1 : Ref sig .tc := ⟨.hbm, 522, rfl⟩
abbrev main_call15_v2 : Ref sig .tc := ⟨.hbm, 523, rfl⟩
abbrev main_call15_v3 : Ref sig .tc := ⟨.hbm, 524, rfl⟩
abbrev main_call15_v4 : Ref sig .tc := ⟨.hbm, 525, rfl⟩
abbrev main_v324 : Ref sig .tc := ⟨.hbm, 526, rfl⟩
abbrev main_v325 : Ref sig .tc := ⟨.hbm, 527, rfl⟩
abbrev main_c_110 : Ref sig .tc := ⟨.hbm, 528, rfl⟩
abbrev main_v326 : Ref sig .tc := ⟨.hbm, 529, rfl⟩
abbrev main_v327 : Ref sig .tc := ⟨.hbm, 530, rfl⟩
abbrev main_c_111 : Ref sig .tc := ⟨.hbm, 531, rfl⟩
abbrev main_v328 : Ref sig .tc := ⟨.hbm, 532, rfl⟩
abbrev main_v329 : Ref sig .tc := ⟨.hbm, 533, rfl⟩
abbrev main_v330 : Ref sig .tc := ⟨.hbm, 534, rfl⟩
abbrev main_c_112 : Ref sig .tc := ⟨.hbm, 535, rfl⟩
abbrev main_v331 : Ref sig .tc := ⟨.hbm, 536, rfl⟩
abbrev main_v332 : Ref sig .tc := ⟨.hbm, 537, rfl⟩
abbrev main_c_113 : Ref sig .tc := ⟨.hbm, 538, rfl⟩
abbrev main_v333 : Ref sig .tc := ⟨.hbm, 539, rfl⟩
abbrev main_v334 : Ref sig .tc := ⟨.hbm, 540, rfl⟩
abbrev main_v335 : Ref sig .tc := ⟨.hbm, 541, rfl⟩
abbrev main_v336 : Ref sig .tc := ⟨.hbm, 542, rfl⟩
abbrev main_v337 : Ref sig .tc := ⟨.hbm, 543, rfl⟩
abbrev main_v338 : Ref sig .tc := ⟨.hbm, 544, rfl⟩
abbrev main_v339 : Ref sig .tc := ⟨.hbm, 545, rfl⟩
abbrev main_v340 : Ref sig .tc := ⟨.hbm, 546, rfl⟩
abbrev main_v341 : Ref sig .tc := ⟨.hbm, 547, rfl⟩
abbrev main_v342 : Ref sig .tc := ⟨.hbm, 548, rfl⟩
abbrev main_v343 : Ref sig .tc := ⟨.hbm, 549, rfl⟩
abbrev main_v344 : Ref sig .tc := ⟨.hbm, 550, rfl⟩
abbrev main_v345 : Ref sig .tc := ⟨.hbm, 551, rfl⟩
abbrev main_v346 : Ref sig .tc := ⟨.hbm, 552, rfl⟩
abbrev main_v347 : Ref sig .tc := ⟨.hbm, 553, rfl⟩
abbrev main_v348 : Ref sig .tc := ⟨.hbm, 554, rfl⟩
abbrev main_v349 : Ref sig .tc := ⟨.hbm, 555, rfl⟩
abbrev main_v350 : Ref sig .tc := ⟨.hbm, 556, rfl⟩
abbrev main_v351 : Ref sig .tc := ⟨.hbm, 557, rfl⟩
abbrev main_v352 : Ref sig .tc := ⟨.hbm, 558, rfl⟩
abbrev main_cst_114 : Ref sig .tc := ⟨.hbm, 559, rfl⟩
abbrev main_v353 : Ref sig .tc := ⟨.hbm, 560, rfl⟩
abbrev main_v354 : Ref sig .tc := ⟨.hbm, 561, rfl⟩
abbrev main_v355 : Ref sig .tc := ⟨.hbm, 562, rfl⟩
abbrev main_v356 : Ref sig .tc := ⟨.hbm, 563, rfl⟩
abbrev main_v357 : Ref sig .tc := ⟨.hbm, 564, rfl⟩
abbrev main_v358 : Ref sig .tc := ⟨.hbm, 565, rfl⟩
abbrev main_v359 : Ref sig .tc := ⟨.hbm, 566, rfl⟩
abbrev main_v360 : Ref sig .tc := ⟨.hbm, 567, rfl⟩
abbrev main_cst_115 : Ref sig .tc := ⟨.hbm, 568, rfl⟩
abbrev main_v361 : Ref sig .tc := ⟨.hbm, 569, rfl⟩
abbrev main_v362 : Ref sig .tc := ⟨.hbm, 570, rfl⟩
abbrev main_v363 : Ref sig .tc := ⟨.hbm, 571, rfl⟩
abbrev main_v364 : Ref sig .tc := ⟨.hbm, 572, rfl⟩
abbrev main_v365 : Ref sig .tc := ⟨.hbm, 573, rfl⟩
abbrev main_v366 : Ref sig .tc := ⟨.hbm, 574, rfl⟩
abbrev main_v367 : Ref sig .tc := ⟨.hbm, 575, rfl⟩
abbrev main_v368 : Ref sig .tc := ⟨.hbm, 576, rfl⟩
abbrev main_v369 : Ref sig .tc := ⟨.hbm, 577, rfl⟩

abbrev nD : Nat := 1
abbrev τ : Topo := Topo.v7x

variable {F : FTy → Type} [FloatOps F]

class Facts₀ : Prop where
  shapeCasts_S1x500000x3_S500000x3 : S1x500000x3.ShapeCasts S500000x3
  shapeCasts_S1x128x256x256_S128x256x256 : S1x128x256x256.ShapeCasts S128x256x256
  slices_S500000x3_S500000x1_0_0 : S500000x3.Slices ![0, 0] S500000x1
  shapeCasts_S500000x1_S500000 : S500000x1.ShapeCasts S500000
  slices_S500000x3_S500000x1_0_1 : S500000x3.Slices ![0, 1] S500000x1
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  bcast_S500000_S1x500000_1 : S500000.BroadcastsInDim S1x500000 (![1] : Fin 1 → Fin S1x500000.rank)
  bcast_S1x500000_S128x500000_0_1 : S1x500000.BroadcastsInDim S128x500000 (![0, 1] : Fin 2 → Fin S128x500000.rank)
  transposes_S128x500000_S500000x128_1_0 : S128x500000.Transposes [1, 0] S500000x128
  slices_S500000x3_S500000x1_0_2 : S500000x3.Slices ![0, 2] S500000x1
  transposes_S128x128_S128x128_1_0 : S128x128.Transposes [1, 0] S128x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S1x500000x1 : S500000x1.ShapeCasts S1x500000x1
  gather_S128x256x256_S500000x2_S128x500000_0_12_n_n_12_1_12811_wf : GatherDims.WF S128x256x256 S500000x2 S128x500000 [0] [1, 2] [] [1, 2] [] 1 ![128, 1, 1]
  dot_S500000x128_S128x128_S500000x128_1_0_0_1_n_n_wf : DotDims.WF S500000x128 S128x128 S500000x128 [1] [0] [0] [1] [] []
  dot_S500000x128_S128x1_S500000x1_1_0_0_1_n_n_wf : DotDims.WF S500000x128 S128x1 S500000x1 [1] [0] [0] [1] [] []

variable [Facts₀]

def gather_S128x256x256_S500000x2_S128x500000_0_12_n_n_12_1_12811 : GatherDims S128x256x256 S500000x2 S128x500000 where
  offsetDims := [0]
  collapsedSliceDims := [1, 2]
  operandBatchingDims := []
  startIndicesBatchingDims := []
  startIndexMap := [1, 2]
  indexVectorDim := 1
  sliceSizes := ![128, 1, 1]
  wf := gather_S128x256x256_S500000x2_S128x500000_0_12_n_n_12_1_12811_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.NetOps.lean ====
/-
  The kernel body's operations that are not pointwise, each read at one index of what it produces, on the
  extended reals.

  A block is 8192 points by 128 channels. The body contracts a block with a 128 x 128 matrix (row r, column j of
  the product is the sum over k of A[r,k] * B[k,j], into a zero accumulator), adds a bias row to every row of a
  block, sums a block along its channels, turns the vector of 8192 sums into a column, adds one scalar to every
  entry of the column, flips the column into a row and gives the row two leading unit axes. Each lemma below says
  which single entry (or which sum of entries) of the operand one entry of the result is; none of them involves
  arithmetic beyond that.
-/
import proofs.«168587_j4406636446006_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.NetValue

open Cert.KernelIdeal Cert.KernelIdeal.Gen Idealize.ShloMosaic Idealize.ShloMosaic.ValueIdx

/-- The contraction record of the body's two products: block [8192,128] times matrix [128,128]. -/
abbrev blockDot : DotDims S8192x128 S128x128 S8192x128 := dot_S8192x128_S128x128_S8192x128_1_0_0_1_n_n

/-- Row `r`, column `j` of a block times a matrix, accumulated into zero: the sum over the shared channel `k`
    of `A[r,k] * B[k,j]`. -/
theorem blockMatmul_apply (A : FVec Ideal S8192x128 .bf16) (B : FVec Ideal S128x128 .bf16) (r : Fin 8192) (j : Fin 128) :
    matmul blockDot none A B (constant (F := Ideal) S8192x128 .f32 0x00000000#32) (ix2 r j)
      = ∑ k : Fin 128, A (ix2 r k) * B (ix2 k j) := by
  simp only [matmul]
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 r j) ((contrEquiv1 blockDot 128 rfl rfl).symm k) = ix2 r k :=
    funext fun a => Fin.ext (by
      match a with
      | ⟨0, _⟩ =>
        show (blockDot.lhsIdx (ix2 r j) _ 0).val = r.val
        unfold DotDims.lhsIdx
        rw [dif_neg (show ¬(0 : Fin S8192x128.rank) ∈ blockDot.lhsBatch by decide),
          dif_pos (show (0 : Fin S8192x128.rank) ∈ blockDot.lhsNonContracting by decide)]
        rfl
      | ⟨1, _⟩ => exact (blockDot.lhsIdx_val_of_single rfl (ix2 r j) _).trans hk)
  have er : blockDot.rhsIdx (ix2 r j) ((contrEquiv1 blockDot 128 rfl rfl).symm k) = ix2 k j :=
    funext fun a => Fin.ext (by
      match a with
      | ⟨0, _⟩ => exact (blockDot.rhsIdx_val_of_single rfl (ix2 r j) _).trans hk
      | ⟨1, _⟩ =>
        show (blockDot.rhsIdx (ix2 r j) _ 1).val = j.val
        unfold DotDims.rhsIdx
        rw [dif_neg (show ¬(1 : Fin S128x128.rank) ∈ blockDot.rhsBatch by decide),
          dif_pos (show (1 : Fin S128x128.rank) ∈ blockDot.rhsNonContracting by decide)]
        rfl)
  rw [el, er]

/-- A bias row spread over the 8192 rows of a block reads, at row `r` and channel `j`, the row's entry `j`. -/
theorem rowSpread_apply (b : FVec Ideal S1x128 .f32) (r : Fin 8192) (j : Fin 128) :
    broadcastTo S8192x128 b broadcasts_S1x128_S8192x128 (ix2 r j) = b (ix2 (0 : Fin 1) j) :=
  broadcastTo_apply b broadcasts_S1x128_S8192x128 (ix2 r j) (ix2 (0 : Fin 1) j) (fun a => match a with
    | ⟨0, _⟩ => rfl
    | ⟨1, _⟩ => rfl)

/-- The sum of a block along its channels, at point `r`: the sum over `k` of the block's entry `(r, k)`. -/
theorem channelSum_apply (v : FVec Ideal S8192x128 .f32) (hφ : FKind.Formats .f32)
    (hacc : (0x00000000#32 : BitVec 32) = FKind.add.neutral .f32 hφ) (r : Fin 8192) :
    multiReduction .add [1] S8192 v 0x00000000#32 reduces_S8192x128_S8192 hφ hacc (ix1 r)
      = ∑ k : Fin 128, v (ix2 r k) := by
  refine (Ideal.multiReduction_add_single v 0x00000000#32 reduces_S8192x128_S8192 hφ hacc (ix1 r)).trans ?_
  refine Finset.sum_congr rfl fun k _ => congrArg v (funext fun a => Fin.ext ?_)
  match a with
  | ⟨0, _⟩ => rfl
  | ⟨1, _⟩ => rfl

/-- The vector of 8192 sums viewed as a column: entry `(r, 0)` is entry `r`. -/
theorem column_apply (v : FVec Ideal S8192 .f32) (r : Fin 8192) :
    shapeCast S8192x1 v shapeCasts_S8192_S8192x1 (ix2 r (0 : Fin 1)) = v (ix1 r) :=
  shapeCast_apply v shapeCasts_S8192_S8192x1 (ix2 r (0 : Fin 1)) (ix1 r) (by
    rw [Shape.rowMajor_val_one, Shape.rowMajor_val_two]
    show r.val = r.val * 1 + 0
    omega)

/-- One scalar spread down a column of 8192 entries reads that scalar everywhere. -/
theorem scalarSpread_apply (b : FVec Ideal S1x1 .f32) (r : Fin 8192) :
    broadcastTo S8192x1 b broadcasts_S1x1_S8192x1 (ix2 r (0 : Fin 1)) = b (ix2 (0 : Fin 1) (0 : Fin 1)) :=
  broadcastTo_apply b broadcasts_S1x1_S8192x1 (ix2 r (0 : Fin 1)) (ix2 (0 : Fin 1) (0 : Fin 1)) (fun a => match a with
    | ⟨0, _⟩ => rfl
    | ⟨1, _⟩ => rfl)

/-- The column flipped into a row: entry `(0, r)` of the row is entry `(r, 0)` of the column. -/
theorem flip_apply (v : FVec Ideal S8192x1 .f32) (r : Fin 8192) :
    transpose S1x8192 [1, 0] v transposes_S8192x1_p1_0_S1x8192 (ix2 (0 : Fin 1) r) = v (ix2 r (0 : Fin 1)) :=
  transpose_apply [1, 0] v transposes_S8192x1_p1_0_S1x8192 (ix2 (0 : Fin 1) r) (ix2 r (0 : Fin 1)) (fun b => match b with
    | ⟨0, _⟩ => rfl
    | ⟨1, _⟩ => rfl)

/-- The row given a second leading unit axis: entry `(0, 0, r)` is entry `(0, r)`. -/
theorem unitAxis_apply (v : FVec Ideal S1x8192 .f32) (r : Fin 8192) :
    shapeCast S1x1x8192 v shapeCasts_S1x8192_S1x1x8192 (ix3 (0 : Fin 1) (0 : Fin 1) r) = v (ix2 (0 : Fin 1) r) :=
  shapeCast_apply v shapeCasts_S1x8192_S1x1x8192 (ix3 (0 : Fin 1) (0 : Fin 1) r) (ix2 (0 : Fin 1) r) (by
    rw [Shape.rowMajor_val_two, Shape.rowMajor_val_three]
    show 0 * 8192 + r.val = (0 * 1 + 0) * 8192 + r.val
    omega)

end Cert.KernelIdeal.NetValue

end
-- ==== Proof.SineNet.lean ====
/-
  The sine network both programs apply to every sampled point, as one function on the extended reals.

  A point carries two feature rows of 128 channels, `xy` and `xz` (the bilinear samples of one plane at the
  point's (x, y) and (x, z) coordinates). The network multiplies them channel by channel as `(xy · xz) · xz`,
  then applies two layers `f ↦ sin (30 · (Σ_i f i · W j i + b j))` and a last linear layer
  `Σ_k h k · W3 k + b3`. Weights are indexed as the programs' arguments store them: `W j i` is output
  channel `j`, input channel `i`, so the product with the transposed weight matrix is the sum over the
  SECOND index. Sums are sums over `Fin 128`, so no order of accumulation is fixed here.
-/
import Idealize.ShloMosaic.PureOps.Ideal
import Idealize.ShloMosaic.PureOps.Ideal.Laws
import Idealize.ShloMosaic.Lib.ValueIdx

noncomputable section

namespace Cert.SineNet

open Idealize.ShloMosaic

/-- The frequency 30, as the f32 word both programs print for it. -/
def freq : EReal := Ideal.ofBits .f32 0x41F00000#32

/-- One sine layer at one output channel: `sin (30 · (Σ_i f i · W j i + b j))`. -/
def layer (f : Fin 128 → EReal) (W : Fin 128 → Fin 128 → EReal) (b : Fin 128 → EReal) (j : Fin 128) : EReal :=
  Ideal.sin (freq * ((∑ i : Fin 128, f i * W j i) + b j))

/-- The channelwise product of the two sampled rows, `(xy · xz) · xz`. -/
def feat (xy xz : Fin 128 → EReal) (i : Fin 128) : EReal := xy i * xz i * xz i

/-- The network's value at one point from its two sampled rows. -/
def net (xy xz : Fin 128 → EReal) (W1 : Fin 128 → Fin 128 → EReal) (b1 : Fin 128 → EReal)
    (W2 : Fin 128 → Fin 128 → EReal) (b2 : Fin 128 → EReal) (W3 : Fin 128 → EReal) (b3 : EReal) : EReal :=
  (∑ k : Fin 128, layer (layer (feat xy xz) W1 b1) W2 b2 k * W3 k) + b3

end Cert.SineNet

end
-- ==== Proof.NetPayload.lean ====
/-
  The kernel body's stored value at one point of a block IS the sine network of that point's two feature rows.

  The body loads two blocks of sampled features `xy`, `xz` (8192 points by 128 channels), two 128 x 128 weight
  matrices already transposed (entry `(i, j)` of the first is the weight from input channel `i` to output channel
  `j`), two bias rows, the last layer's weight row and its scalar bias. Per point `r` it forms the product
  `(xy * xz) * xz` channel by channel, applies twice "multiply by a matrix, add the bias row, scale by 30, take the
  sine", multiplies by the last weight row, sums over the channels and adds the scalar; the 8192 results are then
  laid out as a [1, 1, 8192] block. Changes of float format are the identity on the extended reals, and a shape cast
  to the same shape changes nothing, so entry `(0, 0, r)` of the stored block is literally the network's formula,
  with the first matrix read as `W1 j i = w1t (i, j)` (the sum runs over the matrix's FIRST index, which is the
  second index of the untransposed weights).
-/
import proofs.«168587_j4406636446006_2_alg».proof.Proof.NetOps
import proofs.«168587_j4406636446006_2_alg».proof.Proof.SineNet

noncomputable section

namespace Cert.KernelIdeal.NetValue

open Cert.KernelIdeal Cert.KernelIdeal.Gen Idealize.ShloMosaic Idealize.ShloMosaic.ValueIdx

/-- One hidden layer as the body computes it from a block `f` of activations, a transposed weight matrix `wt`
    and a bias row `b`, at point `r` and output channel `j`: the specification's `layer` of row `r`. -/
theorem hiddenLayer_apply (f : FVec Ideal S8192x128 .bf16) (wt : FVec Ideal S128x128 .bf16) (b : FVec Ideal S1x128 .f32)
    (r : Fin 8192) (j : Fin 128) :
    sin (mulf (broadcast S8192x128 (Scalar.ofBits (F := Ideal) .f32 0x41F00000#32))
        (addf (matmul blockDot none f wt (constant (F := Ideal) S8192x128 .f32 0x00000000#32))
          (broadcastTo S8192x128 b broadcasts_S1x128_S8192x128))) (ix2 r j)
      = Cert.SineNet.layer (fun i => f (ix2 r i)) (fun j i => wt (ix2 i j)) (fun j => b (ix2 (0 : Fin 1) j)) j := by
  show Ideal.sin (Ideal.ofBits .f32 0x41F00000#32
      * (matmul blockDot none f wt (constant (F := Ideal) S8192x128 .f32 0x00000000#32) (ix2 r j)
          + broadcastTo S8192x128 b broadcasts_S1x128_S8192x128 (ix2 r j))) = _
  rw [blockMatmul_apply, rowSpread_apply]
  rfl

/-- THE STORED BLOCK at `(0, 0, r)`: the network of row `r` of the two feature blocks. -/
theorem payload_apply (x0 x1 : Vec Ideal S8192x128 .bf16) (x2 : Vec Ideal S128x128 .bf16) (x3 : Vec Ideal S1x128 .f32)
    (x4 : Vec Ideal S128x128 .bf16) (x5 x6 : Vec Ideal S1x128 .f32) (x7 : Vec Ideal S1x1 .f32) (r : Fin 8192) :
    k0_pay1 (F := Ideal) (k0_pay2 x0 x1 x2 x3 x4 x5 x6) (k0_pay3 x7) (ix3 (0 : Fin 1) (0 : Fin 1) r)
      = Cert.SineNet.net (fun k => x0 (ix2 r k)) (fun k => x1 (ix2 r k))
          (fun j i => x2 (ix2 i j)) (fun j => x3 (ix2 (0 : Fin 1) j))
          (fun k j => x4 (ix2 j k)) (fun k => x5 (ix2 (0 : Fin 1) k))
          (fun k => x6 (ix2 (0 : Fin 1) k)) (x7 (ix2 (0 : Fin 1) (0 : Fin 1))) := by
  unfold k0_pay1
  refine (unitAxis_apply _ r).trans ?_
  refine (flip_apply _ r).trans ?_
  show k0_pay2 (F := Ideal) x0 x1 x2 x3 x4 x5 x6 (ix2 r (0 : Fin 1)) + k0_pay3 (F := Ideal) x7 (ix2 r (0 : Fin 1)) = _
  unfold k0_pay3 k0_pay2
  simp only [shapeCast_self]
  refine congrArg₂ (· + ·) ?_ ?_
  · refine (column_apply _ r).trans ?_
    refine (channelSum_apply _ _ _ r).trans ?_
    refine Finset.sum_congr rfl fun k _ => ?_
    refine (mulf_apply _ _ (ix2 r k)).trans ?_
    rw [rowSpread_apply]
    refine congrArg (· * x6 (ix2 (0 : Fin 1) k)) ?_
    refine (hiddenLayer_apply _ x4 x5 r k).trans ?_
    unfold Cert.SineNet.layer
    refine congrArg (fun s => Ideal.sin (Cert.SineNet.freq * (s + x5 (ix2 (0 : Fin 1) k)))) ?_
    refine Finset.sum_congr rfl fun j _ => ?_
    refine congrArg (· * x4 (ix2 j k)) ?_
    exact hiddenLayer_apply _ x2 x3 r j
  · exact scalarSpread_apply x7 r

end Cert.KernelIdeal.NetValue

end
-- ==== Proof.NetBlocks.lean ====
/-
  From the kernel's blocks to its whole output array.

  The region runs the body at 62 grid points. Point `t` reads rows `8192 t … 8192 t + 8191` of the two padded
  feature arrays and the whole of each weight array, and writes block `(t, 0, ·)` of the [62, 1, 8192] output.
  Define the array `netArray`: its entry `(t, 0, r)` is the sine network of row `8192 t + r` of the two padded
  feature arrays, with the weight arrays as the region finds them. What point `t` writes back is exactly block
  `t` of `netArray` (the body's stored value at `(0, 0, r)` is the network of row `r` of its blocks, and row `r` of
  block `t` is row `8192 t + r` of the array); every entry of the output lies in the block of the point named by
  its first coordinate; hence the output array after the region is `netArray`.
-/
import proofs.«168587_j4406636446006_2_alg».proof.Proof.KernelIdealFrameP
import proofs.«168587_j4406636446006_2_alg».proof.Proof.NetPayload
import Idealize.ShloMosaic.Lib.Pipeline.Value

noncomputable section

namespace Cert.KernelIdeal.NetValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the 62 points: the two feature windows and the output window move with the
    point along their first axis; every weight window stays at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-! ## Each input block read where it sits in its array -/

/-- Row `r` of the first feature window's block at point `t` is row `8192 t + r` of the first padded array. -/
theorem block_xy (c : Dev nD) (t : Fin cfg0.N) (r : Fin 8192) (k : Fin 128) (p : Fin 507904) (hp : p.val = t.val * 8192 + r.val) :
    (iblk m c 0 t : Vec Ideal S8192x128 .bf16) (ix2 r k) = (V m c main_v275 : S507904x128.Idx → EReal) (ix2 p k) := by
  obtain ⟨e0, e1, -⟩ := idx_facts t
  show V m c main_v275 (((cfg0.win 0).blk t).view.emb (ix2 r k)) = V m c main_v275 (ix2 p k)
  have h : ((cfg0.win 0).blk t).view.emb (ix2 r k) = ix2 p k := by
    funext a; apply Fin.ext
    match a with
    | ⟨0, _⟩ => show win0_0.index t (0 : Fin 2) * 8192 + 1 * r.val = p.val; omega
    | ⟨1, _⟩ => show win0_0.index t (1 : Fin 2) * 128 + 1 * k.val = k.val; omega
  rw [h]

/-- The same for the second feature window. -/
theorem block_xz (c : Dev nD) (t : Fin cfg0.N) (r : Fin 8192) (k : Fin 128) (p : Fin 507904) (hp : p.val = t.val * 8192 + r.val) :
    (iblk m c 1 t : Vec Ideal S8192x128 .bf16) (ix2 r k) = (V m c main_v276 : S507904x128.Idx → EReal) (ix2 p k) := by
  obtain ⟨-, -, e0, e1, -⟩ := idx_facts t
  show V m c main_v276 (((cfg0.win 1).blk t).view.emb (ix2 r k)) = V m c main_v276 (ix2 p k)
  have h : ((cfg0.win 1).blk t).view.emb (ix2 r k) = ix2 p k := by
    funext a; apply Fin.ext
    match a with
    | ⟨0, _⟩ => show win0_1.index t (0 : Fin 2) * 8192 + 1 * r.val = p.val; omega
    | ⟨1, _⟩ => show win0_1.index t (1 : Fin 2) * 128 + 1 * k.val = k.val; omega
  rw [h]

/-- The first weight window's block is the whole of its array at every point. -/
theorem block_w1 (c : Dev nD) (t : Fin cfg0.N) (i j : Fin 128) :
    (iblk m c 2 t : Vec Ideal S128x128 .bf16) (ix2 i j) = (V m c main_v269 : S128x128.Idx → EReal) (ix2 i j) := by
  obtain ⟨-, -, -, -, e0, e1, -⟩ := idx_facts t
  show V m c main_v269 (((cfg0.win 2).blk t).view.emb (ix2 i j)) = V m c main_v269 (ix2 i j)
  have h : ((cfg0.win 2).blk t).view.emb (ix2 i j) = ix2 i j := by
    funext a; apply Fin.ext
    match a with
    | ⟨0, _⟩ => show win0_2.index t (0 : Fin 2) * 128 + 1 * i.val = i.val; omega
    | ⟨1, _⟩ => show win0_2.index t (1 : Fin 2) * 128 + 1 * j.val = j.val; omega
  rw [h]

/-- The first bias window's block is the whole of its array. -/
theorem block_b1 (c : Dev nD) (t : Fin cfg0.N) (j : Fin 128) :
    (iblk m c 3 t : Vec Ideal S1x128 .f32) (ix2 (0 : Fin 1) j) = (V m c main_v272 : S1x128.Idx → EReal) (ix2 (0 : Fin 1) j) := by
  obtain ⟨-, -, -, -, -, -, e0, e1, -⟩ := idx_facts t
  show V m c main_v272 (((cfg0.win 3).blk t).view.emb (ix2 (0 : Fin 1) j)) = V m c main_v272 (ix2 (0 : Fin 1) j)
  have h : ((cfg0.win 3).blk t).view.emb (ix2 (0 : Fin 1) j) = ix2 (0 : Fin 1) j := by
    funext a; apply Fin.ext
    match a with
    | ⟨0, _⟩ => show win0_3.index t (0 : Fin 2) * 1 + 1 * 0 = 0; omega
    | ⟨1, _⟩ => show win0_3.index t (1 : Fin 2) * 128 + 1 * j.val = j.val; omega
  rw [h]

/-- The second weight window's block is the whole of its array. -/
theorem block_w2 (c : Dev nD) (t : Fin cfg0.N) (i j : Fin 128) :
    (iblk m c 4 t : Vec Ideal S128x128 .bf16) (ix2 i j) = (V m c main_v271 : S128x128.Idx → EReal) (ix2 i j) := by
  obtain ⟨-, -, -, -, -, -, -, -, e0, e1, -⟩ := idx_facts t
  show V m c main_v271 (((cfg0.win 4).blk t).view.emb (ix2 i j)) = V m c main_v271 (ix2 i j)
  have h : ((cfg0.win 4).blk t).view.emb (ix2 i j) = ix2 i j := by
    funext a; apply Fin.ext
    match a with
    | ⟨0, _⟩ => show win0_4.index t (0 : Fin 2) * 128 + 1 * i.val = i.val; omega
    | ⟨1, _⟩ => show win0_4.index t (1 : Fin 2) * 128 + 1 * j.val = j.val; omega
  rw [h]

/-- The second bias window's block is the whole of its array. -/
theorem block_b2 (c : Dev nD) (t : Fin cfg0.N) (j : Fin 128) :
    (iblk m c 5 t : Vec Ideal S1x128 .f32) (ix2 (0 : Fin 1) j) = (V m c main_v273 : S1x128.Idx → EReal) (ix2 (0 : Fin 1) j) := by
  obtain ⟨-, -, -, -, -, -, -, -, -, -, e0, e1, -⟩ := idx_facts t
  show V m c main_v273 (((cfg0.win 5).blk t).view.emb (ix2 (0 : Fin 1) j)) = V m c main_v273 (ix2 (0 : Fin 1) j)
  have h : ((cfg0.win 5).blk t).view.emb (ix2 (0 : Fin 1) j) = ix2 (0 : Fin 1) j := by
    funext a; apply Fin.ext
    match a with
    | ⟨0, _⟩ => show win0_5.index t (0 : Fin 2) * 1 + 1 * 0 = 0; omega
    | ⟨1, _⟩ => show win0_5.index t (1 : Fin 2) * 128 + 1 * j.val = j.val; omega
  rw [h]

/-- The last weight row's block is the whole of its array. -/
theorem block_w3 (c : Dev nD) (t : Fin cfg0.N) (j : Fin 128) :
    (iblk m c 6 t : Vec Ideal S1x128 .f32) (ix2 (0 : Fin 1) j) = (V m c main_arg8 : S1x128.Idx → EReal) (ix2 (0 : Fin 1) j) := by
  obtain ⟨-, -, -, -, -, -, -, -, -, -, -, -, e0, e1, -⟩ := idx_facts t
  show V m c main_arg8 (((cfg0.win 6).blk t).view.emb (ix2 (0 : Fin 1) j)) = V m c main_arg8 (ix2 (0 : Fin 1) j)
  have h : ((cfg0.win 6).blk t).view.emb (ix2 (0 : Fin 1) j) = ix2 (0 : Fin 1) j := by
    funext a; apply Fin.ext
    match a with
    | ⟨0, _⟩ => show win0_6.index t (0 : Fin 2) * 1 + 1 * 0 = 0; omega
    | ⟨1, _⟩ => show win0_6.index t (1 : Fin 2) * 128 + 1 * j.val = j.val; omega
  rw [h]

/-- The scalar bias window's block is the whole of its 1 x 1 array. -/
theorem block_b3 (c : Dev nD) (t : Fin cfg0.N) :
    (iblk m c 7 t : Vec Ideal S1x1 .f32) (ix2 (0 : Fin 1) (0 : Fin 1)) = (V m c main_v274 : S1x1.Idx → EReal) (ix2 (0 : Fin 1) (0 : Fin 1)) := by
  obtain ⟨-, -, -, -, -, -, -, -, -, -, -, -, -, -, e0, e1, -⟩ := idx_facts t
  show V m c main_v274 (((cfg0.win 7).blk t).view.emb (ix2 (0 : Fin 1) (0 : Fin 1))) = V m c main_v274 (ix2 (0 : Fin 1) (0 : Fin 1))
  have h : ((cfg0.win 7).blk t).view.emb (ix2 (0 : Fin 1) (0 : Fin 1)) = ix2 (0 : Fin 1) (0 : Fin 1) := by
    funext a; apply Fin.ext
    match a with
    | ⟨0, _⟩ => show win0_7.index t (0 : Fin 2) * 1 + 1 * 0 = 0; omega
    | ⟨1, _⟩ => show win0_7.index t (1 : Fin 2) * 1 + 1 * 0 = 0; omega
  rw [h]

/-! ## The output array as one function -/

/-- The row of the padded feature arrays that entry `i` of the [62, 1, 8192] output belongs to. -/
def rowOf (i : S62x1x8192.Idx) : Fin 507904 :=
  ⟨(i 0).val * 8192 + (i 2).val, by
    have h0 : (i 0).val < 62 := (i 0).isLt
    have h2 : (i 2).val < 8192 := (i 2).isLt
    omega⟩

/-- The whole output array: at each entry the network of its row of the two padded feature arrays, with the weight
    arrays as the region finds them. -/
def netArray (c : Dev nD) : S62x1x8192.Idx → EReal := fun i =>
  Cert.SineNet.net
    (fun k => (V m c main_v275 : S507904x128.Idx → EReal) (ix2 (rowOf i) k))
    (fun k => (V m c main_v276 : S507904x128.Idx → EReal) (ix2 (rowOf i) k))
    (fun j i' => (V m c main_v269 : S128x128.Idx → EReal) (ix2 i' j))
    (fun j => (V m c main_v272 : S1x128.Idx → EReal) (ix2 (0 : Fin 1) j))
    (fun k j => (V m c main_v271 : S128x128.Idx → EReal) (ix2 j k))
    (fun k => (V m c main_v273 : S1x128.Idx → EReal) (ix2 (0 : Fin 1) k))
    (fun k => (V m c main_arg8 : S1x128.Idx → EReal) (ix2 (0 : Fin 1) k))
    ((V m c main_v274 : S1x1.Idx → EReal) (ix2 (0 : Fin 1) (0 : Fin 1)))

/-- The body's stored value at one entry of point `t`'s block is `netArray` at the entry's place in the array. -/
theorem block_entry (c : Dev nD) (t : Fin cfg0.N) (j : S1x1x8192.Idx) :
    k0_pay1 (F := Ideal) (k0_pay2 (iblk m c 0 t) (iblk m c 1 t) (iblk m c 2 t) (iblk m c 3 t) (iblk m c 4 t) (iblk m c 5 t) (iblk m c 6 t))
        (k0_pay3 (iblk m c 7 t)) j
      = netArray m c (((cfg0.win 8).blk t).view.emb j) := by
  obtain ⟨a, b, r, rfl⟩ : ∃ (a b : Fin 1) (r : Fin 8192), j = ix3 a b r := ⟨j 0, j 1, j 2, eq_ix3 j⟩
  obtain rfl : a = 0 := Subsingleton.elim _ _
  obtain rfl : b = 0 := Subsingleton.elim _ _
  refine (payload_apply (iblk m c 0 t) (iblk m c 1 t) (iblk m c 2 t) (iblk m c 3 t) (iblk m c 4 t) (iblk m c 5 t)
    (iblk m c 6 t) (iblk m c 7 t) r).trans ?_
  have e8 := (idx_facts t).2.2.2.2.2.2.2.2.2.2.2.2.2.2.2.2
  obtain ⟨e80, e81, e82⟩ := e8
  have hrow : (rowOf (((cfg0.win 8).blk t).view.emb (ix3 (0 : Fin 1) (0 : Fin 1) r))).val = t.val * 8192 + r.val := by
    show (win0_8.index t (0 : Fin 3) * 1 + 1 * 0) * 8192 + (win0_8.index t (2 : Fin 3) * 8192 + 1 * r.val) = _
    omega
  unfold netArray
  simp only [block_xy m c t r _ _ hrow, block_xz m c t r _ _ hrow, block_w1 m c t, block_b1 m c t, block_w2 m c t,
    block_b2 m c t, block_w3 m c t, block_b3 m c t]

/-! ## What a point writes back, the cover, the array after the region -/

/-- WHAT POINT `t` WRITES BACK is block `t` of `netArray`. -/
theorem flushed_eq (c : Dev nD) (t : Fin cfg0.N) :
    (dats m 0 c).flushed 8 t = ((cfg0.win 8).blk t).view.read (Elt Ideal) (netArray m c) := by
  show (cfg0.win 8).cut (grid0.coords t) ((dats m 0 c).after 8 t) = _
  rw [after0_8]
  unfold out0_8
  rw [View.canon_unit_zero zeros3]
  simp only [View.ld_unit_zero (S := S8192x128) zeros2, View.ld_unit_zero (S := S128x128) zeros2,
    View.ld_unit_zero (S := S1x128) zeros2, View.ld_unit_zero (S := S1x1) zeros2]
  funext j
  exact block_entry m c t j

/-- An entry of the output array is in point `t`'s block iff each coordinate is in the block's range on its axis. -/
theorem mem_blk (t : Fin cfg0.N) (i : S62x1x8192.Idx) :
    i ∈ ((cfg0.win 8).blk t).view.set ↔ ∀ a : Fin 3, win0_8.index t a * S1x1x8192.size a ≤ (i a).val ∧ (i a).val < win0_8.index t a * S1x1x8192.size a + S1x1x8192.size a := by
  show i ∈ ((View.whole main_v277).slice (win0_8.rect t)).set ↔ _
  rw [View.set_slice_whole, Rect.mem_set_unit]
  exact Iff.rfl

/-- Every entry is in the block of the point its first coordinate names. -/
theorem covered (i : S62x1x8192.Idx) : ∃ t : Fin cfg0.N, (cfg0.win 8).flush t = true ∧ i ∈ ((cfg0.win 8).blk t).view.set := by
  have hN : cfg0.N = 62 := N_0
  have h0 : (i 0).val < 62 := (i 0).isLt
  have h1 : (i 1).val < 1 := (i 1).isLt
  have h2 : (i 2).val < 8192 := (i 2).isLt
  refine ⟨⟨(i 0).val, by omega⟩, flush0_8 _, ?_⟩
  rw [mem_blk]
  obtain ⟨e80, e81, e82⟩ := (idx_facts ⟨(i 0).val, by omega⟩).2.2.2.2.2.2.2.2.2.2.2.2.2.2.2.2
  intro a
  match a with
  | ⟨0, _⟩ => show win0_8.index _ (0 : Fin 3) * 1 ≤ (i 0).val ∧ (i 0).val < win0_8.index _ (0 : Fin 3) * 1 + 1; rw [e80]; show (i 0).val * 1 ≤ (i 0).val ∧ (i 0).val < (i 0).val * 1 + 1; omega
  | ⟨1, _⟩ => show win0_8.index _ (1 : Fin 3) * 1 ≤ (i 1).val ∧ (i 1).val < win0_8.index _ (1 : Fin 3) * 1 + 1; rw [e81]; omega
  | ⟨2, _⟩ => show win0_8.index _ (2 : Fin 3) * 8192 ≤ (i 2).val ∧ (i 2).val < win0_8.index _ (2 : Fin 3) * 8192 + 8192; rw [e82]; omega

/-- THE OUTPUT ARRAY after the region is `netArray`. -/
theorem final (c : Dev nD) : (dats m 0 c).arrAt 8 cfg0.N = netArray m c :=
  (dats m 0 c).arrAt_eq_of_cover 8 (netArray m c) (fun t _ => flushed_eq m c t) covered

end Cert.KernelIdeal.NetValue

end
-- ==== Proof.NetHostAt.lean ====
/-
  The host's layout operations around the region, each read at one index.

  Before the region the host transposes a weight matrix and converts it to bf16 (on the extended reals the
  conversion changes nothing, so entry `(i, j)` of the result is entry `(j, i)` of the weights), views a bias
  vector as a one-row matrix and a one-element vector as a 1 x 1 matrix, and pads a [500000, 128] array with 7904
  rows at the end (a row below 500000 of the padded array is that row of the operand). After the region it views
  the [62, 1, 8192] output as one vector of 507904 entries — entry `p` is block `p / 8192`, position `p % 8192` —,
  keeps the first 500000 and views them as [1, 500000, 1].
-/
import proofs.«168587_j4406636446006_2_alg».proof.Proof.Gen.KernelIdeal
import Idealize.ShloMosaic.Lib.ValueIdx
import Idealize.ShloMosaic.Lib.Pipeline.Value
import Idealize.ShloMosaic.Lib.KernelVsHost

noncomputable section

namespace Cert.KernelIdeal.NetValue

open Cert.KernelIdeal Cert.KernelIdeal.Gen Idealize.ShloMosaic Idealize.ShloMosaic.ValueIdx

/-- The transposed weight matrix converted to bf16, at `(i, j)`: the weights at `(j, i)`. -/
theorem transposedWeight_apply (W : FVec Ideal S128x128 .f32) (i j : Fin 128) :
    (truncf .bf16 (transpose S128x128 [1, 0] W transposes_S128x128_S128x128_1_0) bitsLt_bf16_f32 : FVec Ideal S128x128 .bf16) (ix2 i j)
      = W (ix2 j i) :=
  transpose_apply [1, 0] W transposes_S128x128_S128x128_1_0 (ix2 i j) (ix2 j i) (fun b => match b with
    | ⟨0, _⟩ => rfl
    | ⟨1, _⟩ => rfl)

section Layout
variable {α : Type}

/-- A bias vector viewed as a one-row matrix: entry `(0, j)` is entry `j`. -/
theorem biasRow_apply (b : S128.Idx → α) (j : Fin 128) :
    shapeCast S1x128 b shapeCasts_S128_S1x128 (ix2 (0 : Fin 1) j) = b (ix1 j) :=
  shapeCast_apply b shapeCasts_S128_S1x128 (ix2 (0 : Fin 1) j) (ix1 j) (by
    rw [Shape.rowMajor_val_one, Shape.rowMajor_val_two]
    show j.val = 0 * 128 + j.val
    omega)

/-- A one-element vector viewed as a 1 x 1 matrix. -/
theorem scalarCell_apply (b : S1.Idx → α) :
    shapeCast S1x1 b shapeCasts_S1_S1x1 (ix2 (0 : Fin 1) (0 : Fin 1)) = b (ix1 (0 : Fin 1)) :=
  shapeCast_apply b shapeCasts_S1_S1x1 (ix2 (0 : Fin 1) (0 : Fin 1)) (ix1 (0 : Fin 1)) (by
    rw [Shape.rowMajor_val_one, Shape.rowMajor_val_two]
    show 0 = 0 * 1 + 0
    omega)

/-- A row below 500000 of the padded array is that row of the array that was padded. -/
theorem paddedRow_apply (x : S500000x128.Idx → α) (v : S_.Idx → α) (p : Fin 507904) (hp : p.val < 500000) (k : Fin 128) :
    pad S507904x128 ![0, 0] ![7904, 0] ![0, 0] x v pads_S500000x128_S507904x128_079040_000 h_S_ (ix2 p k)
      = x (ix2 (⟨p.val, hp⟩ : Fin 500000) k) :=
  pad_apply_of_inside ![0, 0] ![7904, 0] ![0, 0] x v pads_S500000x128_S507904x128_079040_000 h_S_ (ix2 p k)
    (ix2 (⟨p.val, hp⟩ : Fin 500000) k) (fun a => match a with
    | ⟨0, _⟩ => by show p.val = 0 + p.val * (0 + 1); omega
    | ⟨1, _⟩ => by show k.val = 0 + k.val * (0 + 1); omega)

/-- The host's three operations after the region, at point `p` of the result: the region's output at block
    `p / 8192`, position `p % 8192`. -/
theorem tail_apply (A : S62x1x8192.Idx → α) (p : Fin 500000) (t : Fin 62) (r : Fin 8192) (hp : p.val = t.val * 8192 + r.val) :
    shapeCast S1x500000x1
        (extractStridedSlice S500000 ![0] (shapeCast S507904 A shapeCasts_S62x1x8192_S507904) slices_S507904_S500000_0)
        shapeCasts_S500000_S1x500000x1 (ix3 (0 : Fin 1) p (0 : Fin 1))
      = A (ix3 t (0 : Fin 1) r) := by
  refine (shapeCast_apply _ shapeCasts_S500000_S1x500000x1 (ix3 (0 : Fin 1) p (0 : Fin 1)) (ix1 p) (by
    rw [Shape.rowMajor_val_one, Shape.rowMajor_val_three]
    show p.val = (0 * 500000 + p.val) * 1 + 0
    omega)).trans ?_
  have hq : p.val < 507904 := by have := p.isLt; omega
  refine (extractStridedSlice_apply ![0] _ slices_S507904_S500000_0 (ix1 p) (ix1 (⟨p.val, hq⟩ : Fin 507904)) (fun a => match a with
    | ⟨0, _⟩ => by show p.val = 0 + p.val; omega)).trans ?_
  exact shapeCast_apply A shapeCasts_S62x1x8192_S507904 (ix1 (⟨p.val, hq⟩ : Fin 507904)) (ix3 t (0 : Fin 1) r) (by
    rw [Shape.rowMajor_val_one, Shape.rowMajor_val_three]
    show (t.val * 1 + 0) * 8192 + r.val = p.val
    omega)

end Layout

end Cert.KernelIdeal.NetValue

end
-- ==== Proof.NetHostBase.lean ====
/-
  What the host program leaves, just before the kernel's region, in the seven arrays the region reads that
  the host itself wrote — each as ONE host operation applied to the arrays it was computed from.

  The host operations before the region are a straight line in single-assignment form: every buffer is written
  once. So the contents of a buffer when the region is entered are the writing operation's function applied to
  the contents, at that same moment, of the buffers it read. The last four stretches of the line hold the seven
  writes that matter here: the two weight matrices are transposed and then converted to bf16, the two bias vectors
  and the last scalar bias are reshaped ([128] to [1,128], [1] to [1,1]), and the two sampled feature arrays
  ([500000,128]) are padded with 7904 further rows to [507904,128]. Everything before those four stretches is
  carried as one unknown valuation, so nothing of the long sampling computation is opened.
-/
import proofs.«168587_j4406636446006_2_alg».proof.Proof.Gen.KernelIdeal.Launch
import Idealize.ShloMosaic.Lib.StableHlo.Run

noncomputable section

namespace Cert.KernelIdeal.NetValue

open Cert.KernelIdeal Cert.KernelIdeal.Gen Idealize.ShloMosaic Idealize.ShloMosaic.StableHlo

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Every host operation before the region, in order. -/
abbrev hostBefore : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51]

/-- All of them but the last four stretches. -/
abbrev hostHead : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47]

/-- The last four stretches: the weights' transposes, conversions and reshapes, and the two paddings. -/
abbrev hostLast : List (HloOp τ sig (Elt F)) :=
  hostOps0_48 ++ (hostOps0_49 ++ (hostOps0_50 ++ hostOps0_51))

set_option maxHeartbeats 1600000 in
theorem hostBefore_split : (hostBefore : List (HloOp τ sig (Elt F))) = hostHead ++ hostLast := by
  simp only [hostBefore, hostHead, hostLast, List.flatten_cons, List.flatten_nil, List.append_nil, List.append_assoc]

/-- The contents before the region are the last four stretches run from the contents the rest leaves. -/
theorem after_hostBefore (V : Valuation τ sig (Elt F)) :
    after hostBefore V = after hostLast (after hostHead V) := by
  rw [hostBefore_split, after_append]

end Cert.KernelIdeal.NetValue

end
-- ==== Proof.NetHostPads.lean ====
/-
  The two padded feature arrays the region reads, when the region is entered, are the host's padding of the two
  sampled feature arrays as they are at that same moment: the padding is one of the last host operations, and in
  a single-assignment line nothing after it writes its operands or its result.
-/
import proofs.«168587_j4406636446006_2_alg».proof.Proof.NetHostBase

noncomputable section

namespace Cert.KernelIdeal.NetValue

open Cert.KernelIdeal Cert.KernelIdeal.Gen Idealize.ShloMosaic Idealize.ShloMosaic.StableHlo

variable {F : FTy → Type} [FloatOps F]

set_option maxHeartbeats 3200000 in
/-- The first padded feature array is the padding of the first sampled array. -/
theorem padded_xy (V : Valuation τ sig (Elt F)) :
    after hostBefore V (Proc.devRef .tc main_v275)
      = pad S507904x128 ![0, 0] ![7904, 0] ![0, 0] (after hostBefore V (Proc.devRef .tc main_v135))
          (after hostBefore V (Proc.devRef .tc main_call24_v0)) pads_S500000x128_S507904x128_079040_000 h_S_ := by
  rw [after_hostBefore]
  generalize after hostHead V = G
  simp only [hostLast, hostOps0_48, hostOps0_49, hostOps0_50, hostOps0_51, List.cons_append, List.nil_append]
  after_results <;> rfl

set_option maxHeartbeats 3200000 in
/-- The second padded feature array is the padding of the second sampled array. -/
theorem padded_xz (V : Valuation τ sig (Elt F)) :
    after hostBefore V (Proc.devRef .tc main_v276)
      = pad S507904x128 ![0, 0] ![7904, 0] ![0, 0] (after hostBefore V (Proc.devRef .tc main_v267))
          (after hostBefore V (Proc.devRef .tc main_call25_v0)) pads_S500000x128_S507904x128_079040_000 h_S_ := by
  rw [after_hostBefore]
  generalize after hostHead V = G
  simp only [hostLast, hostOps0_48, hostOps0_49, hostOps0_50, hostOps0_51, List.cons_append, List.nil_append]
  after_results <;> rfl

end Cert.KernelIdeal.NetValue

end
-- ==== Proof.NetHostWeights.lean ====
/-
  The five weight arrays the region reads that the host prepared, when the region is entered: each weight
  matrix transposed and converted to bf16, each bias vector viewed as a one-row matrix, the last scalar bias
  viewed as a 1 x 1 matrix — of the argument arrays as they are at that same moment.
-/
import proofs.«168587_j4406636446006_2_alg».proof.Proof.NetHostBase

noncomputable section

namespace Cert.KernelIdeal.NetValue

open Cert.KernelIdeal Cert.KernelIdeal.Gen Idealize.ShloMosaic Idealize.ShloMosaic.StableHlo

variable {F : FTy → Type} [FloatOps F]

set_option maxHeartbeats 3200000 in
/-- The first layer's matrix as the region reads it: the first weight argument transposed, in bf16. -/
theorem prepared_w1 (V : Valuation τ sig (Elt F)) :
    after hostBefore V (Proc.devRef .tc main_v269)
      = truncf .bf16 (transpose S128x128 [1, 0] (after hostBefore V (Proc.devRef .tc main_arg4)) transposes_S128x128_S128x128_1_0) bitsLt_bf16_f32 := by
  rw [after_hostBefore]
  generalize after hostHead V = G
  simp only [hostLast, hostOps0_48, hostOps0_49, hostOps0_50, hostOps0_51, List.cons_append, List.nil_append]
  after_results <;> rfl

set_option maxHeartbeats 3200000 in
/-- The second layer's matrix: the second weight argument transposed, in bf16. -/
theorem prepared_w2 (V : Valuation τ sig (Elt F)) :
    after hostBefore V (Proc.devRef .tc main_v271)
      = truncf .bf16 (transpose S128x128 [1, 0] (after hostBefore V (Proc.devRef .tc main_arg6)) transposes_S128x128_S128x128_1_0) bitsLt_bf16_f32 := by
  rw [after_hostBefore]
  generalize after hostHead V = G
  simp only [hostLast, hostOps0_48, hostOps0_49, hostOps0_50, hostOps0_51, List.cons_append, List.nil_append]
  after_results <;> rfl

set_option maxHeartbeats 3200000 in
/-- The first layer's bias as a one-row matrix. -/
theorem prepared_b1 (V : Valuation τ sig (Elt F)) :
    after hostBefore V (Proc.devRef .tc main_v272)
      = shapeCast S1x128 (after hostBefore V (Proc.devRef .tc main_arg5)) shapeCasts_S128_S1x128 := by
  rw [after_hostBefore]
  generalize after hostHead V = G
  simp only [hostLast, hostOps0_48, hostOps0_49, hostOps0_50, hostOps0_51, List.cons_append, List.nil_append]
  after_results <;> rfl

set_option maxHeartbeats 3200000 in
/-- The second layer's bias as a one-row matrix. -/
theorem prepared_b2 (V : Valuation τ sig (Elt F)) :
    after hostBefore V (Proc.devRef .tc main_v273)
      = shapeCast S1x128 (after hostBefore V (Proc.devRef .tc main_arg7)) shapeCasts_S128_S1x128 := by
  rw [after_hostBefore]
  generalize after hostHead V = G
  simp only [hostLast, hostOps0_48, hostOps0_49, hostOps0_50, hostOps0_51, List.cons_append, List.nil_append]
  after_results <;> rfl

set_option maxHeartbeats 3200000 in
/-- The last scalar bias as a 1 x 1 matrix. -/
theorem prepared_b3 (V : Valuation τ sig (Elt F)) :
    after hostBefore V (Proc.devRef .tc main_v274)
      = shapeCast S1x1 (after hostBefore V (Proc.devRef .tc main_arg9)) shapeCasts_S1_S1x1 := by
  rw [after_hostBefore]
  generalize after hostHead V = G
  simp only [hostLast, hostOps0_48, hostOps0_49, hostOps0_50, hostOps0_51, List.cons_append, List.nil_append]
  after_results <;> rfl

end Cert.KernelIdeal.NetValue

end
-- ==== Proof.NetValue.lean ====
/-
  The idealized kernel's program, run: its result at every point is the sine network of that point's two sampled
  feature rows and the weight arguments.

  Three facts meet here. (1) The output array of the region is `netArray`: entry `(t, 0, r)` is the network of row
  `8192 t + r` of the two padded feature arrays, with the weight arrays the host prepared. (2) The three host
  operations after the region read, at point `p < 500000` of the result, the output's entry `(p / 8192, 0, p % 8192)`,
  whose row is `p` again. (3) Row `p < 500000` of a padded feature array is row `p` of the sampled array, and the
  prepared weight arrays are the weight arguments transposed (first index the input channel) or reshaped. So the
  result at `p` is `SineNet.net` of row `p` of the two sampled arrays and the weight arguments as they are stored.
-/
import proofs.«168587_j4406636446006_2_alg».proof.Proof.NetBlocks
import proofs.«168587_j4406636446006_2_alg».proof.Proof.NetHostAt
import proofs.«168587_j4406636446006_2_alg».proof.Proof.NetHostPads
import proofs.«168587_j4406636446006_2_alg».proof.Proof.NetHostWeights

noncomputable section

namespace Cert.KernelIdeal.NetValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region reads, down to the sampled arrays and the arguments -/

/-- Row `q < 500000` of the first padded feature array is row `q` of the first sampled array. -/
theorem entry_xy (c : Dev nD) (q : Fin 507904) (hq : q.val < 500000) (k : Fin 128) :
    (V m c main_v275 : S507904x128.Idx → EReal) (ix2 q k) = (V m c main_v135 : S500000x128.Idx → EReal) (ix2 (⟨q.val, hq⟩ : Fin 500000) k) := by
  have h : V m c main_v275 = pad S507904x128 ![0, 0] ![7904, 0] ![0, 0] (V m c main_v135) (V m c main_call24_v0)
      pads_S500000x128_S507904x128_079040_000 h_S_ := padded_xy _
  rw [h]
  exact paddedRow_apply _ _ q hq k

/-- The same for the second. -/
theorem entry_xz (c : Dev nD) (q : Fin 507904) (hq : q.val < 500000) (k : Fin 128) :
    (V m c main_v276 : S507904x128.Idx → EReal) (ix2 q k) = (V m c main_v267 : S500000x128.Idx → EReal) (ix2 (⟨q.val, hq⟩ : Fin 500000) k) := by
  have h : V m c main_v276 = pad S507904x128 ![0, 0] ![7904, 0] ![0, 0] (V m c main_v267) (V m c main_call25_v0)
      pads_S500000x128_S507904x128_079040_000 h_S_ := padded_xz _
  rw [h]
  exact paddedRow_apply _ _ q hq k

/-- The first layer's matrix as the region reads it, at (input channel `i`, output channel `j`): the first weight
    argument at `(j, i)`. -/
theorem entry_w1 (c : Dev nD) (i j : Fin 128) :
    (V m c main_v269 : S128x128.Idx → EReal) (ix2 i j) = (m ((c.tc : Thread nD τ).loc main_arg4) : S128x128.Idx → EReal) (ix2 j i) := by
  have h : (V m c main_v269 : S128x128.Idx → EReal)
      = (truncf .bf16 (transpose S128x128 [1, 0] (V m c main_arg4 : S128x128.Idx → EReal) transposes_S128x128_S128x128_1_0) bitsLt_bf16_f32 : FVec Ideal S128x128 .bf16) :=
    prepared_w1 (F := Ideal) _
  rw [h, V_main_arg4 m c]
  exact transposedWeight_apply _ i j

/-- The second layer's matrix likewise. -/
theorem entry_w2 (c : Dev nD) (i j : Fin 128) :
    (V m c main_v271 : S128x128.Idx → EReal) (ix2 i j) = (m ((c.tc : Thread nD τ).loc main_arg6) : S128x128.Idx → EReal) (ix2 j i) := by
  have h : (V m c main_v271 : S128x128.Idx → EReal)
      = (truncf .bf16 (transpose S128x128 [1, 0] (V m c main_arg6 : S128x128.Idx → EReal) transposes_S128x128_S128x128_1_0) bitsLt_bf16_f32 : FVec Ideal S128x128 .bf16) :=
    prepared_w2 (F := Ideal) _
  rw [h, V_main_arg6 m c]
  exact transposedWeight_apply _ i j

/-- The first bias row is the first bias argument. -/
theorem entry_b1 (c : Dev nD) (j : Fin 128) :
    (V m c main_v272 : S1x128.Idx → EReal) (ix2 (0 : Fin 1) j) = (m ((c.tc : Thread nD τ).loc main_arg5) : S128.Idx → EReal) (ix1 j) := by
  have h : V m c main_v272 = shapeCast S1x128 (V m c main_arg5) shapeCasts_S128_S1x128 := prepared_b1 _
  rw [h, V_main_arg5 m c]
  exact biasRow_apply _ j

/-- The second bias row is the second bias argument. -/
theorem entry_b2 (c : Dev nD) (j : Fin 128) :
    (V m c main_v273 : S1x128.Idx → EReal) (ix2 (0 : Fin 1) j) = (m ((c.tc : Thread nD τ).loc main_arg7) : S128.Idx → EReal) (ix1 j) := by
  have h : V m c main_v273 = shapeCast S1x128 (V m c main_arg7) shapeCasts_S128_S1x128 := prepared_b2 _
  rw [h, V_main_arg7 m c]
  exact biasRow_apply _ j

/-- The scalar bias cell is the last bias argument. -/
theorem entry_b3 (c : Dev nD) :
    (V m c main_v274 : S1x1.Idx → EReal) (ix2 (0 : Fin 1) (0 : Fin 1)) = (m ((c.tc : Thread nD τ).loc main_arg9) : S1.Idx → EReal) (ix1 (0 : Fin 1)) := by
  have h : V m c main_v274 = shapeCast S1x1 (V m c main_arg9) shapeCasts_S1_S1x1 := prepared_b3 _
  rw [h, V_main_arg9 m c]
  exact scalarCell_apply _

/-! ## The host operations after the region -/

set_option maxHeartbeats 1600000 in
/-- The program's result buffer after the host's three closing operations: the output array `netArray` viewed as one
    vector, cut to its first 500000 entries, viewed as [1, 500000, 1]. -/
theorem tail_value (c : Dev nD) :
    Pipeline.afterTail₀ cfgs (dats m) 0 (V0 m) [hostOps1] c main_v280
      = shapeCast S1x500000x1
          (extractStridedSlice S500000 ![0] (shapeCast S507904 (netArray m c) shapeCasts_S62x1x8192_S507904) slices_S507904_S500000_0)
          shapeCasts_S500000_S1x500000x1 := by
  have hA : Pipeline.withArrays (cfgs 0).spec c (V0 m c) (fun w => (dats m 0 c).arrAt w (cfgs 0).N) (Proc.devRef .tc main_v277)
      = netArray m c := (Pipeline.withArrays_arr spec0 launch0.win.arr_inj c (V0 m c) _ 8).trans (final m c)
  unfold Pipeline.afterTail₀
  show StableHlo.after hostOps1 _ (Proc.devRef .tc main_v280) = _
  after_results
  rw [hA]
  rfl

/-! ## The result at a point -/

/-- The closing host operations applied to `netArray`, at point `p`: the network of row `p` of the two sampled
    feature arrays and the weight arguments. -/
theorem result_apply (c : Dev nD) (p : Fin 500000) :
    shapeCast S1x500000x1
        (extractStridedSlice S500000 ![0] (shapeCast S507904 (netArray m c) shapeCasts_S62x1x8192_S507904) slices_S507904_S500000_0)
        shapeCasts_S500000_S1x500000x1 (ix3 (0 : Fin 1) p (0 : Fin 1))
      = Cert.SineNet.net (fun k => V m c main_v135 (ix2 p k)) (fun k => V m c main_v267 (ix2 p k))
          (fun j i => m ((c.tc : Thread nD τ).loc main_arg4) (ix2 j i)) (fun j => m ((c.tc : Thread nD τ).loc main_arg5) (ix1 j))
          (fun k j => m ((c.tc : Thread nD τ).loc main_arg6) (ix2 k j)) (fun k => m ((c.tc : Thread nD τ).loc main_arg7) (ix1 k))
          (fun k => m ((c.tc : Thread nD τ).loc main_arg8) (ix2 (0 : Fin 1) k)) (m ((c.tc : Thread nD τ).loc main_arg9) (ix1 (0 : Fin 1))) := by
  have hp : p.val < 500000 := p.isLt
  have ht : p.val / 8192 < 62 := by omega
  have hr : p.val % 8192 < 8192 := by omega
  refine (tail_apply (netArray m c) p (⟨p.val / 8192, ht⟩ : Fin 62) (⟨p.val % 8192, hr⟩ : Fin 8192)
    (by show p.val = p.val / 8192 * 8192 + p.val % 8192; omega)).trans ?_
  have hq : (rowOf (ix3 (⟨p.val / 8192, ht⟩ : Fin 62) (0 : Fin 1) (⟨p.val % 8192, hr⟩ : Fin 8192))).val < 500000 := by
    show p.val / 8192 * 8192 + p.val % 8192 < 500000; omega
  have hpq : (⟨(rowOf (ix3 (⟨p.val / 8192, ht⟩ : Fin 62) (0 : Fin 1) (⟨p.val % 8192, hr⟩ : Fin 8192))).val, hq⟩ : Fin 500000) = p :=
    Fin.ext (by show p.val / 8192 * 8192 + p.val % 8192 = p.val; omega)
  unfold netArray
  simp only [entry_xy m c _ hq, entry_xz m c _ hq, hpq, entry_w1 m c, entry_w2 m c, entry_b1 m c, entry_b2 m c, entry_b3 m c,
    V_main_arg8 m c]

/-! ## The run -/

/-- What the program's result buffer holds after the run. -/
theorem result_eq (c : Dev nD) (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v280)
      = shapeCast S1x500000x1
          (extractStridedSlice S500000 ![0] (shapeCast S507904 (netArray m c) shapeCasts_S62x1x8192_S507904) slices_S507904_S500000_0)
          shapeCasts_S500000_S1x500000x1 :=
  ((h c).2 main_v280 (Pipeline.mem_restRefs_of main_v280 (by decide) (by decide))).trans (tail_value m c)

set_option maxHeartbeats 3200000 in
/-- THE RUN of the idealized kernel's program: at every point `p` the result is the network of row `p` of the two
    sampled feature arrays (as the host leaves them before padding) and the weight arguments; the arguments end
    unchanged. -/
theorem run : θ_run (Cert.KernelIdeal.defs (F := Ideal)) (onTc (τ := τ) (main (F := Ideal))) ⟨m, fun _ => 0, ρ⟩ (fun r => ∀ c : Dev nD,
      (∀ p : Fin 500000, r.2.mem ((c.tc : Thread nD τ).loc main_v280) (ix3 (0 : Fin 1) p (0 : Fin 1))
          = Cert.SineNet.net (fun k => V m c main_v135 (ix2 p k)) (fun k => V m c main_v267 (ix2 p k))
              (fun j i => m ((c.tc : Thread nD τ).loc main_arg4) (ix2 j i)) (fun j => m ((c.tc : Thread nD τ).loc main_arg5) (ix1 j))
              (fun k j => m ((c.tc : Thread nD τ).loc main_arg6) (ix2 k j)) (fun k => m ((c.tc : Thread nD τ).loc main_arg7) (ix1 k))
              (fun k => m ((c.tc : Thread nD τ).loc main_arg8) (ix2 (0 : Fin 1) k)) (m ((c.tc : Thread nD τ).loc main_arg9) (ix1 (0 : Fin 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨fun p => (congrFun (result_eq m c r h) (ix3 (0 : Fin 1) p (0 : Fin 1))).trans (result_apply m c p),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).1 6).trans (((dats m 0 c).arrAt_in 6 rfl _).trans ((A_eq m c 6).trans (V_main_arg8 m c))),
      ((h c).2 main_arg9 (Pipeline.mem_restRefs_of main_arg9 (by decide) (by decide))).trans (W_main_arg9 m (dats m) c)⟩)
    (run_main m ρ)

end Cert.KernelIdeal.NetValue

end
-- ==== Proof.KSample.lean ====
/-
  The kernel's sampling glue as functions of whole arrays.

  For a plane laid out as a table of 65536 rows (row index 256 · row + column) of 128 channels and two
  coordinate columns `gx`, `gy` (one number per point), the kernel computes, per point:
    * the pixel coordinate `pix g = ((g + 1) · 0.5) · 255`, its floor `flo g`, the next integer `flo1 g`,
      the fractional part `fr1 g = pix g − flo g` (the weight of the next integer) and `fr0 g = 1 − fr1 g`;
    * for each of the four corners (xc, yc) ∈ {flo gx, flo1 gx} × {flo gy, flo1 gy}: a 0/1 validity factor
      (both corner coordinates between 0 and 255), the clipped corner coordinates converted to integers,
      the row index `256 · yi + xi`, the table's row at that index (a sentinel where the index is out of
      range), and that row times (weight · validity);
    * the sum of the four weighted rows, in the order (x0,y0), (x1,y0), (x0,y1), (x1,y1).
  Every definition below is the composition of the host operations the program prints, in the program's
  order, so that the array the region finds is, by unfolding, `sample table gx gy`.
-/
import proofs.«168587_j4406636446006_2_alg».proof.KernelIdeal

noncomputable section

namespace Cert.KernelIdeal.Sample

open Idealize.ShloMosaic Cert.KernelIdeal Cert.KernelIdeal.Facts₀

variable {F : FTy → Type} [FloatOps F] [Cert.KernelIdeal.Facts₀]

/-- A float constant at every point. -/
def splat (w : BitVec 32) : FVec F S500000 .f32 := broadcastInDim S500000 ![] bcast_S_S500000 (constant S_ .f32 w)

/-- The pixel coordinate `((g + 1) · 0.5) · 255`. -/
def pix (g : FVec F S500000 .f32) : FVec F S500000 .f32 :=
  mulf (mulf (addf g (splat 0x3F800000#32)) (splat 0x3F000000#32)) (splat 0x437F0000#32)

/-- The pixel below. -/
def flo (g : FVec F S500000 .f32) : FVec F S500000 .f32 := Host.floor (pix g)

/-- The pixel above. -/
def flo1 (g : FVec F S500000 .f32) : FVec F S500000 .f32 := addf (flo g) (splat 0x3F800000#32)

/-- The weight of the pixel above: the fractional part. -/
def fr1 (g : FVec F S500000 .f32) : FVec F S500000 .f32 := subf (pix g) (flo g)

/-- The weight of the pixel below. -/
def fr0 (g : FVec F S500000 .f32) : FVec F S500000 .f32 := subf (splat 0x3F800000#32) (fr1 g)

/-- 1 where both corner coordinates lie between 0 and 255, else 0. -/
def valid (xc yc : FVec F S500000 .f32) : FVec F S500000 .f32 :=
  uitofp .f32 (andi (andi (andi (cmpf .oge xc (splat 0x00000000#32)) (cmpf .ole xc (splat 0x437F0000#32)))
    (cmpf .oge yc (splat 0x00000000#32))) (cmpf .ole yc (splat 0x437F0000#32)))

/-- A corner coordinate clipped into [0, 255] and converted to a signed 32-bit integer. -/
def clipI (t : FVec F S500000 .f32) : IVec S500000 32 :=
  fptosi 32 (minimumf (broadcastInDim S500000 ![] bcast_S_S500000 (sitofp .f32 (constantI S_ 32 255#32)))
    (maximumf (broadcastInDim S500000 ![] bcast_S_S500000 (sitofp .f32 (constantI S_ 32 0#32))) t))

/-- The table row index `256 · yi + xi` of a corner. -/
def flat (xc yc : FVec F S500000 .f32) : IVec S500000 32 :=
  addi (muli (clipI yc) (broadcastInDim S500000 ![] bcast_S_S500000 (constantI S_ 32 256#32))) (clipI xc)

/-- The start index as the gather takes it: a negative index counted from the end, as one column. -/
def startIdx (fl : IVec S500000 32) : IVec S500000x1 32 :=
  broadcastInDim S500000x1 ![0] bcast_S500000_S500000x1_0
    (select (cmpi .slt fl (broadcastInDim S500000 ![] bcast_S_S500000 (constantI S_ 32 0#32)))
      (addi fl (broadcastInDim S500000 ![] bcast_S_S500000 (constantI S_ 32 65536#32))) fl)

/-- 1 where the start index lies in [0, 65535]. -/
def inRange (st : IVec S500000x1 32) : IVec S500000 1 :=
  Host.reduce IntOp.andi
    (andi (cmpi .sge st (broadcastInDim S500000x1 ![] bcast_S_S500000x1 (constantI S_ 32 0#32)))
      (cmpi .sle st (broadcastInDim S500000x1 ![0, 1] bcast_S1x1_S500000x1_0_1
        (broadcastInDim S1x1 ![1] bcast_S1_S1x1_1 (constantI S1 32 65535#32)))))
    (constantI S_ 1 1#1) reducesTo_S500000x1_S500000_d1 h_S_

/-- One table row per point: the gathered row where the index is in range, the sentinel elsewhere. -/
def take (tbl : FVec F S65536x128 .f32) (fl : IVec S500000 32) : FVec F S500000x128 .f32 :=
  select (broadcastInDim S500000x128 ![0] bcast_S500000_S500000x128_0 (inRange (startIdx fl)))
    (Host.gather gather_S65536x128_S500000x1_S500000x128_1_0_n_n_0_1_1128 tbl (startIdx fl))
    (broadcastInDim S500000x128 ![] bcast_S_S500000x128 (constant S_ .f32 0x7FC00000#32))

/-- A per-point factor spread over the 128 channels. -/
def spread (w : FVec F S500000 .f32) : FVec F S500000x128 .f32 :=
  broadcastInDim S500000x128 ![0, 1] bcast_S500000x1_S500000x128_0_1 (broadcastInDim S500000x1 ![0] bcast_S500000_S500000x1_0 w)

/-- One corner's weighted rows. -/
def corner (tbl : FVec F S65536x128 .f32) (xc yc w : FVec F S500000 .f32) : FVec F S500000x128 .f32 :=
  mulf (take tbl (flat xc yc)) (spread (mulf w (valid xc yc)))

/-- The bilinear sample: the four weighted corners summed in the program's order. -/
def sample (tbl : FVec F S65536x128 .f32) (gx gy : FVec F S500000 .f32) : FVec F S500000x128 .f32 :=
  addf (addf (addf (corner tbl (flo gx) (flo gy) (mulf (fr0 gx) (fr0 gy)))
                   (corner tbl (flo1 gx) (flo gy) (mulf (fr1 gx) (fr0 gy))))
             (corner tbl (flo gx) (flo1 gy) (mulf (fr0 gx) (fr1 gy))))
       (corner tbl (flo1 gx) (flo1 gy) (mulf (fr1 gx) (fr1 gy)))

/-- The plane as a table: channels last, rows and columns flattened. -/
def table (a1 : FVec F S1x128x256x256 .f32) : FVec F S65536x128 .f32 :=
  shapeCast S65536x128 (transpose S256x256x128 [1, 2, 0] (shapeCast S128x256x256 a1 shapeCasts_S1x128x256x256_S128x256x256)
    transposes_S128x256x256_S256x256x128_1_2_0) shapeCasts_S256x256x128_S65536x128

/-- Column `k` of the point coordinates, as one number per point (k = 0, 1, 2 are spelt out by the program). -/
def col0 (a0 : FVec F S1x500000x3 .f32) : FVec F S500000 .f32 :=
  shapeCast S500000 (extractStridedSlice S500000x1 ![0, 0] (shapeCast S500000x3 a0 shapeCasts_S1x500000x3_S500000x3) slices_S500000x3_S500000x1_0_0) shapeCasts_S500000x1_S500000
def col1 (a0 : FVec F S1x500000x3 .f32) : FVec F S500000 .f32 :=
  shapeCast S500000 (extractStridedSlice S500000x1 ![0, 1] (shapeCast S500000x3 a0 shapeCasts_S1x500000x3_S500000x3) slices_S500000x3_S500000x1_0_1) shapeCasts_S500000x1_S500000
def col2 (a0 : FVec F S1x500000x3 .f32) : FVec F S500000 .f32 :=
  shapeCast S500000 (extractStridedSlice S500000x1 ![0, 2] (shapeCast S500000x3 a0 shapeCasts_S1x500000x3_S500000x3) slices_S500000x3_S500000x1_0_2) shapeCasts_S500000x1_S500000

end Cert.KernelIdeal.Sample

end
-- ==== Proof.NetEntryXY.lean ====
/-
  The first sampled feature array, as the region finds it, is the bilinear sample of the plane at the points' first
  two coordinates, converted to bf16.

  The host program before the region is a straight line in single-assignment form. The operations that compute the
  first sampled array are its first twenty-five stretches; they end in the conversion that writes the array, and no
  later operation writes that buffer. Unfolding the line operation by operation expresses the buffer's contents as
  the composition of the operations' functions applied to the two argument arrays (the plane and the points), and
  that composition is, term for term, the sampling function `Sample.sample` of the plane's table and the two
  coordinate columns: four corners, each a table row picked by the clipped integer corner and weighted by the
  bilinear weight times the corner's validity, summed in the program's order.
-/
import proofs.«168587_j4406636446006_2_alg».proof.Proof.NetHostBase
import proofs.«168587_j4406636446006_2_alg».proof.Proof.KSample

noncomputable section

namespace Cert.KernelIdeal.NetValue

open Cert.KernelIdeal Cert.KernelIdeal.Gen Idealize.ShloMosaic Idealize.ShloMosaic.StableHlo

variable {F : FTy → Type} [FloatOps F]

/-- The stretches up to the one that writes the first sampled array. -/
abbrev xyHead : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]

/-- The stretches after it. -/
abbrev xyRest : List (HloOp τ sig (Elt F)) := List.flatten [hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51]

set_option maxHeartbeats 1600000 in
theorem hostBefore_split_xy : (hostBefore : List (HloOp τ sig (Elt F))) = xyHead ++ xyRest := by
  simp only [hostBefore, xyHead, xyRest, List.flatten_cons, List.flatten_nil, List.append_nil, List.append_assoc]

set_option maxRecDepth 100000 in
set_option maxHeartbeats 64000000 in
/-- What the first twenty-five stretches leave in the first sampled array: the sample of the plane's table at the
    points' first two coordinate columns, in bf16. -/
theorem head_xy (V : Valuation τ sig (Elt F)) :
    after xyHead V (Proc.devRef .tc main_v135)
      = truncf .bf16 (Sample.sample (Sample.table (V (Proc.devRef .tc main_arg1))) (Sample.col0 (V (Proc.devRef .tc main_arg0)))
          (Sample.col1 (V (Proc.devRef .tc main_arg0)))) bitsLt_bf16_f32 := by
  simp only [xyHead, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_results_simp
  simp only [TRef.toBuf, TRef.ofBuf, cast_eq]
  rfl

set_option maxHeartbeats 6400000 in
/-- No later stretch writes the first sampled array. -/
theorem rest_xy (W : Valuation τ sig (Elt F)) :
    after xyRest W (Proc.devRef .tc main_v135) = W (Proc.devRef .tc main_v135) :=
  after_of_forall_not_mem (b := Proc.devRef .tc main_v135) _ _ (List.forall_iff_forall_mem.mp (by
    simp only [xyRest, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, List.flatten_cons, List.flatten_nil, List.append_nil, List.cons_append,
      List.nil_append, List.Forall, nullary_writes, unary_writes, binary_writes, ternary_writes, quaternary_writes,
      reshape_writes, binaryIndexed_writes, Finset.mem_singleton]
    repeat' apply And.intro
    all_goals exact devRef_ne_of_ne (by decide)))

/-- THE FIRST SAMPLED ARRAY when the region is entered. -/
theorem sampled_xy (V : Valuation τ sig (Elt F)) :
    after hostBefore V (Proc.devRef .tc main_v135)
      = truncf .bf16 (Sample.sample (Sample.table (V (Proc.devRef .tc main_arg1))) (Sample.col0 (V (Proc.devRef .tc main_arg0)))
          (Sample.col1 (V (Proc.devRef .tc main_arg0)))) bitsLt_bf16_f32 := by
  rw [hostBefore_split_xy, after_append, rest_xy, head_xy]

end Cert.KernelIdeal.NetValue

end
-- ==== Proof.NetEntryXZ.lean ====
/-
  What the host program leaves in the second sampled array when the kernel's region is entered.

  The host operations before the region are a straight line in single-assignment form, so the contents of a
  buffer at the end of the line are its one writing operation's function of the contents its operands have at the
  end of the line, and so on down to the arguments. The line is cut in three. The early stretches matter to the
  (x, z) sample only through two arrays they write: the point argument without its leading unit axis, and the
  plane argument laid out as a table of 65536 rows (row index 256 · row + column) of 128 channels. The middle
  stretches compute the sample from these two: the columns 0 and 2 of the points, their pixel coordinates, floors
  and fractional parts, and for each of the four corners the validity factor, the clipped integer coordinates,
  the table row gathered at 256 · zi + xi, and that row times (weight · validity); the four weighted rows are
  added in the order (x0,z0), (x1,z0), (x0,z1), (x1,z1) and the sum is converted to bf16. The late stretches
  (the weights' preparation and the two paddings) do not write the sampled array. Composed, the three say that
  the array the region finds is the bilinear sample, as defined on whole arrays, of the plane argument at the
  point argument's columns 0 and 2.
-/
import proofs.«168587_j4406636446006_2_alg».proof.Proof.NetHostBase
import proofs.«168587_j4406636446006_2_alg».proof.Proof.KSample
import Idealize.ShloMosaic.Lib.StableHlo.Run

noncomputable section

namespace Cert.KernelIdeal.NetValue

open Cert.KernelIdeal Cert.KernelIdeal.Gen Idealize.ShloMosaic Idealize.ShloMosaic.StableHlo

variable {F : FTy → Type} [FloatOps F]

/-- The stretches before the (x, z) sample is begun: among what they write, only the point array without its
    leading unit axis and the plane laid out as a table are read later by the (x, z) sample. -/
abbrev xzEarly : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]

/-- The stretches that compute the (x, z) sample, from its two coordinate columns to its conversion to bf16. -/
abbrev xzMain : List (HloOp τ sig (Elt F)) :=
  List.flatten [hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48]

/-- The stretches after it: the weights' preparation and the two paddings. -/
abbrev xzLate : List (HloOp τ sig (Elt F)) :=
  List.flatten [hostOps0_49, hostOps0_50, hostOps0_51]

set_option maxHeartbeats 1600000 in
theorem xz_split : (hostBefore : List (HloOp τ sig (Elt F))) = xzEarly ++ (xzMain ++ xzLate) := by
  simp only [hostBefore, xzEarly, xzMain, xzLate, List.flatten_cons, List.flatten_nil, List.append_nil, List.append_assoc]

set_option maxRecDepth 200000 in
set_option maxHeartbeats 6400000 in
/-- After the early stretches, the point array without its leading unit axis. -/
theorem xz_points (V : Valuation τ sig (Elt F)) :
    after xzEarly V (Proc.devRef .tc main_v0)
      = shapeCast S500000x3 (V (Proc.devRef .tc main_arg0)) shapeCasts_S1x500000x3_S500000x3 := by
  simp only [xzEarly, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append]
  after_results_simp
  rfl

set_option maxRecDepth 200000 in
set_option maxHeartbeats 6400000 in
/-- After the early stretches, the plane as a table of 65536 rows of 128 channels. -/
theorem xz_table (V : Valuation τ sig (Elt F)) :
    after xzEarly V (Proc.devRef .tc main_v3) = Sample.table (V (Proc.devRef .tc main_arg1)) := by
  simp only [xzEarly, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append]
  after_results_simp
  rfl

set_option maxRecDepth 200000 in
set_option maxHeartbeats 12800000 in
/-- The (x, z) sample from whatever the point array and the table are when its stretches begin. -/
theorem xz_main (W : Valuation τ sig (Elt F)) :
    after xzMain W (Proc.devRef .tc main_v267)
      = truncf .bf16 (Sample.sample (W (Proc.devRef .tc main_v3))
          (shapeCast S500000 (extractStridedSlice S500000x1 ![0, 0] (W (Proc.devRef .tc main_v0)) slices_S500000x3_S500000x1_0_0) shapeCasts_S500000x1_S500000)
          (shapeCast S500000 (extractStridedSlice S500000x1 ![0, 2] (W (Proc.devRef .tc main_v0)) slices_S500000x3_S500000x1_0_2) shapeCasts_S500000x1_S500000)) bitsLt_bf16_f32 := by
  simp only [xzMain, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, List.flatten_cons, List.flatten_nil, List.append_nil, List.cons_append, List.nil_append]
  after_results_simp
  simp only [TRef.toBuf, TRef.ofBuf, cast_eq]
  rfl

set_option maxRecDepth 200000 in
set_option maxHeartbeats 1600000 in
/-- The late stretches do not write the (x, z) sample. -/
theorem xz_late (W : Valuation τ sig (Elt F)) :
    after xzLate W (Proc.devRef .tc main_v267) = W (Proc.devRef .tc main_v267) := by
  simp only [xzLate, hostOps0_49, hostOps0_50, hostOps0_51, List.flatten_cons, List.flatten_nil, List.append_nil, List.cons_append, List.nil_append]
  after_results_simp

/-- When the region is entered, the second sampled array is the bilinear (x, z) sample of the plane argument at
    the point argument's columns 0 and 2, converted to bf16. -/
theorem sampled_xz (V : Valuation τ sig (Elt F)) :
    after hostBefore V (Proc.devRef .tc main_v267)
      = truncf .bf16 (Sample.sample (Sample.table (V (Proc.devRef .tc main_arg1)))
          (Sample.col0 (V (Proc.devRef .tc main_arg0))) (Sample.col2 (V (Proc.devRef .tc main_arg0)))) bitsLt_bf16_f32 := by
  rw [xz_split, after_append, after_append, xz_late, xz_main, xz_table, xz_points]
  rfl

end Cert.KernelIdeal.NetValue

end
-- ==== Proof.NetEntry.lean ====
/-
  The two sampled feature arrays the region's padded inputs are made from, as the program leaves them when the region
  is entered, in terms of the program's arguments: each is the bilinear sample of the plane (argument 1, read as a
  table of 65536 rows of 128 channels) at two coordinate columns of the points (argument 0) — columns 0 and 1 for the
  first array, columns 0 and 2 for the second —, converted to bf16.
-/
import proofs.«168587_j4406636446006_2_alg».proof.Proof.KernelIdealFrameP
import proofs.«168587_j4406636446006_2_alg».proof.Proof.NetEntryXY
import proofs.«168587_j4406636446006_2_alg».proof.Proof.NetEntryXZ
import Idealize.ShloMosaic.PureOps.Ideal

noncomputable section

namespace Cert.KernelIdeal.NetValue

open Cert.KernelIdeal Cert.KernelIdeal.Gen Idealize.ShloMosaic Idealize.ShloMosaic.TcCoe

variable (m : (ℓ : Loc nD τ sig) → Buf (Elt Ideal) ℓ)

/-- The first sampled array at region entry. -/
theorem xy_entry (c : Dev nD) :
    (GenP.V m c main_v135 : FVec Ideal S500000x128 .bf16)
      = truncf (F := Ideal) .bf16 (Sample.sample (F := Ideal) (Sample.table (F := Ideal) (m ((c.tc : Thread nD τ).loc main_arg1)))
          (Sample.col0 (F := Ideal) (m ((c.tc : Thread nD τ).loc main_arg0))) (Sample.col1 (F := Ideal) (m ((c.tc : Thread nD τ).loc main_arg0))))
          bitsLt_bf16_f32 :=
  sampled_xy (F := Ideal) _

/-- The second sampled array at region entry. -/
theorem xz_entry (c : Dev nD) :
    (GenP.V m c main_v267 : FVec Ideal S500000x128 .bf16)
      = truncf (F := Ideal) .bf16 (Sample.sample (F := Ideal) (Sample.table (F := Ideal) (m ((c.tc : Thread nD τ).loc main_arg1)))
          (Sample.col0 (F := Ideal) (m ((c.tc : Thread nD τ).loc main_arg0))) (Sample.col2 (F := Ideal) (m ((c.tc : Thread nD τ).loc main_arg0))))
          bitsLt_bf16_f32 :=
  sampled_xz (F := Ideal) _

end Cert.KernelIdeal.NetValue

end
-- ==== Proof.RefNet.lean ====
/-
  The reference program's result at one point, read as the sine network of that point's two sampled rows.

  After the two sampled rows `xy` and `xz` (two [500000,128] arrays: one row of 128 channels per point) the
  program is pointwise in the point index. It multiplies the rows channel by channel as `(xy · xz) · xz`;
  multiplies by the transposed first weight matrix, which at (point p, output j) is the sum over the input
  channel i of the product row times the stored entry `W1 j i`; adds the bias broadcast over the points; scales
  by the constant 30 and takes the sine. The second layer repeats this with `W2`, `b2`. The last step is the
  product with the transposed weight row `W3` plus the one bias `b3`, reshaped to [1,500000,1]. Read at the
  index (0, p, 0), every stage depends on row p of `xy` and `xz` only, so the result there is `SineNet.net` of
  these two rows. The sums are the exact sums over the 128 channels of the idealized reading, so no order of
  accumulation enters. The two sampled rows stay opaque in this module.
-/
import proofs.«168587_j4406636446006_2_alg».proof.Proof.ReferenceIdealReadP
import proofs.«168587_j4406636446006_2_alg».proof.Proof.SineNet

noncomputable section

namespace Cert.ReferenceIdeal.NetValue

open Cert.ReferenceIdeal Cert.ReferenceIdeal.Gen Cert.ReferenceIdeal.ReadP Idealize.ShloMosaic Idealize.ShloMosaic.ValueIdx

variable (a0 : (⟨S1x500000x3, .f32⟩ : BufTy).Contents (Elt Ideal)) (a1 : (⟨S1x128x256x256, .f32⟩ : BufTy).Contents (Elt Ideal))
  (a4 : (⟨S128x128, .f32⟩ : BufTy).Contents (Elt Ideal)) (a5 : (⟨S128, .f32⟩ : BufTy).Contents (Elt Ideal))
  (a6 : (⟨S128x128, .f32⟩ : BufTy).Contents (Elt Ideal)) (a7 : (⟨S128, .f32⟩ : BufTy).Contents (Elt Ideal))
  (a8 : (⟨S1x128, .f32⟩ : BufTy).Contents (Elt Ideal)) (a9 : (⟨S1, .f32⟩ : BufTy).Contents (Elt Ideal))

/-! ### The small stages: transposed weights, broadcast biases, the broadcast frequency -/

/-- The transposed first weight matrix at (input i, output j) is the stored entry (j, i). -/
theorem weight1_apply (i j : Fin 128) : val_main_v348 (F := Ideal) a4 (ix2 i j) = a4 (ix2 j i) := by
  rw [val_main_v348_apply]
  exact congrArg a4 (funext fun a => Fin.ext (by match a with | ⟨0, _⟩ => rfl | ⟨1, _⟩ => rfl))

/-- The transposed second weight matrix at (input j, output k) is the stored entry (k, j). -/
theorem weight2_apply (j k : Fin 128) : val_main_v356 (F := Ideal) a6 (ix2 j k) = a6 (ix2 k j) := by
  rw [val_main_v356_apply]
  exact congrArg a6 (funext fun a => Fin.ext (by match a with | ⟨0, _⟩ => rfl | ⟨1, _⟩ => rfl))

/-- The transposed last weight row at (input k, the one output) is the stored entry (0, k). -/
theorem weight3_apply (k : Fin 128) : val_main_v364 (F := Ideal) a8 (ix2 k (0 : Fin 1)) = a8 (ix2 (0 : Fin 1) k) := by
  rw [val_main_v364_apply]
  exact congrArg a8 (funext fun a => Fin.ext (by match a with | ⟨0, _⟩ => rfl | ⟨1, _⟩ => rfl))

/-- The first bias, broadcast over the points, at (p, j) is the stored entry j. -/
theorem bias1_apply (p : Fin 500000) (j : Fin 128) : val_main_v351 (F := Ideal) a5 (ix2 p j) = a5 (ix1 j) := by
  rw [val_main_v351_apply, val_main_v350_apply]
  exact congrArg a5 (funext fun a => Fin.ext (by match a with | ⟨0, _⟩ => rfl))

/-- The second bias, broadcast over the points, at (p, k) is the stored entry k. -/
theorem bias2_apply (p : Fin 500000) (k : Fin 128) : val_main_v359 (F := Ideal) a7 (ix2 p k) = a7 (ix1 k) := by
  rw [val_main_v359_apply, val_main_v358_apply]
  exact congrArg a7 (funext fun a => Fin.ext (by match a with | ⟨0, _⟩ => rfl))

/-- The last bias, broadcast over the points, is the one stored entry. -/
theorem bias3_apply (p : Fin 500000) : val_main_v367 (F := Ideal) a9 (ix2 p (0 : Fin 1)) = a9 (ix1 (0 : Fin 1)) := by
  rw [val_main_v367_apply, val_main_v366_apply]
  exact congrArg a9 (funext fun a => Fin.ext (by match a with | ⟨0, _⟩ => rfl))

/-- The frequency broadcast in front of the first sine is the constant 30 at every index. -/
theorem freq1_apply (i : S500000x128.Idx) : val_main_v353 (F := Ideal) i = Cert.SineNet.freq := by
  rw [val_main_v353_apply, val_main_cst_114_apply]
  rfl

/-- The frequency broadcast in front of the second sine is the constant 30 at every index. -/
theorem freq2_apply (i : S500000x128.Idx) : val_main_v361 (F := Ideal) i = Cert.SineNet.freq := by
  rw [val_main_v361_apply, val_main_cst_115_apply]
  rfl

/-! ### The layers at a point -/

/-- The channelwise product `(xy · xz) · xz` at point `p`, channel `i`. -/
theorem feat_apply (p : Fin 500000) (i : Fin 128) :
    val_main_v347 (F := Ideal) a0 a1 (ix2 p i) = Cert.SineNet.feat (fun k : Fin 128 => val_main_v173 (F := Ideal) a0 a1 (ix2 p k)) (fun k : Fin 128 => val_main_v345 (F := Ideal) a0 a1 (ix2 p k)) i := by
  rw [val_main_v347_apply, val_main_v346_apply]
  rfl

/-- The first matrix product at (p, j): the sum over the input channel of the product row times `W1 j`. -/
theorem dot1_apply (p : Fin 500000) (j : Fin 128) :
    val_main_v349 (F := Ideal) a0 a1 a4 (ix2 p j) = ∑ i : Fin 128, (Cert.SineNet.feat (fun k : Fin 128 => val_main_v173 (F := Ideal) a0 a1 (ix2 p k)) (fun k : Fin 128 => val_main_v345 (F := Ideal) a0 a1 (ix2 p k))) i * a4 (ix2 j i) := by
  rw [val_main_v349_apply]
  refine Finset.sum_congr rfl fun i _ => ?_
  have el : lidx_main_v349 (ix2 p j) i = ix2 p i :=
    funext fun a => Fin.ext (by match a with | ⟨0, _⟩ => rfl | ⟨1, _⟩ => rfl)
  have er : ridx_main_v349 (ix2 p j) i = ix2 i j :=
    funext fun a => Fin.ext (by match a with | ⟨0, _⟩ => rfl | ⟨1, _⟩ => rfl)
  rw [el, er, weight1_apply, feat_apply]

/-- The first sine layer at (p, j). -/
theorem hidden1_apply (p : Fin 500000) (j : Fin 128) :
    val_main_v355 (F := Ideal) a0 a1 a4 a5 (ix2 p j) = (Cert.SineNet.layer (Cert.SineNet.feat (fun k : Fin 128 => val_main_v173 (F := Ideal) a0 a1 (ix2 p k)) (fun k : Fin 128 => val_main_v345 (F := Ideal) a0 a1 (ix2 p k))) (fun j i : Fin 128 => a4 (ix2 j i)) (fun j : Fin 128 => a5 (ix1 j))) j := by
  rw [val_main_v355_apply, val_main_v354_apply, val_main_v352_apply, freq1_apply, dot1_apply, bias1_apply]
  rfl

/-- The second matrix product at (p, k). -/
theorem dot2_apply (p : Fin 500000) (k : Fin 128) :
    val_main_v357 (F := Ideal) a0 a1 a4 a5 a6 (ix2 p k) = ∑ j : Fin 128, (Cert.SineNet.layer (Cert.SineNet.feat (fun k : Fin 128 => val_main_v173 (F := Ideal) a0 a1 (ix2 p k)) (fun k : Fin 128 => val_main_v345 (F := Ideal) a0 a1 (ix2 p k))) (fun j i : Fin 128 => a4 (ix2 j i)) (fun j : Fin 128 => a5 (ix1 j))) j * a6 (ix2 k j) := by
  rw [val_main_v357_apply]
  refine Finset.sum_congr rfl fun j _ => ?_
  have el : lidx_main_v357 (ix2 p k) j = ix2 p j :=
    funext fun a => Fin.ext (by match a with | ⟨0, _⟩ => rfl | ⟨1, _⟩ => rfl)
  have er : ridx_main_v357 (ix2 p k) j = ix2 j k :=
    funext fun a => Fin.ext (by match a with | ⟨0, _⟩ => rfl | ⟨1, _⟩ => rfl)
  rw [el, er, weight2_apply, hidden1_apply]

/-- The second sine layer at (p, k). -/
theorem hidden2_apply (p : Fin 500000) (k : Fin 128) :
    val_main_v363 (F := Ideal) a0 a1 a4 a5 a6 a7 (ix2 p k) = (Cert.SineNet.layer (Cert.SineNet.layer (Cert.SineNet.feat (fun k : Fin 128 => val_main_v173 (F := Ideal) a0 a1 (ix2 p k)) (fun k : Fin 128 => val_main_v345 (F := Ideal) a0 a1 (ix2 p k))) (fun j i : Fin 128 => a4 (ix2 j i)) (fun j : Fin 128 => a5 (ix1 j))) (fun k j : Fin 128 => a6 (ix2 k j)) (fun k : Fin 128 => a7 (ix1 k))) k := by
  rw [val_main_v363_apply, val_main_v362_apply, val_main_v360_apply, freq2_apply, dot2_apply, bias2_apply]
  rfl

/-- The reference's result at point `p` is the sine network of the point's two sampled rows. -/
theorem result_apply (p : Fin 500000) :
    val_main_v369 (F := Ideal) a0 a1 a4 a5 a6 a7 a8 a9 (ix3 (0 : Fin 1) p (0 : Fin 1))
      = Cert.SineNet.net (fun k : Fin 128 => val_main_v173 (F := Ideal) a0 a1 (ix2 p k)) (fun k : Fin 128 => val_main_v345 (F := Ideal) a0 a1 (ix2 p k))
          (fun j i : Fin 128 => a4 (ix2 j i)) (fun j : Fin 128 => a5 (ix1 j)) (fun k j : Fin 128 => a6 (ix2 k j)) (fun k : Fin 128 => a7 (ix1 k))
          (fun k : Fin 128 => a8 (ix2 (0 : Fin 1) k)) (a9 (ix1 (0 : Fin 1))) := by
  have e369 : idx_main_v369 (ix3 (0 : Fin 1) p (0 : Fin 1)) = ix2 p (0 : Fin 1) :=
    funext fun a => Fin.ext (by
      match a with
      | ⟨0, _⟩ => show ((0 * 500000 + p.val) * 1 + 0) / 1 = p.val; omega
      | ⟨1, _⟩ => rfl)
  rw [val_main_v369_apply, e369, val_main_v368_apply, val_main_v365_apply, bias3_apply]
  refine congrArg (· + a9 (ix1 (0 : Fin 1))) (Finset.sum_congr rfl fun k _ => ?_)
  have el : lidx_main_v365 (ix2 p (0 : Fin 1)) k = ix2 p k :=
    funext fun a => Fin.ext (by match a with | ⟨0, _⟩ => rfl | ⟨1, _⟩ => rfl)
  have er : ridx_main_v365 (ix2 p (0 : Fin 1)) k = ix2 k (0 : Fin 1) :=
    funext fun a => Fin.ext (by match a with | ⟨0, _⟩ => rfl | ⟨1, _⟩ => rfl)
  rw [el, er, weight3_apply, hidden2_apply]

end Cert.ReferenceIdeal.NetValue

end
-- ==== Proof.GatherRead.lean ====
/-
  Three host operations read at an index, over the literal shapes of the two programs.

  * The kernel's row gather: a table of 65536 rows of 128 channels, one signed start index per point;
    result row `p` is the table's row at that index clamped into [0, 65535], channel by channel.
  * The reference's plane gather: a plane of 128 channels by 256 by 256, two signed start indices per point
    (row, column); result entry `(c, p)` is the plane at channel `c` and the two indices, each clamped
    into [0, 255].
  * The join of two one-column index arrays into a two-column one: column 0 is the first array, column 1
    the second.
  Each gather is first read for dimension numbers stated here as a closed record, where every membership
  question about its lists is decided; the programs' own records have the same fields, so they are the same
  records.
-/
import proofs.«168587_j4406636446006_2_alg».proof.KernelIdeal
import proofs.«168587_j4406636446006_2_alg».proof.ReferenceIdeal
import Idealize.ShloMosaic.Lib.ValueIdx
import Idealize.ShloMosaic.Lib.Pipeline.Value

noncomputable section

namespace Cert.GatherRead

open Idealize.ShloMosaic Idealize.ShloMosaic.ValueIdx

/-- Dimension numbers of the row gather: the start index names axis 0, which is collapsed; axis 1 is kept whole. -/
def rowsDims : GatherDims (⟨2, ![65536, 128]⟩ : Shape) (⟨2, ![500000, 1]⟩ : Shape) (⟨2, ![500000, 128]⟩ : Shape) where
  offsetDims := [1]
  collapsedSliceDims := [0]
  operandBatchingDims := []
  startIndicesBatchingDims := []
  startIndexMap := [0]
  indexVectorDim := 1
  sliceSizes := ![1, 128]

/-- Dimension numbers of the plane gather: the two start indices name axes 1 and 2, both collapsed; axis 0 is kept whole. -/
def planeDims : GatherDims (⟨3, ![128, 256, 256]⟩ : Shape) (⟨2, ![500000, 2]⟩ : Shape) (⟨2, ![128, 500000]⟩ : Shape) where
  offsetDims := [0]
  collapsedSliceDims := [1, 2]
  operandBatchingDims := []
  startIndicesBatchingDims := []
  startIndexMap := [1, 2]
  indexVectorDim := 1
  sliceSizes := ![128, 1, 1]

variable {α : Type}

theorem rowsDims_apply (x : (⟨2, ![65536, 128]⟩ : Shape).Idx → α) (idx : IVec (⟨2, ![500000, 1]⟩ : Shape) 32) (p : Fin 500000) (c : Fin 128) :
    Host.gather rowsDims x idx (ix2 p c)
      = x (ix2 (⟨min (idx (ix2 p (0 : Fin 1))).toInt.toNat 65535, by omega⟩ : Fin 65536) c) := by
  unfold Host.gather
  congr 1
  funext a
  refine Fin.ext ?_
  show rowsDims.start (ix2 p c) idx a + rowsDims.batchCoord (ix2 p c) a + rowsDims.offCoord (ix2 p c) a = _
  rw [rowsDims.batchCoord_eq_zero _ _ List.not_mem_nil]
  fin_cases a
  · have hk : (⟨0, by decide⟩ : Fin 2) ∉ rowsDims.sKept := by decide
    have hs : (⟨0, by decide⟩ : Fin 2) ∈ rowsDims.startIndexMap := by decide
    rw [rowsDims.offCoord_eq_zero _ _ hk]
    simp only [Nat.add_zero]
    unfold GatherDims.start
    rw [dif_pos hs]
    have hsi : rowsDims.siIdx (ix2 p c) ⟨List.idxOf (⟨0, by decide⟩ : Fin 2) rowsDims.startIndexMap,
        List.idxOf_lt_length_iff.2 hs⟩ = ix2 p (0 : Fin 1) := by
      funext b; refine Fin.ext ?_
      match b with
      | ⟨0, _⟩ => rfl
      | ⟨1, _⟩ => rfl
    rw [hsi]
    rfl
  · have hk : (⟨1, by decide⟩ : Fin 2) ∈ rowsDims.sKept := by decide
    have hs : (⟨1, by decide⟩ : Fin 2) ∉ rowsDims.startIndexMap := by decide
    unfold GatherDims.start
    rw [dif_neg hs]
    unfold GatherDims.offCoord
    rw [dif_pos hk]
    simp only [Nat.zero_add]
    rfl

theorem planeDims_apply (x : (⟨3, ![128, 256, 256]⟩ : Shape).Idx → α) (idx : IVec (⟨2, ![500000, 2]⟩ : Shape) 32) (c : Fin 128) (p : Fin 500000) :
    Host.gather planeDims x idx (ix2 c p)
      = x (ix3 c (⟨min (idx (ix2 p (0 : Fin 2))).toInt.toNat 255, by omega⟩ : Fin 256)
                 (⟨min (idx (ix2 p (1 : Fin 2))).toInt.toNat 255, by omega⟩ : Fin 256)) := by
  unfold Host.gather
  congr 1
  funext a
  refine Fin.ext ?_
  show planeDims.start (ix2 c p) idx a + planeDims.batchCoord (ix2 c p) a + planeDims.offCoord (ix2 c p) a = _
  rw [planeDims.batchCoord_eq_zero _ _ List.not_mem_nil]
  fin_cases a
  · have hk : (⟨0, by decide⟩ : Fin 3) ∈ planeDims.sKept := by decide
    have hs : (⟨0, by decide⟩ : Fin 3) ∉ planeDims.startIndexMap := by decide
    unfold GatherDims.start
    rw [dif_neg hs]
    unfold GatherDims.offCoord
    rw [dif_pos hk]
    simp only [Nat.zero_add]
    rfl
  · have hk : (⟨1, by decide⟩ : Fin 3) ∉ planeDims.sKept := by decide
    have hs : (⟨1, by decide⟩ : Fin 3) ∈ planeDims.startIndexMap := by decide
    rw [planeDims.offCoord_eq_zero _ _ hk]
    simp only [Nat.add_zero]
    unfold GatherDims.start
    rw [dif_pos hs]
    have hsi : planeDims.siIdx (ix2 c p) ⟨List.idxOf (⟨1, by decide⟩ : Fin 3) planeDims.startIndexMap,
        List.idxOf_lt_length_iff.2 hs⟩ = ix2 p (0 : Fin 2) := by
      funext b; refine Fin.ext ?_
      match b with
      | ⟨0, _⟩ => rfl
      | ⟨1, _⟩ => rfl
    rw [hsi]
    rfl
  · have hk : (⟨2, by decide⟩ : Fin 3) ∉ planeDims.sKept := by decide
    have hs : (⟨2, by decide⟩ : Fin 3) ∈ planeDims.startIndexMap := by decide
    rw [planeDims.offCoord_eq_zero _ _ hk]
    simp only [Nat.add_zero]
    unfold GatherDims.start
    rw [dif_pos hs]
    have hsi : planeDims.siIdx (ix2 c p) ⟨List.idxOf (⟨2, by decide⟩ : Fin 3) planeDims.startIndexMap,
        List.idxOf_lt_length_iff.2 hs⟩ = ix2 p (1 : Fin 2) := by
      funext b; refine Fin.ext ?_
      match b with
      | ⟨0, _⟩ => rfl
      | ⟨1, _⟩ => rfl
    rw [hsi]
    rfl

section Rows
open Cert.KernelIdeal Cert.KernelIdeal.Facts₀
variable [Cert.KernelIdeal.Facts₀]

/-- The kernel's row gather at `(p, c)`: row `clamp (idx p)` of the table, channel `c`. -/
theorem rows_apply (x : S65536x128.Idx → α) (idx : IVec S500000x1 32) (p : Fin 500000) (c : Fin 128) :
    Host.gather gather_S65536x128_S500000x1_S500000x128_1_0_n_n_0_1_1128 x idx (ix2 p c)
      = x (ix2 (⟨min (idx (ix2 p (0 : Fin 1))).toInt.toNat 65535, by omega⟩ : Fin 65536) c) :=
  rowsDims_apply x idx p c

end Rows

section Plane
open Cert.ReferenceIdeal Cert.ReferenceIdeal.Facts₀
variable [Cert.ReferenceIdeal.Facts₀]

/-- The reference's plane gather at `(c, p)`: channel `c` at row `clamp (idx p 0)`, column `clamp (idx p 1)`. -/
theorem plane_apply (x : S128x256x256.Idx → α) (idx : IVec S500000x2 32) (c : Fin 128) (p : Fin 500000) :
    Host.gather gather_S128x256x256_S500000x2_S128x500000_0_12_n_n_12_1_12811 x idx (ix2 c p)
      = x (ix3 c (⟨min (idx (ix2 p (0 : Fin 2))).toInt.toNat 255, by omega⟩ : Fin 256)
                 (⟨min (idx (ix2 p (1 : Fin 2))).toInt.toNat 255, by omega⟩ : Fin 256)) :=
  planeDims_apply x idx c p

/-- Column 0 of the joined index array is the first operand. -/
theorem join_col0 (a b : S500000x1.Idx → α) (p : Fin 500000) :
    concatenate S500000x2 1 [⟨S500000x1, a⟩, ⟨S500000x1, b⟩] concatenates_S500000x1_S500000x1_S500000x2_d1 (ix2 p (0 : Fin 2))
      = a (ix2 p (0 : Fin 1)) := by
  refine concatenate_pair_apply_left (1 : Fin 2) a b _ (ix2 p (0 : Fin 2)) rfl (ix2 p (0 : Fin 1)) ?_
  intro b'
  match b' with
  | ⟨0, _⟩ => rfl
  | ⟨1, _⟩ => rfl

/-- Column 1 of the joined index array is the second operand. -/
theorem join_col1 (a b : S500000x1.Idx → α) (p : Fin 500000) :
    concatenate S500000x2 1 [⟨S500000x1, a⟩, ⟨S500000x1, b⟩] concatenates_S500000x1_S500000x1_S500000x2_d1 (ix2 p (1 : Fin 2))
      = b (ix2 p (0 : Fin 1)) := by
  refine concatenate_pair_apply_right (1 : Fin 2) a b _ (ix2 p (1 : Fin 2)) rfl rfl (ix2 p (0 : Fin 1)) ?_ rfl
  intro b' hb
  match b', hb with
  | ⟨0, _⟩, _ => rfl
  | ⟨1, _⟩, hb => exact absurd rfl hb

end Plane

end Cert.GatherRead

end
-- ==== Proof.IndexRange.lean ====
/-
  Why every gathered index is in range, on the extended reals and on 32-bit words.

  A coordinate is clipped as `min 255 (max 0 x)`. Whatever extended real `x` is (an infinity included), the
  clipped value lies between 0 and 255, so it is a real number `r` with `0 ≤ r ≤ 255`; converting it to a signed
  32-bit integer rounds toward zero, which for `r ≥ 0` is the floor, a natural number `n ≤ 255`. The rest is
  word arithmetic on such small naturals: a word `k < 2^31` reads back as `k` when taken as a signed integer, is
  not negative, and a row index `256 · ny + nx` with `ny, nx ≤ 255` is at most 65535, with quotient `ny` and
  remainder `nx` by 256.
-/
import Idealize.ShloMosaic.PureOps.Ideal

noncomputable section

namespace Cert.IndexRange

open Idealize.ShloMosaic

/-- A clipped coordinate is a real number between 0 and 255. -/
theorem clip_real (x : EReal) :
    ∃ r : ℝ, 0 ≤ r ∧ r ≤ 255 ∧ min ((255 : ℝ) : EReal) (max ((0 : ℝ) : EReal) x) = (r : EReal) := by
  have h1 : min ((255 : ℝ) : EReal) (max ((0 : ℝ) : EReal) x) ≤ ((255 : ℝ) : EReal) := min_le_left _ _
  have h0 : ((0 : ℝ) : EReal) ≤ min ((255 : ℝ) : EReal) (max ((0 : ℝ) : EReal) x) :=
    le_min (by exact_mod_cast (by norm_num : (0 : ℝ) ≤ 255)) (le_max_left _ _)
  have hT : min ((255 : ℝ) : EReal) (max ((0 : ℝ) : EReal) x) ≠ ⊤ :=
    ne_top_of_le_ne_top (EReal.coe_ne_top _) h1
  have hB : min ((255 : ℝ) : EReal) (max ((0 : ℝ) : EReal) x) ≠ ⊥ :=
    ne_bot_of_le_ne_bot (EReal.coe_ne_bot _) h0
  refine ⟨(min ((255 : ℝ) : EReal) (max ((0 : ℝ) : EReal) x)).toReal, ?_, ?_, (EReal.coe_toReal hT hB).symm⟩
  · have := h0; rw [← EReal.coe_toReal hT hB] at this; exact_mod_cast this
  · have := h1; rw [← EReal.coe_toReal hT hB] at this; exact_mod_cast this

/-- Converting a real in [0, 255] to a signed 32-bit integer gives the word of a natural number at most 255. -/
theorem fptosi_real (r : ℝ) (h0 : 0 ≤ r) (h1 : r ≤ 255) :
    ∃ n : ℕ, n ≤ 255 ∧ Ideal.fptosi 32 (r : EReal) = BitVec.ofNat 32 n := by
  have hf0 : 0 ≤ ⌊r⌋ := Int.floor_nonneg.2 h0
  have hf1 : ⌊r⌋ ≤ 255 := by
    have : ((⌊r⌋ : ℤ) : ℝ) ≤ 255 := le_trans (Int.floor_le r) h1
    exact_mod_cast this
  refine ⟨⌊r⌋.toNat, by omega, ?_⟩
  show BitVec.ofInt 32 (Ideal.toIntClamped _ _ (r : EReal)) = _
  rw [Ideal.toIntClamped_coe, if_pos h0]
  have hc : max (-((2 ^ (32 - 1) : ℕ) : ℤ)) (min (((2 ^ (32 - 1) : ℕ) : ℤ) - 1) ⌊r⌋) = ((⌊r⌋.toNat : ℕ) : ℤ) := by
    have e : ((2 ^ (32 - 1) : ℕ) : ℤ) = 2147483648 := by norm_num
    rw [e]; omega
  rw [hc, BitVec.ofInt_natCast]

/-- The converted clipped coordinate is the word of a natural number at most 255. -/
theorem index_word (x : EReal) :
    ∃ n : ℕ, n ≤ 255 ∧ Ideal.fptosi 32 (min ((255 : ℝ) : EReal) (max ((0 : ℝ) : EReal) x)) = BitVec.ofNat 32 n := by
  obtain ⟨r, h0, h1, hr⟩ := clip_real x
  rw [hr]; exact fptosi_real r h0 h1

/-- A word below 2^31 read as a signed integer is itself. -/
theorem toInt_ofNat (k : ℕ) (hk : k < 2147483648) : (BitVec.ofNat 32 k).toInt = (k : ℤ) := by
  rw [BitVec.toInt_eq_toNat_cond, BitVec.toNat_ofNat]
  have : k % 2 ^ 32 = k := Nat.mod_eq_of_lt (by omega)
  rw [this]
  split <;> omega

theorem toNat_toInt_ofNat (k : ℕ) (hk : k < 2147483648) : (BitVec.ofNat 32 k).toInt.toNat = k := by
  rw [toInt_ofNat k hk]; simp

/-- A small word is not negative. -/
theorem not_slt_zero (k : ℕ) (hk : k < 2147483648) : IntOp.cmpi .slt (BitVec.ofNat 32 k) 0#32 = 0#1 := by
  have h : (BitVec.ofNat 32 k).slt 0#32 = false := by
    rw [BitVec.slt, toInt_ofNat k hk]; simp
  show BitVec.ofBool ((BitVec.ofNat 32 k).slt 0#32) = 0#1
  rw [h]; rfl

theorem sge_zero (k : ℕ) (hk : k < 2147483648) : IntOp.cmpi .sge (BitVec.ofNat 32 k) 0#32 = 1#1 := by
  have h : (0#32 : BitVec 32).sle (BitVec.ofNat 32 k) = true := by
    rw [BitVec.sle, toInt_ofNat k hk]; simp
  show BitVec.ofBool ((0#32 : BitVec 32).sle (BitVec.ofNat 32 k)) = 1#1
  rw [h]; rfl

theorem sle_bound (k : ℕ) (hk : k ≤ 65535) : IntOp.cmpi .sle (BitVec.ofNat 32 k) 65535#32 = 1#1 := by
  have h : (BitVec.ofNat 32 k).sle 65535#32 = true := by
    rw [BitVec.sle, toInt_ofNat k (by omega)]
    have : (65535#32 : BitVec 32).toInt = 65535 := by decide
    rw [this]; simp; omega
  show BitVec.ofBool ((BitVec.ofNat 32 k).sle 65535#32) = 1#1
  rw [h]; rfl

/-- The row index of a (row, column) pair of small words is the word of `256 · ny + nx`. -/
theorem flat_word (ny nx : ℕ) :
    IntOp.addi (IntOp.muli (BitVec.ofNat 32 ny) 256#32) (BitVec.ofNat 32 nx) = BitVec.ofNat 32 (ny * 256 + nx) := by
  show BitVec.ofNat 32 ny * 256#32 + BitVec.ofNat 32 nx = _
  rw [show (256#32 : BitVec 32) = BitVec.ofNat 32 256 from rfl, ← BitVec.ofNat_mul, ← BitVec.ofNat_add]

end Cert.IndexRange

end
-- ==== Proof.SampleRead.lean ====
/-
  The kernel's bilinear sample read at one point `p` and one channel `k`, on the extended reals.

  If a corner's two clipped, converted coordinates at `p` are the words of naturals `ny, nx ≤ 255`, then the row
  index is the word of `256·ny + nx ≤ 65535`: it is not negative, so it is not counted from the end; it is in
  range, so the bounds mask is 1 and the gathered row is kept; clamping it changes nothing. The corner's entry
  is therefore the table's row `256·ny + nx` at channel `k` times (weight · validity) at `p`, and the table's row
  `256·ny + nx` at channel `k` is the plane at channel `k`, row `ny`, column `nx`. The sample is the sum of the
  four corners in the program's order.
-/
import proofs.«168587_j4406636446006_2_alg».proof.Proof.KSample
import proofs.«168587_j4406636446006_2_alg».proof.Proof.GatherRead
import proofs.«168587_j4406636446006_2_alg».proof.Proof.IndexRange
import Idealize.ShloMosaic.Lib.Pipeline.Value
import Idealize.ShloMosaic.Lib.IdealHost
import Idealize.ShloMosaic.Lib.ValueIdx
import Idealize.ShloMosaic.Lib.ReduceAll

noncomputable section

namespace Cert.KernelIdeal.SampleRead

open Idealize.ShloMosaic Idealize.ShloMosaic.ValueIdx Cert.KernelIdeal Cert.KernelIdeal.Facts₀ Cert.KernelIdeal.Sample

variable [Cert.KernelIdeal.Facts₀]

/-- A left fold by `and` from 1 over words that are all 1 is 1. -/
theorem foldl_andi_all_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_all_one f l _ ?_ (fun n hn => hl n (List.mem_cons_of_mem _ hn))
    show IntOp.andi _ (f a) = 1#1
    rw [hl a List.mem_cons_self]
    try rw [h]
    rfl

/-- A per-point factor spread over the channels reads back the factor at the point. -/
theorem spread_apply (w : FVec Ideal S500000 .f32) (p : Fin 500000) (k : Fin 128) :
    spread w (ix2 p k) = w (ix1 p) := by
  unfold spread
  refine (broadcastInDim_apply (s := S500000x1) (t := S500000x128) ![0, 1] bcast_S500000x1_S500000x128_0_1 _ (ix2 p k)
    (ix2 p (0 : Fin 1)) ?_).trans ?_
  · intro a
    match a with
    | ⟨0, _⟩ => rfl
    | ⟨1, _⟩ => rfl
  refine broadcastInDim_apply (s := S500000) (t := S500000x1) ![0] bcast_S500000_S500000x1_0 _ (ix2 p (0 : Fin 1)) (ix1 p) ?_
  intro a
  match a with
  | ⟨0, _⟩ => rfl

/-- The start index at a point: the row index, counted from the end when negative. -/
theorem startIdx_apply (fl : IVec S500000 32) (p : Fin 500000) :
    startIdx fl (ix2 p (0 : Fin 1))
      = Scalar.select (IntOp.cmpi .slt (fl (ix1 p)) 0#32) (IntOp.addi (fl (ix1 p)) 65536#32) (fl (ix1 p)) := by
  unfold startIdx
  refine (broadcastInDim_apply (s := S500000) (t := S500000x1) ![0] bcast_S500000_S500000x1_0 _ (ix2 p (0 : Fin 1)) (ix1 p) ?_).trans ?_
  · intro a
    match a with
    | ⟨0, _⟩ => rfl
  rfl

/-- The start index of a small row index is that row index. -/
theorem startIdx_word (fl : IVec S500000 32) (p : Fin 500000) (f : ℕ) (hf : f ≤ 65535) (hfl : fl (ix1 p) = BitVec.ofNat 32 f) :
    startIdx fl (ix2 p (0 : Fin 1)) = BitVec.ofNat 32 f := by
  rw [startIdx_apply, hfl, Cert.IndexRange.not_slt_zero f (by omega)]
  exact Idealize.ShloMosaic.ValueIdx.select_zero _ _

/-- The bounds mask is 1 at a point whose start index is a small word. -/
theorem inRange_word (st : IVec S500000x1 32) (p : Fin 500000) (f : ℕ) (hf : f ≤ 65535)
    (hst : st (ix2 p (0 : Fin 1)) = BitVec.ofNat 32 f) : inRange st (ix1 p) = 1#1 := by
  unfold inRange
  rw [Host.reduce_eq_foldl]
  refine foldl_andi_all_one _ _ _ rfl ?_
  intro i hi
  have hd : reducesTo_S500000x1_S500000_d1.drop i = ix1 p := by
    have := (List.mem_filter.1 hi).2
    exact of_decide_eq_true this
  obtain ⟨a, b, rfl⟩ : ∃ (a : Fin 500000) (b : Fin 1), i = ix2 a b := ⟨i 0, i 1, eq_ix2 i⟩
  have ha : a = p := by
    have := congrArg (fun g : S500000.Idx => (g 0).val) hd
    exact Fin.ext this
  have hb : b = 0 := Subsingleton.elim _ _
  subst ha hb
  show IntOp.andi (IntOp.cmpi .sge (st (ix2 a 0)) _) (IntOp.cmpi .sle (st (ix2 a 0)) _) = 1#1
  rw [hst]
  have h1 : IntOp.cmpi .sge (BitVec.ofNat 32 f) 0#32 = 1#1 := Cert.IndexRange.sge_zero f (by omega)
  have h2 : IntOp.cmpi .sle (BitVec.ofNat 32 f) 65535#32 = 1#1 := Cert.IndexRange.sle_bound f hf
  exact (by rw [h1, h2]; rfl : IntOp.andi (IntOp.cmpi .sge (BitVec.ofNat 32 f) 0#32) (IntOp.cmpi .sle (BitVec.ofNat 32 f) 65535#32) = 1#1)

/-- The taken row at a point whose row index is a small word: the table's row. -/
theorem take_apply (tbl : FVec Ideal S65536x128 .f32) (fl : IVec S500000 32) (p : Fin 500000) (k : Fin 128) (f : ℕ)
    (hf : f ≤ 65535) (hfl : fl (ix1 p) = BitVec.ofNat 32 f) :
    take tbl fl (ix2 p k) = tbl (ix2 (⟨f, by omega⟩ : Fin 65536) k) := by
  have hst := startIdx_word fl p f hf hfl
  have hm : broadcastInDim S500000x128 ![0] bcast_S500000_S500000x128_0 (inRange (startIdx fl)) (ix2 p k) = 1#1 := by
    refine (broadcastInDim_apply (s := S500000) (t := S500000x128) ![0] bcast_S500000_S500000x128_0 _ (ix2 p k) (ix1 p) ?_).trans
      (inRange_word _ p f hf hst)
    intro a
    match a with
    | ⟨0, _⟩ => rfl
  unfold take
  show Scalar.select (broadcastInDim S500000x128 ![0] bcast_S500000_S500000x128_0 (inRange (startIdx fl)) (ix2 p k))
    (Host.gather gather_S65536x128_S500000x1_S500000x128_1_0_n_n_0_1_1128 tbl (startIdx fl) (ix2 p k)) _ = _
  rw [hm, Idealize.ShloMosaic.ValueIdx.select_one, Cert.GatherRead.rows_apply]
  have hi : (⟨min (startIdx fl (ix2 p (0 : Fin 1))).toInt.toNat 65535, by omega⟩ : Fin 65536) = ⟨f, by omega⟩ := by
    refine Fin.ext ?_
    show min (startIdx fl (ix2 p (0 : Fin 1))).toInt.toNat 65535 = f
    rw [hst, Cert.IndexRange.toNat_toInt_ofNat f (by omega)]
    omega
  rw [hi]

/-- The row index of a corner whose clipped coordinates are small words. -/
theorem flat_apply (xc yc : FVec Ideal S500000 .f32) (p : Fin 500000) (ny nx : ℕ)
    (hy : clipI yc (ix1 p) = BitVec.ofNat 32 ny) (hx : clipI xc (ix1 p) = BitVec.ofNat 32 nx) :
    flat xc yc (ix1 p) = BitVec.ofNat 32 (ny * 256 + nx) := by
  unfold flat
  show IntOp.addi (IntOp.muli (clipI yc (ix1 p)) 256#32) (clipI xc (ix1 p)) = _
  rw [hy, hx]
  exact Cert.IndexRange.flat_word ny nx

/-- The table's row `256·y + x` at channel `k` is the plane at channel `k`, row `y`, column `x`. -/
theorem table_apply (a1 : FVec Ideal S1x128x256x256 .f32) (k : Fin 128) (y x : Fin 256) :
    table a1 (ix2 (⟨y.val * 256 + x.val, by omega⟩ : Fin 65536) k) = a1 (ix4 (0 : Fin 1) k y x) := by
  unfold table
  refine (shapeCast_apply _ _ (ix2 (⟨y.val * 256 + x.val, by omega⟩ : Fin 65536) k) (ix3 y x k) ?_).trans ?_
  · rw [Shape.rowMajor_val_three, Shape.rowMajor_val_two]; rfl
  refine (transpose_apply _ _ _ (ix3 y x k) (ix3 k y x) ?_).trans ?_
  · intro b
    match b with
    | ⟨0, _⟩ => rfl
    | ⟨1, _⟩ => rfl
    | ⟨2, _⟩ => rfl
  refine shapeCast_apply _ _ (ix3 k y x) (ix4 (0 : Fin 1) k y x) ?_
  rw [Shape.rowMajor_val_four, Shape.rowMajor_val_three]
  simp

/-- One corner at a point and a channel. -/
theorem corner_apply (a1 : FVec Ideal S1x128x256x256 .f32) (xc yc w : FVec Ideal S500000 .f32) (p : Fin 500000) (k : Fin 128)
    (ny nx : ℕ) (hny : ny ≤ 255) (hnx : nx ≤ 255)
    (hy : clipI yc (ix1 p) = BitVec.ofNat 32 ny) (hx : clipI xc (ix1 p) = BitVec.ofNat 32 nx) :
    corner (table a1) xc yc w (ix2 p k)
      = a1 (ix4 (0 : Fin 1) k (⟨ny, by omega⟩ : Fin 256) (⟨nx, by omega⟩ : Fin 256)) * (w (ix1 p) * valid xc yc (ix1 p)) := by
  unfold corner
  show take (table a1) (flat xc yc) (ix2 p k) * spread (mulf w (valid xc yc)) (ix2 p k) = _
  rw [take_apply (table a1) (flat xc yc) p k (ny * 256 + nx) (by omega) (flat_apply xc yc p ny nx hy hx), spread_apply]
  rw [show (⟨ny * 256 + nx, by omega⟩ : Fin 65536) = ⟨(⟨ny, by omega⟩ : Fin 256).val * 256 + (⟨nx, by omega⟩ : Fin 256).val, by omega⟩ from rfl,
    table_apply]
  rfl

end Cert.KernelIdeal.SampleRead

end
-- ==== Proof.RefCorners.lean ====
/-
  The two sampled rows of the reference program, read down to the four gathered corners.

  The row sampled at a point's (x, y) is computed channel-major, as a [128,500000] array: four gathers pick, for
  every point, the plane's 128 channel values at the four grid corners around the point; each gathered array is
  multiplied by a per-point weight (an interpolation weight times a validity factor: one number per point,
  broadcast over the channels); the four products are added left to right; and the sum is transposed to
  [500000,128]. So at point p, channel k, the row is
  `((G₁ k p · w₁ p + G₂ k p · w₂ p) + G₃ k p · w₃ p) + G₄ k p · w₄ p`.
  The row sampled at (x, z) is the same sum over its own four gathers and weights. The gathers and the weights
  stay opaque here: they are stages of the generated reading, named by their operation numbers.
-/
import proofs.«168587_j4406636446006_2_alg».proof.Proof.ReferenceIdealReadP

noncomputable section

namespace Cert.ReferenceIdeal.Corners

open Cert.ReferenceIdeal Cert.ReferenceIdeal.Gen Cert.ReferenceIdeal.ReadP Idealize.ShloMosaic Idealize.ShloMosaic.ValueIdx

variable (a0 : (⟨S1x500000x3, .f32⟩ : BufTy).Contents (Elt Ideal)) (a1 : (⟨S1x128x256x256, .f32⟩ : BufTy).Contents (Elt Ideal))

/-! ### The row sampled at (x, y) -/

/-- The per-point weight %61, broadcast over the 128 channels, at (k, p) is its entry p. -/
theorem weight61_apply (k : Fin 128) (p : Fin 500000) :
    val_main_v63 (F := Ideal) a0 (ix2 k p) = val_main_v61 (F := Ideal) a0 (ix1 p) := by
  rw [val_main_v63_apply, val_main_v62_apply]
  exact congrArg (val_main_v61 (F := Ideal) a0) (funext fun a => Fin.ext (by match a with | ⟨0, _⟩ => rfl))

/-- The per-point weight %96, broadcast over the 128 channels, at (k, p) is its entry p. -/
theorem weight96_apply (k : Fin 128) (p : Fin 500000) :
    val_main_v98 (F := Ideal) a0 (ix2 k p) = val_main_v96 (F := Ideal) a0 (ix1 p) := by
  rw [val_main_v98_apply, val_main_v97_apply]
  exact congrArg (val_main_v96 (F := Ideal) a0) (funext fun a => Fin.ext (by match a with | ⟨0, _⟩ => rfl))

/-- The per-point weight %132, broadcast over the 128 channels, at (k, p) is its entry p. -/
theorem weight132_apply (k : Fin 128) (p : Fin 500000) :
    val_main_v134 (F := Ideal) a0 (ix2 k p) = val_main_v132 (F := Ideal) a0 (ix1 p) := by
  rw [val_main_v134_apply, val_main_v133_apply]
  exact congrArg (val_main_v132 (F := Ideal) a0) (funext fun a => Fin.ext (by match a with | ⟨0, _⟩ => rfl))

/-- The per-point weight %168, broadcast over the 128 channels, at (k, p) is its entry p. -/
theorem weight168_apply (k : Fin 128) (p : Fin 500000) :
    val_main_v170 (F := Ideal) a0 (ix2 k p) = val_main_v168 (F := Ideal) a0 (ix1 p) := by
  rw [val_main_v170_apply, val_main_v169_apply]
  exact congrArg (val_main_v168 (F := Ideal) a0) (funext fun a => Fin.ext (by match a with | ⟨0, _⟩ => rfl))

/-- The row sampled at the point's (x, y): at point `p`, channel `k`, the four gathered corner values of channel `k` at `p`, each times its per-point weight, added in the program's order. -/
theorem xy_apply (p : Fin 500000) (k : Fin 128) :
    val_main_v173 (F := Ideal) a0 a1 (ix2 p k)
      = ((val_main_v60 (F := Ideal) a0 a1 (ix2 k p) * val_main_v61 (F := Ideal) a0 (ix1 p)
          + val_main_v95 (F := Ideal) a0 a1 (ix2 k p) * val_main_v96 (F := Ideal) a0 (ix1 p))
          + val_main_v131 (F := Ideal) a0 a1 (ix2 k p) * val_main_v132 (F := Ideal) a0 (ix1 p))
          + val_main_v167 (F := Ideal) a0 a1 (ix2 k p) * val_main_v168 (F := Ideal) a0 (ix1 p) := by
  have eT : idx_main_v173 (ix2 p k) = ix2 k p :=
    funext fun a => Fin.ext (by match a with | ⟨0, _⟩ => rfl | ⟨1, _⟩ => rfl)
  rw [val_main_v173_apply, eT, val_main_v172_apply, val_main_v136_apply, val_main_v100_apply,
    val_main_v64_apply, val_main_v99_apply, val_main_v135_apply, val_main_v171_apply,
    weight61_apply, weight96_apply, weight132_apply, weight168_apply]
  rfl

/-! ### The row sampled at (x, z) -/

/-- The per-point weight %233, broadcast over the 128 channels, at (k, p) is its entry p. -/
theorem weight233_apply (k : Fin 128) (p : Fin 500000) :
    val_main_v235 (F := Ideal) a0 (ix2 k p) = val_main_v233 (F := Ideal) a0 (ix1 p) := by
  rw [val_main_v235_apply, val_main_v234_apply]
  exact congrArg (val_main_v233 (F := Ideal) a0) (funext fun a => Fin.ext (by match a with | ⟨0, _⟩ => rfl))

/-- The per-point weight %268, broadcast over the 128 channels, at (k, p) is its entry p. -/
theorem weight268_apply (k : Fin 128) (p : Fin 500000) :
    val_main_v270 (F := Ideal) a0 (ix2 k p) = val_main_v268 (F := Ideal) a0 (ix1 p) := by
  rw [val_main_v270_apply, val_main_v269_apply]
  exact congrArg (val_main_v268 (F := Ideal) a0) (funext fun a => Fin.ext (by match a with | ⟨0, _⟩ => rfl))

/-- The per-point weight %304, broadcast over the 128 channels, at (k, p) is its entry p. -/
theorem weight304_apply (k : Fin 128) (p : Fin 500000) :
    val_main_v306 (F := Ideal) a0 (ix2 k p) = val_main_v304 (F := Ideal) a0 (ix1 p) := by
  rw [val_main_v306_apply, val_main_v305_apply]
  exact congrArg (val_main_v304 (F := Ideal) a0) (funext fun a => Fin.ext (by match a with | ⟨0, _⟩ => rfl))

/-- The per-point weight %340, broadcast over the 128 channels, at (k, p) is its entry p. -/
theorem weight340_apply (k : Fin 128) (p : Fin 500000) :
    val_main_v342 (F := Ideal) a0 (ix2 k p) = val_main_v340 (F := Ideal) a0 (ix1 p) := by
  rw [val_main_v342_apply, val_main_v341_apply]
  exact congrArg (val_main_v340 (F := Ideal) a0) (funext fun a => Fin.ext (by match a with | ⟨0, _⟩ => rfl))

/-- The row sampled at the point's (x, z): the same sum over its own four corners. -/
theorem xz_apply (p : Fin 500000) (k : Fin 128) :
    val_main_v345 (F := Ideal) a0 a1 (ix2 p k)
      = ((val_main_v232 (F := Ideal) a0 a1 (ix2 k p) * val_main_v233 (F := Ideal) a0 (ix1 p)
          + val_main_v267 (F := Ideal) a0 a1 (ix2 k p) * val_main_v268 (F := Ideal) a0 (ix1 p))
          + val_main_v303 (F := Ideal) a0 a1 (ix2 k p) * val_main_v304 (F := Ideal) a0 (ix1 p))
          + val_main_v339 (F := Ideal) a0 a1 (ix2 k p) * val_main_v340 (F := Ideal) a0 (ix1 p) := by
  have eT : idx_main_v345 (ix2 p k) = ix2 k p :=
    funext fun a => Fin.ext (by match a with | ⟨0, _⟩ => rfl | ⟨1, _⟩ => rfl)
  rw [val_main_v345_apply, eT, val_main_v344_apply, val_main_v308_apply, val_main_v272_apply,
    val_main_v236_apply, val_main_v271_apply, val_main_v307_apply, val_main_v343_apply,
    weight233_apply, weight268_apply, weight304_apply, weight340_apply]
  rfl

end Cert.ReferenceIdeal.Corners

end
-- ==== Proof.RefIndex.lean ====
/-
  The index columns of the reference program's eight gathers, read at a point.

  Each gather takes a [500000,2] integer array: per point, a row index and a column index into a 256 × 256
  plane. Each of the two columns is built the same way from one sample coordinate: the coordinate's floor (or
  the floor plus one) is clipped to [0, 255] and converted to a 32-bit integer n; the program then selects
  `n + 256` where `n < 0` (signed) and `n` elsewhere, and broadcasts the result to a [500000,1] column. Read
  at the index (p, 0), a column is therefore `select (n p <ₛ 0) (n p + 256) (n p)` of its converted clipped
  coordinate `n` at point p. The row index comes from the second sample coordinate (y for the first four
  gathers, z for the last four), the column index from the first (x); which of the floor or the floor plus one
  each takes is written on each lemma. The converted clipped coordinates stay opaque here.
-/
import proofs.«168587_j4406636446006_2_alg».proof.Proof.ReferenceIdealReadP

noncomputable section

namespace Cert.ReferenceIdeal.GatherIndex

open Cert.ReferenceIdeal Cert.ReferenceIdeal.Gen Cert.ReferenceIdeal.ReadP Idealize.ShloMosaic Idealize.ShloMosaic.ValueIdx

variable (a0 : (⟨S1x500000x3, .f32⟩ : BufTy).Contents (Elt Ideal))

/-! ### Gather %60 (index array %59) -/

/-- Gather %60's row index at point p (column 0 of %59): the clipped, converted ⌊iy⌋ (%46), with 256 added where it is negative. -/
theorem row60_apply (p : Fin 500000) :
    val_main_v57 (F := Ideal) a0 (ix2 p (0 : Fin 1))
      = Scalar.select (IntOp.cmpi .slt (val_main_v46 (F := Ideal) a0 (ix1 p)) 0#32)
          (IntOp.addi (val_main_v46 (F := Ideal) a0 (ix1 p)) 256#32) (val_main_v46 (F := Ideal) a0 (ix1 p)) := by
  have e : idx_main_v57 (ix2 p (0 : Fin 1)) = ix1 p :=
    funext fun a => Fin.ext (by match a with | ⟨0, _⟩ => rfl)
  rw [val_main_v57_apply, e, val_main_v51_apply, val_main_v48_apply, val_main_v50_apply,
    val_main_v47_apply, val_main_c_16_apply, val_main_v49_apply, val_main_c_17_apply]

/-- Gather %60's column index at point p (column 1 of %59): the clipped, converted ⌊ix⌋ (%44), with 256 added where it is negative. -/
theorem col60_apply (p : Fin 500000) :
    val_main_v58 (F := Ideal) a0 (ix2 p (0 : Fin 1))
      = Scalar.select (IntOp.cmpi .slt (val_main_v44 (F := Ideal) a0 (ix1 p)) 0#32)
          (IntOp.addi (val_main_v44 (F := Ideal) a0 (ix1 p)) 256#32) (val_main_v44 (F := Ideal) a0 (ix1 p)) := by
  have e : idx_main_v58 (ix2 p (0 : Fin 1)) = ix1 p :=
    funext fun a => Fin.ext (by match a with | ⟨0, _⟩ => rfl)
  rw [val_main_v58_apply, e, val_main_v56_apply, val_main_v53_apply, val_main_v55_apply,
    val_main_v52_apply, val_main_c_18_apply, val_main_v54_apply, val_main_c_19_apply]

/-! ### Gather %95 (index array %94) -/

/-- Gather %95's row index at point p (column 0 of %94): the clipped, converted ⌊iy⌋ (%81), with 256 added where it is negative. -/
theorem row95_apply (p : Fin 500000) :
    val_main_v92 (F := Ideal) a0 (ix2 p (0 : Fin 1))
      = Scalar.select (IntOp.cmpi .slt (val_main_v81 (F := Ideal) a0 (ix1 p)) 0#32)
          (IntOp.addi (val_main_v81 (F := Ideal) a0 (ix1 p)) 256#32) (val_main_v81 (F := Ideal) a0 (ix1 p)) := by
  have e : idx_main_v92 (ix2 p (0 : Fin 1)) = ix1 p :=
    funext fun a => Fin.ext (by match a with | ⟨0, _⟩ => rfl)
  rw [val_main_v92_apply, e, val_main_v86_apply, val_main_v83_apply, val_main_v85_apply,
    val_main_v82_apply, val_main_c_28_apply, val_main_v84_apply, val_main_c_29_apply]

/-- Gather %95's column index at point p (column 1 of %94): the clipped, converted ⌊ix⌋ + 1 (%79), with 256 added where it is negative. -/
theorem col95_apply (p : Fin 500000) :
    val_main_v93 (F := Ideal) a0 (ix2 p (0 : Fin 1))
      = Scalar.select (IntOp.cmpi .slt (val_main_v79 (F := Ideal) a0 (ix1 p)) 0#32)
          (IntOp.addi (val_main_v79 (F := Ideal) a0 (ix1 p)) 256#32) (val_main_v79 (F := Ideal) a0 (ix1 p)) := by
  have e : idx_main_v93 (ix2 p (0 : Fin 1)) = ix1 p :=
    funext fun a => Fin.ext (by match a with | ⟨0, _⟩ => rfl)
  rw [val_main_v93_apply, e, val_main_v91_apply, val_main_v88_apply, val_main_v90_apply,
    val_main_v87_apply, val_main_c_30_apply, val_main_v89_apply, val_main_c_31_apply]

/-! ### Gather %131 (index array %130) -/

/-- Gather %131's row index at point p (column 0 of %130): the clipped, converted ⌊iy⌋ + 1 (%117), with 256 added where it is negative. -/
theorem row131_apply (p : Fin 500000) :
    val_main_v128 (F := Ideal) a0 (ix2 p (0 : Fin 1))
      = Scalar.select (IntOp.cmpi .slt (val_main_v117 (F := Ideal) a0 (ix1 p)) 0#32)
          (IntOp.addi (val_main_v117 (F := Ideal) a0 (ix1 p)) 256#32) (val_main_v117 (F := Ideal) a0 (ix1 p)) := by
  have e : idx_main_v128 (ix2 p (0 : Fin 1)) = ix1 p :=
    funext fun a => Fin.ext (by match a with | ⟨0, _⟩ => rfl)
  rw [val_main_v128_apply, e, val_main_v122_apply, val_main_v119_apply, val_main_v121_apply,
    val_main_v118_apply, val_main_c_40_apply, val_main_v120_apply, val_main_c_41_apply]

/-- Gather %131's column index at point p (column 1 of %130): the clipped, converted ⌊ix⌋ (%115), with 256 added where it is negative. -/
theorem col131_apply (p : Fin 500000) :
    val_main_v129 (F := Ideal) a0 (ix2 p (0 : Fin 1))
      = Scalar.select (IntOp.cmpi .slt (val_main_v115 (F := Ideal) a0 (ix1 p)) 0#32)
          (IntOp.addi (val_main_v115 (F := Ideal) a0 (ix1 p)) 256#32) (val_main_v115 (F := Ideal) a0 (ix1 p)) := by
  have e : idx_main_v129 (ix2 p (0 : Fin 1)) = ix1 p :=
    funext fun a => Fin.ext (by match a with | ⟨0, _⟩ => rfl)
  rw [val_main_v129_apply, e, val_main_v127_apply, val_main_v124_apply, val_main_v126_apply,
    val_main_v123_apply, val_main_c_42_apply, val_main_v125_apply, val_main_c_43_apply]

/-! ### Gather %167 (index array %166) -/

/-- Gather %167's row index at point p (column 0 of %166): the clipped, converted ⌊iy⌋ + 1 (%153), with 256 added where it is negative. -/
theorem row167_apply (p : Fin 500000) :
    val_main_v164 (F := Ideal) a0 (ix2 p (0 : Fin 1))
      = Scalar.select (IntOp.cmpi .slt (val_main_v153 (F := Ideal) a0 (ix1 p)) 0#32)
          (IntOp.addi (val_main_v153 (F := Ideal) a0 (ix1 p)) 256#32) (val_main_v153 (F := Ideal) a0 (ix1 p)) := by
  have e : idx_main_v164 (ix2 p (0 : Fin 1)) = ix1 p :=
    funext fun a => Fin.ext (by match a with | ⟨0, _⟩ => rfl)
  rw [val_main_v164_apply, e, val_main_v158_apply, val_main_v155_apply, val_main_v157_apply,
    val_main_v154_apply, val_main_c_52_apply, val_main_v156_apply, val_main_c_53_apply]

/-- Gather %167's column index at point p (column 1 of %166): the clipped, converted ⌊ix⌋ + 1 (%151), with 256 added where it is negative. -/
theorem col167_apply (p : Fin 500000) :
    val_main_v165 (F := Ideal) a0 (ix2 p (0 : Fin 1))
      = Scalar.select (IntOp.cmpi .slt (val_main_v151 (F := Ideal) a0 (ix1 p)) 0#32)
          (IntOp.addi (val_main_v151 (F := Ideal) a0 (ix1 p)) 256#32) (val_main_v151 (F := Ideal) a0 (ix1 p)) := by
  have e : idx_main_v165 (ix2 p (0 : Fin 1)) = ix1 p :=
    funext fun a => Fin.ext (by match a with | ⟨0, _⟩ => rfl)
  rw [val_main_v165_apply, e, val_main_v163_apply, val_main_v160_apply, val_main_v162_apply,
    val_main_v159_apply, val_main_c_54_apply, val_main_v161_apply, val_main_c_55_apply]

/-! ### Gather %232 (index array %231) -/

/-- Gather %232's row index at point p (column 0 of %231): the clipped, converted ⌊iz⌋ (%218), with 256 added where it is negative. -/
theorem row232_apply (p : Fin 500000) :
    val_main_v229 (F := Ideal) a0 (ix2 p (0 : Fin 1))
      = Scalar.select (IntOp.cmpi .slt (val_main_v218 (F := Ideal) a0 (ix1 p)) 0#32)
          (IntOp.addi (val_main_v218 (F := Ideal) a0 (ix1 p)) 256#32) (val_main_v218 (F := Ideal) a0 (ix1 p)) := by
  have e : idx_main_v229 (ix2 p (0 : Fin 1)) = ix1 p :=
    funext fun a => Fin.ext (by match a with | ⟨0, _⟩ => rfl)
  rw [val_main_v229_apply, e, val_main_v223_apply, val_main_v220_apply, val_main_v222_apply,
    val_main_v219_apply, val_main_c_74_apply, val_main_v221_apply, val_main_c_75_apply]

/-- Gather %232's column index at point p (column 1 of %231): the clipped, converted ⌊ix⌋ (%216), with 256 added where it is negative. -/
theorem col232_apply (p : Fin 500000) :
    val_main_v230 (F := Ideal) a0 (ix2 p (0 : Fin 1))
      = Scalar.select (IntOp.cmpi .slt (val_main_v216 (F := Ideal) a0 (ix1 p)) 0#32)
          (IntOp.addi (val_main_v216 (F := Ideal) a0 (ix1 p)) 256#32) (val_main_v216 (F := Ideal) a0 (ix1 p)) := by
  have e : idx_main_v230 (ix2 p (0 : Fin 1)) = ix1 p :=
    funext fun a => Fin.ext (by match a with | ⟨0, _⟩ => rfl)
  rw [val_main_v230_apply, e, val_main_v228_apply, val_main_v225_apply, val_main_v227_apply,
    val_main_v224_apply, val_main_c_76_apply, val_main_v226_apply, val_main_c_77_apply]

/-! ### Gather %267 (index array %266) -/

/-- Gather %267's row index at point p (column 0 of %266): the clipped, converted ⌊iz⌋ (%253), with 256 added where it is negative. -/
theorem row267_apply (p : Fin 500000) :
    val_main_v264 (F := Ideal) a0 (ix2 p (0 : Fin 1))
      = Scalar.select (IntOp.cmpi .slt (val_main_v253 (F := Ideal) a0 (ix1 p)) 0#32)
          (IntOp.addi (val_main_v253 (F := Ideal) a0 (ix1 p)) 256#32) (val_main_v253 (F := Ideal) a0 (ix1 p)) := by
  have e : idx_main_v264 (ix2 p (0 : Fin 1)) = ix1 p :=
    funext fun a => Fin.ext (by match a with | ⟨0, _⟩ => rfl)
  rw [val_main_v264_apply, e, val_main_v258_apply, val_main_v255_apply, val_main_v257_apply,
    val_main_v254_apply, val_main_c_86_apply, val_main_v256_apply, val_main_c_87_apply]

/-- Gather %267's column index at point p (column 1 of %266): the clipped, converted ⌊ix⌋ + 1 (%251), with 256 added where it is negative. -/
theorem col267_apply (p : Fin 500000) :
    val_main_v265 (F := Ideal) a0 (ix2 p (0 : Fin 1))
      = Scalar.select (IntOp.cmpi .slt (val_main_v251 (F := Ideal) a0 (ix1 p)) 0#32)
          (IntOp.addi (val_main_v251 (F := Ideal) a0 (ix1 p)) 256#32) (val_main_v251 (F := Ideal) a0 (ix1 p)) := by
  have e : idx_main_v265 (ix2 p (0 : Fin 1)) = ix1 p :=
    funext fun a => Fin.ext (by match a with | ⟨0, _⟩ => rfl)
  rw [val_main_v265_apply, e, val_main_v263_apply, val_main_v260_apply, val_main_v262_apply,
    val_main_v259_apply, val_main_c_88_apply, val_main_v261_apply, val_main_c_89_apply]

/-! ### Gather %303 (index array %302) -/

/-- Gather %303's row index at point p (column 0 of %302): the clipped, converted ⌊iz⌋ + 1 (%289), with 256 added where it is negative. -/
theorem row303_apply (p : Fin 500000) :
    val_main_v300 (F := Ideal) a0 (ix2 p (0 : Fin 1))
      = Scalar.select (IntOp.cmpi .slt (val_main_v289 (F := Ideal) a0 (ix1 p)) 0#32)
          (IntOp.addi (val_main_v289 (F := Ideal) a0 (ix1 p)) 256#32) (val_main_v289 (F := Ideal) a0 (ix1 p)) := by
  have e : idx_main_v300 (ix2 p (0 : Fin 1)) = ix1 p :=
    funext fun a => Fin.ext (by match a with | ⟨0, _⟩ => rfl)
  rw [val_main_v300_apply, e, val_main_v294_apply, val_main_v291_apply, val_main_v293_apply,
    val_main_v290_apply, val_main_c_98_apply, val_main_v292_apply, val_main_c_99_apply]

/-- Gather %303's column index at point p (column 1 of %302): the clipped, converted ⌊ix⌋ (%287), with 256 added where it is negative. -/
theorem col303_apply (p : Fin 500000) :
    val_main_v301 (F := Ideal) a0 (ix2 p (0 : Fin 1))
      = Scalar.select (IntOp.cmpi .slt (val_main_v287 (F := Ideal) a0 (ix1 p)) 0#32)
          (IntOp.addi (val_main_v287 (F := Ideal) a0 (ix1 p)) 256#32) (val_main_v287 (F := Ideal) a0 (ix1 p)) := by
  have e : idx_main_v301 (ix2 p (0 : Fin 1)) = ix1 p :=
    funext fun a => Fin.ext (by match a with | ⟨0, _⟩ => rfl)
  rw [val_main_v301_apply, e, val_main_v299_apply, val_main_v296_apply, val_main_v298_apply,
    val_main_v295_apply, val_main_c_100_apply, val_main_v297_apply, val_main_c_101_apply]

/-! ### Gather %339 (index array %338) -/

/-- Gather %339's row index at point p (column 0 of %338): the clipped, converted ⌊iz⌋ + 1 (%325), with 256 added where it is negative. -/
theorem row339_apply (p : Fin 500000) :
    val_main_v336 (F := Ideal) a0 (ix2 p (0 : Fin 1))
      = Scalar.select (IntOp.cmpi .slt (val_main_v325 (F := Ideal) a0 (ix1 p)) 0#32)
          (IntOp.addi (val_main_v325 (F := Ideal) a0 (ix1 p)) 256#32) (val_main_v325 (F := Ideal) a0 (ix1 p)) := by
  have e : idx_main_v336 (ix2 p (0 : Fin 1)) = ix1 p :=
    funext fun a => Fin.ext (by match a with | ⟨0, _⟩ => rfl)
  rw [val_main_v336_apply, e, val_main_v330_apply, val_main_v327_apply, val_main_v329_apply,
    val_main_v326_apply, val_main_c_110_apply, val_main_v328_apply, val_main_c_111_apply]

/-- Gather %339's column index at point p (column 1 of %338): the clipped, converted ⌊ix⌋ + 1 (%323), with 256 added where it is negative. -/
theorem col339_apply (p : Fin 500000) :
    val_main_v337 (F := Ideal) a0 (ix2 p (0 : Fin 1))
      = Scalar.select (IntOp.cmpi .slt (val_main_v323 (F := Ideal) a0 (ix1 p)) 0#32)
          (IntOp.addi (val_main_v323 (F := Ideal) a0 (ix1 p)) 256#32) (val_main_v323 (F := Ideal) a0 (ix1 p)) := by
  have e : idx_main_v337 (ix2 p (0 : Fin 1)) = ix1 p :=
    funext fun a => Fin.ext (by match a with | ⟨0, _⟩ => rfl)
  rw [val_main_v337_apply, e, val_main_v335_apply, val_main_v332_apply, val_main_v334_apply,
    val_main_v331_apply, val_main_c_112_apply, val_main_v333_apply, val_main_c_113_apply]

end Cert.ReferenceIdeal.GatherIndex

end
-- ==== Proof.RefGather.lean ====
/-
  The reference program's eight gathers, read at a point whose indices are known words.

  Each gather picks, for point p and channel k, the plane argument at channel k and at a (row, column) pair
  read from its index array; an index outside [0, 255] would be clamped. The indices are never outside: each is
  a sample coordinate's floor (or floor plus one) clipped between the converted integers 0 and 255 and then
  converted to a signed 32-bit integer, so whatever the coordinate is (an infinity included) the index is the
  word of a natural number n ≤ 255. For such a word the program's wrap of negative indices (add 256 where the
  word is negative) does nothing, reading the word back as a signed integer gives n, and the clamp to 255 gives
  n again. The plane argument carries a leading unit axis that the program drops first; at (k, y, x) the dropped
  array is the argument at (0, k, y, x) because the row-major position is the same. So a gather at (k, p) is the
  plane argument at (0, k, ny, nx), where ny and nx are the naturals whose words the gather's two converted
  clipped coordinates are at p.
-/
import proofs.«168587_j4406636446006_2_alg».proof.Proof.ReferenceIdealReadP
import proofs.«168587_j4406636446006_2_alg».proof.Proof.RefIndex
import proofs.«168587_j4406636446006_2_alg».proof.Proof.GatherRead
import proofs.«168587_j4406636446006_2_alg».proof.Proof.IndexRange

noncomputable section

namespace Cert.ReferenceIdeal.GatherValue

open Cert.ReferenceIdeal Cert.ReferenceIdeal.Gen Cert.ReferenceIdeal.ReadP Idealize.ShloMosaic Idealize.ShloMosaic.ValueIdx

/-! ### The converted clipped coordinates are small words -/

/-- Whatever the extended real `t`, clipping it between the converted integers 0 and 255 and converting to a
    signed 32-bit integer gives the word of a natural number at most 255. -/
theorem clip_word (t : EReal) :
    ∃ n : ℕ, n ≤ 255 ∧
      FloatOps.fptosi (F := Ideal) (φ := .f32) 32
        (FloatOps.minimumf (FloatOps.sitofp (F := Ideal) .f32 (255#32 : BitVec 32))
          (FloatOps.maximumf (FloatOps.sitofp (F := Ideal) .f32 (0#32 : BitVec 32)) t)) = BitVec.ofNat 32 n := by
  have h255 : FloatOps.sitofp (F := Ideal) .f32 (255#32 : BitVec 32) = ((255 : ℝ) : EReal) := by
    show (((255#32 : BitVec 32).toInt : ℝ) : EReal) = _
    have : (255#32 : BitVec 32).toInt = 255 := by decide
    rw [this]; norm_num
  have h0 : FloatOps.sitofp (F := Ideal) .f32 (0#32 : BitVec 32) = ((0 : ℝ) : EReal) := by
    show (((0#32 : BitVec 32).toInt : ℝ) : EReal) = _
    have : (0#32 : BitVec 32).toInt = 0 := by decide
    rw [this]; norm_num
  rw [h255, h0]
  exact Cert.IndexRange.index_word t

variable (a0 : (⟨S1x500000x3, .f32⟩ : BufTy).Contents (Elt Ideal)) (a1 : (⟨S1x128x256x256, .f32⟩ : BufTy).Contents (Elt Ideal))

/-- The converted clipped ⌊iy⌋ (%46) at point p is the word of a natural number at most 255. -/
theorem word_v46 (p : Fin 500000) :
    ∃ n : ℕ, n ≤ 255 ∧ val_main_v46 (F := Ideal) a0 (ix1 p) = BitVec.ofNat 32 n := by
  rw [val_main_v46_apply, val_main_v45_apply, val_main_call1_v4_apply, val_main_call1_v3_apply, val_main_c_15_apply,
    val_main_call1_v2_apply, val_main_call1_v1_apply, val_main_call1_v0_apply, val_main_c_14_apply]
  exact clip_word _

/-- The converted clipped ⌊ix⌋ (%44) at point p is the word of a natural number at most 255. -/
theorem word_v44 (p : Fin 500000) :
    ∃ n : ℕ, n ≤ 255 ∧ val_main_v44 (F := Ideal) a0 (ix1 p) = BitVec.ofNat 32 n := by
  rw [val_main_v44_apply, val_main_v43_apply, val_main_call0_v4_apply, val_main_call0_v3_apply, val_main_c_13_apply,
    val_main_call0_v2_apply, val_main_call0_v1_apply, val_main_call0_v0_apply, val_main_c_apply]
  exact clip_word _

/-- The converted clipped ⌊iy⌋ (%81) at point p is the word of a natural number at most 255. -/
theorem word_v81 (p : Fin 500000) :
    ∃ n : ℕ, n ≤ 255 ∧ val_main_v81 (F := Ideal) a0 (ix1 p) = BitVec.ofNat 32 n := by
  rw [val_main_v81_apply, val_main_v80_apply, val_main_call3_v4_apply, val_main_call3_v3_apply, val_main_c_27_apply,
    val_main_call3_v2_apply, val_main_call3_v1_apply, val_main_call3_v0_apply, val_main_c_26_apply]
  exact clip_word _

/-- The converted clipped ⌊ix⌋ + 1 (%79) at point p is the word of a natural number at most 255. -/
theorem word_v79 (p : Fin 500000) :
    ∃ n : ℕ, n ≤ 255 ∧ val_main_v79 (F := Ideal) a0 (ix1 p) = BitVec.ofNat 32 n := by
  rw [val_main_v79_apply, val_main_v78_apply, val_main_call2_v4_apply, val_main_call2_v3_apply, val_main_c_25_apply,
    val_main_call2_v2_apply, val_main_call2_v1_apply, val_main_call2_v0_apply, val_main_c_24_apply]
  exact clip_word _

/-- The converted clipped ⌊iy⌋ + 1 (%117) at point p is the word of a natural number at most 255. -/
theorem word_v117 (p : Fin 500000) :
    ∃ n : ℕ, n ≤ 255 ∧ val_main_v117 (F := Ideal) a0 (ix1 p) = BitVec.ofNat 32 n := by
  rw [val_main_v117_apply, val_main_v116_apply, val_main_call5_v4_apply, val_main_call5_v3_apply, val_main_c_39_apply,
    val_main_call5_v2_apply, val_main_call5_v1_apply, val_main_call5_v0_apply, val_main_c_38_apply]
  exact clip_word _

/-- The converted clipped ⌊ix⌋ (%115) at point p is the word of a natural number at most 255. -/
theorem word_v115 (p : Fin 500000) :
    ∃ n : ℕ, n ≤ 255 ∧ val_main_v115 (F := Ideal) a0 (ix1 p) = BitVec.ofNat 32 n := by
  rw [val_main_v115_apply, val_main_v114_apply, val_main_call4_v4_apply, val_main_call4_v3_apply, val_main_c_37_apply,
    val_main_call4_v2_apply, val_main_call4_v1_apply, val_main_call4_v0_apply, val_main_c_36_apply]
  exact clip_word _

/-- The converted clipped ⌊iy⌋ + 1 (%153) at point p is the word of a natural number at most 255. -/
theorem word_v153 (p : Fin 500000) :
    ∃ n : ℕ, n ≤ 255 ∧ val_main_v153 (F := Ideal) a0 (ix1 p) = BitVec.ofNat 32 n := by
  rw [val_main_v153_apply, val_main_v152_apply, val_main_call7_v4_apply, val_main_call7_v3_apply, val_main_c_51_apply,
    val_main_call7_v2_apply, val_main_call7_v1_apply, val_main_call7_v0_apply, val_main_c_50_apply]
  exact clip_word _

/-- The converted clipped ⌊ix⌋ + 1 (%151) at point p is the word of a natural number at most 255. -/
theorem word_v151 (p : Fin 500000) :
    ∃ n : ℕ, n ≤ 255 ∧ val_main_v151 (F := Ideal) a0 (ix1 p) = BitVec.ofNat 32 n := by
  rw [val_main_v151_apply, val_main_v150_apply, val_main_call6_v4_apply, val_main_call6_v3_apply, val_main_c_49_apply,
    val_main_call6_v2_apply, val_main_call6_v1_apply, val_main_call6_v0_apply, val_main_c_48_apply]
  exact clip_word _

/-- The converted clipped ⌊iz⌋ (%218) at point p is the word of a natural number at most 255. -/
theorem word_v218 (p : Fin 500000) :
    ∃ n : ℕ, n ≤ 255 ∧ val_main_v218 (F := Ideal) a0 (ix1 p) = BitVec.ofNat 32 n := by
  rw [val_main_v218_apply, val_main_v217_apply, val_main_call9_v4_apply, val_main_call9_v3_apply, val_main_c_73_apply,
    val_main_call9_v2_apply, val_main_call9_v1_apply, val_main_call9_v0_apply, val_main_c_72_apply]
  exact clip_word _

/-- The converted clipped ⌊ix⌋ (%216) at point p is the word of a natural number at most 255. -/
theorem word_v216 (p : Fin 500000) :
    ∃ n : ℕ, n ≤ 255 ∧ val_main_v216 (F := Ideal) a0 (ix1 p) = BitVec.ofNat 32 n := by
  rw [val_main_v216_apply, val_main_v215_apply, val_main_call8_v4_apply, val_main_call8_v3_apply, val_main_c_71_apply,
    val_main_call8_v2_apply, val_main_call8_v1_apply, val_main_call8_v0_apply, val_main_c_70_apply]
  exact clip_word _

/-- The converted clipped ⌊iz⌋ (%253) at point p is the word of a natural number at most 255. -/
theorem word_v253 (p : Fin 500000) :
    ∃ n : ℕ, n ≤ 255 ∧ val_main_v253 (F := Ideal) a0 (ix1 p) = BitVec.ofNat 32 n := by
  rw [val_main_v253_apply, val_main_v252_apply, val_main_call11_v4_apply, val_main_call11_v3_apply, val_main_c_85_apply,
    val_main_call11_v2_apply, val_main_call11_v1_apply, val_main_call11_v0_apply, val_main_c_84_apply]
  exact clip_word _

/-- The converted clipped ⌊ix⌋ + 1 (%251) at point p is the word of a natural number at most 255. -/
theorem word_v251 (p : Fin 500000) :
    ∃ n : ℕ, n ≤ 255 ∧ val_main_v251 (F := Ideal) a0 (ix1 p) = BitVec.ofNat 32 n := by
  rw [val_main_v251_apply, val_main_v250_apply, val_main_call10_v4_apply, val_main_call10_v3_apply, val_main_c_83_apply,
    val_main_call10_v2_apply, val_main_call10_v1_apply, val_main_call10_v0_apply, val_main_c_82_apply]
  exact clip_word _

/-- The converted clipped ⌊iz⌋ + 1 (%289) at point p is the word of a natural number at most 255. -/
theorem word_v289 (p : Fin 500000) :
    ∃ n : ℕ, n ≤ 255 ∧ val_main_v289 (F := Ideal) a0 (ix1 p) = BitVec.ofNat 32 n := by
  rw [val_main_v289_apply, val_main_v288_apply, val_main_call13_v4_apply, val_main_call13_v3_apply, val_main_c_97_apply,
    val_main_call13_v2_apply, val_main_call13_v1_apply, val_main_call13_v0_apply, val_main_c_96_apply]
  exact clip_word _

/-- The converted clipped ⌊ix⌋ (%287) at point p is the word of a natural number at most 255. -/
theorem word_v287 (p : Fin 500000) :
    ∃ n : ℕ, n ≤ 255 ∧ val_main_v287 (F := Ideal) a0 (ix1 p) = BitVec.ofNat 32 n := by
  rw [val_main_v287_apply, val_main_v286_apply, val_main_call12_v4_apply, val_main_call12_v3_apply, val_main_c_95_apply,
    val_main_call12_v2_apply, val_main_call12_v1_apply, val_main_call12_v0_apply, val_main_c_94_apply]
  exact clip_word _

/-- The converted clipped ⌊iz⌋ + 1 (%325) at point p is the word of a natural number at most 255. -/
theorem word_v325 (p : Fin 500000) :
    ∃ n : ℕ, n ≤ 255 ∧ val_main_v325 (F := Ideal) a0 (ix1 p) = BitVec.ofNat 32 n := by
  rw [val_main_v325_apply, val_main_v324_apply, val_main_call15_v4_apply, val_main_call15_v3_apply, val_main_c_109_apply,
    val_main_call15_v2_apply, val_main_call15_v1_apply, val_main_call15_v0_apply, val_main_c_108_apply]
  exact clip_word _

/-- The converted clipped ⌊ix⌋ + 1 (%323) at point p is the word of a natural number at most 255. -/
theorem word_v323 (p : Fin 500000) :
    ∃ n : ℕ, n ≤ 255 ∧ val_main_v323 (F := Ideal) a0 (ix1 p) = BitVec.ofNat 32 n := by
  rw [val_main_v323_apply, val_main_v322_apply, val_main_call14_v4_apply, val_main_call14_v3_apply, val_main_c_107_apply,
    val_main_call14_v2_apply, val_main_call14_v1_apply, val_main_call14_v0_apply, val_main_c_106_apply]
  exact clip_word _

/-! ### A gather at a point whose two indices are small words -/

/-- The plane argument with its leading unit axis dropped, at (k, y, x), is the argument at (0, k, y, x). -/
theorem plane_apply (k : Fin 128) (y x : Fin 256) :
    val_main_v1 (F := Ideal) a1 (ix3 k y x) = a1 (ix4 (0 : Fin 1) k y x) := by
  rw [val_main_v1_apply]
  refine congrArg a1 (funext fun a => Fin.ext ?_)
  have hk := k.isLt; have hy := y.isLt; have hx := x.isLt
  match a with
  | ⟨0, _⟩ => rfl
  | ⟨1, _⟩ => show ((k.val * 256 + y.val) * 256 + x.val) / 65536 % 128 = k.val; omega
  | ⟨2, _⟩ => show ((k.val * 256 + y.val) * 256 + x.val) / 256 % 256 = y.val; omega
  | ⟨3, _⟩ => show ((k.val * 256 + y.val) * 256 + x.val) % 256 = x.val; omega

/-- A start index that is the word of `n ≤ 255` is clamped to `n` itself. -/
theorem clamp_word (w : BitVec 32) (n : ℕ) (hn : n ≤ 255) (hw : w = BitVec.ofNat 32 n) :
    min w.toInt.toNat 255 = n := by
  rw [hw, Cert.IndexRange.toNat_toInt_ofNat n (by omega)]
  exact Nat.min_eq_left hn

/-- A negative-index wrap leaves the word of a small natural number alone. -/
theorem wrap_word (w : BitVec 32) (n : ℕ) (hn : n ≤ 255) (hw : w = BitVec.ofNat 32 n) :
    Scalar.select (IntOp.cmpi .slt w 0#32) (IntOp.addi w 256#32) w = BitVec.ofNat 32 n := by
  rw [hw, Cert.IndexRange.not_slt_zero n (by omega)]
  exact select_zero _ _

/-- The plane gather over a joined index array whose row and column entries at point p are the words of
    `ny, nx ≤ 255`: at (k, p) it is the plane argument at (0, k, ny, nx). -/
theorem gather_words (r c : S500000x1.Idx → BitVec 32) (p : Fin 500000) (k : Fin 128) (ny nx : ℕ)
    (hny : ny ≤ 255) (hnx : nx ≤ 255)
    (hr : r (ix2 p (0 : Fin 1)) = BitVec.ofNat 32 ny) (hc : c (ix2 p (0 : Fin 1)) = BitVec.ofNat 32 nx) :
    Host.gather gather_S128x256x256_S500000x2_S128x500000_0_12_n_n_12_1_12811 (val_main_v1 (F := Ideal) a1)
        (concatenate S500000x2 1 [⟨S500000x1, r⟩, ⟨S500000x1, c⟩] concatenates_S500000x1_S500000x1_S500000x2_d1) (ix2 k p)
      = a1 (ix4 (0 : Fin 1) k (⟨ny, by omega⟩ : Fin 256) (⟨nx, by omega⟩ : Fin 256)) := by
  have ey := clamp_word _ ny hny ((Cert.GatherRead.join_col0 r c p).trans hr)
  have ex := clamp_word _ nx hnx ((Cert.GatherRead.join_col1 r c p).trans hc)
  rw [Cert.GatherRead.plane_apply, plane_apply]
  simp only [ey, ex]

/-- Gather %60 at (k, p), given the words of its two converted clipped coordinates at p. -/
theorem gather60_apply (p : Fin 500000) (k : Fin 128) (ny nx : ℕ) (hny : ny ≤ 255) (hnx : nx ≤ 255)
    (hy : val_main_v46 (F := Ideal) a0 (ix1 p) = BitVec.ofNat 32 ny)
    (hx : val_main_v44 (F := Ideal) a0 (ix1 p) = BitVec.ofNat 32 nx) :
    val_main_v60 (F := Ideal) a0 a1 (ix2 k p)
      = a1 (ix4 (0 : Fin 1) k (⟨ny, by omega⟩ : Fin 256) (⟨nx, by omega⟩ : Fin 256)) :=
  gather_words a1 (val_main_v57 (F := Ideal) a0) (val_main_v58 (F := Ideal) a0) p k ny nx hny hnx
    ((Cert.ReferenceIdeal.GatherIndex.row60_apply a0 p).trans (wrap_word _ ny hny hy))
    ((Cert.ReferenceIdeal.GatherIndex.col60_apply a0 p).trans (wrap_word _ nx hnx hx))

/-- Gather %95 at (k, p), given the words of its two converted clipped coordinates at p. -/
theorem gather95_apply (p : Fin 500000) (k : Fin 128) (ny nx : ℕ) (hny : ny ≤ 255) (hnx : nx ≤ 255)
    (hy : val_main_v81 (F := Ideal) a0 (ix1 p) = BitVec.ofNat 32 ny)
    (hx : val_main_v79 (F := Ideal) a0 (ix1 p) = BitVec.ofNat 32 nx) :
    val_main_v95 (F := Ideal) a0 a1 (ix2 k p)
      = a1 (ix4 (0 : Fin 1) k (⟨ny, by omega⟩ : Fin 256) (⟨nx, by omega⟩ : Fin 256)) :=
  gather_words a1 (val_main_v92 (F := Ideal) a0) (val_main_v93 (F := Ideal) a0) p k ny nx hny hnx
    ((Cert.ReferenceIdeal.GatherIndex.row95_apply a0 p).trans (wrap_word _ ny hny hy))
    ((Cert.ReferenceIdeal.GatherIndex.col95_apply a0 p).trans (wrap_word _ nx hnx hx))

/-- Gather %131 at (k, p), given the words of its two converted clipped coordinates at p. -/
theorem gather131_apply (p : Fin 500000) (k : Fin 128) (ny nx : ℕ) (hny : ny ≤ 255) (hnx : nx ≤ 255)
    (hy : val_main_v117 (F := Ideal) a0 (ix1 p) = BitVec.ofNat 32 ny)
    (hx : val_main_v115 (F := Ideal) a0 (ix1 p) = BitVec.ofNat 32 nx) :
    val_main_v131 (F := Ideal) a0 a1 (ix2 k p)
      = a1 (ix4 (0 : Fin 1) k (⟨ny, by omega⟩ : Fin 256) (⟨nx, by omega⟩ : Fin 256)) :=
  gather_words a1 (val_main_v128 (F := Ideal) a0) (val_main_v129 (F := Ideal) a0) p k ny nx hny hnx
    ((Cert.ReferenceIdeal.GatherIndex.row131_apply a0 p).trans (wrap_word _ ny hny hy))
    ((Cert.ReferenceIdeal.GatherIndex.col131_apply a0 p).trans (wrap_word _ nx hnx hx))

/-- Gather %167 at (k, p), given the words of its two converted clipped coordinates at p. -/
theorem gather167_apply (p : Fin 500000) (k : Fin 128) (ny nx : ℕ) (hny : ny ≤ 255) (hnx : nx ≤ 255)
    (hy : val_main_v153 (F := Ideal) a0 (ix1 p) = BitVec.ofNat 32 ny)
    (hx : val_main_v151 (F := Ideal) a0 (ix1 p) = BitVec.ofNat 32 nx) :
    val_main_v167 (F := Ideal) a0 a1 (ix2 k p)
      = a1 (ix4 (0 : Fin 1) k (⟨ny, by omega⟩ : Fin 256) (⟨nx, by omega⟩ : Fin 256)) :=
  gather_words a1 (val_main_v164 (F := Ideal) a0) (val_main_v165 (F := Ideal) a0) p k ny nx hny hnx
    ((Cert.ReferenceIdeal.GatherIndex.row167_apply a0 p).trans (wrap_word _ ny hny hy))
    ((Cert.ReferenceIdeal.GatherIndex.col167_apply a0 p).trans (wrap_word _ nx hnx hx))

/-- Gather %232 at (k, p), given the words of its two converted clipped coordinates at p. -/
theorem gather232_apply (p : Fin 500000) (k : Fin 128) (ny nx : ℕ) (hny : ny ≤ 255) (hnx : nx ≤ 255)
    (hy : val_main_v218 (F := Ideal) a0 (ix1 p) = BitVec.ofNat 32 ny)
    (hx : val_main_v216 (F := Ideal) a0 (ix1 p) = BitVec.ofNat 32 nx) :
    val_main_v232 (F := Ideal) a0 a1 (ix2 k p)
      = a1 (ix4 (0 : Fin 1) k (⟨ny, by omega⟩ : Fin 256) (⟨nx, by omega⟩ : Fin 256)) :=
  gather_words a1 (val_main_v229 (F := Ideal) a0) (val_main_v230 (F := Ideal) a0) p k ny nx hny hnx
    ((Cert.ReferenceIdeal.GatherIndex.row232_apply a0 p).trans (wrap_word _ ny hny hy))
    ((Cert.ReferenceIdeal.GatherIndex.col232_apply a0 p).trans (wrap_word _ nx hnx hx))

/-- Gather %267 at (k, p), given the words of its two converted clipped coordinates at p. -/
theorem gather267_apply (p : Fin 500000) (k : Fin 128) (ny nx : ℕ) (hny : ny ≤ 255) (hnx : nx ≤ 255)
    (hy : val_main_v253 (F := Ideal) a0 (ix1 p) = BitVec.ofNat 32 ny)
    (hx : val_main_v251 (F := Ideal) a0 (ix1 p) = BitVec.ofNat 32 nx) :
    val_main_v267 (F := Ideal) a0 a1 (ix2 k p)
      = a1 (ix4 (0 : Fin 1) k (⟨ny, by omega⟩ : Fin 256) (⟨nx, by omega⟩ : Fin 256)) :=
  gather_words a1 (val_main_v264 (F := Ideal) a0) (val_main_v265 (F := Ideal) a0) p k ny nx hny hnx
    ((Cert.ReferenceIdeal.GatherIndex.row267_apply a0 p).trans (wrap_word _ ny hny hy))
    ((Cert.ReferenceIdeal.GatherIndex.col267_apply a0 p).trans (wrap_word _ nx hnx hx))

/-- Gather %303 at (k, p), given the words of its two converted clipped coordinates at p. -/
theorem gather303_apply (p : Fin 500000) (k : Fin 128) (ny nx : ℕ) (hny : ny ≤ 255) (hnx : nx ≤ 255)
    (hy : val_main_v289 (F := Ideal) a0 (ix1 p) = BitVec.ofNat 32 ny)
    (hx : val_main_v287 (F := Ideal) a0 (ix1 p) = BitVec.ofNat 32 nx) :
    val_main_v303 (F := Ideal) a0 a1 (ix2 k p)
      = a1 (ix4 (0 : Fin 1) k (⟨ny, by omega⟩ : Fin 256) (⟨nx, by omega⟩ : Fin 256)) :=
  gather_words a1 (val_main_v300 (F := Ideal) a0) (val_main_v301 (F := Ideal) a0) p k ny nx hny hnx
    ((Cert.ReferenceIdeal.GatherIndex.row303_apply a0 p).trans (wrap_word _ ny hny hy))
    ((Cert.ReferenceIdeal.GatherIndex.col303_apply a0 p).trans (wrap_word _ nx hnx hx))

/-- Gather %339 at (k, p), given the words of its two converted clipped coordinates at p. -/
theorem gather339_apply (p : Fin 500000) (k : Fin 128) (ny nx : ℕ) (hny : ny ≤ 255) (hnx : nx ≤ 255)
    (hy : val_main_v325 (F := Ideal) a0 (ix1 p) = BitVec.ofNat 32 ny)
    (hx : val_main_v323 (F := Ideal) a0 (ix1 p) = BitVec.ofNat 32 nx) :
    val_main_v339 (F := Ideal) a0 a1 (ix2 k p)
      = a1 (ix4 (0 : Fin 1) k (⟨ny, by omega⟩ : Fin 256) (⟨nx, by omega⟩ : Fin 256)) :=
  gather_words a1 (val_main_v336 (F := Ideal) a0) (val_main_v337 (F := Ideal) a0) p k ny nx hny hnx
    ((Cert.ReferenceIdeal.GatherIndex.row339_apply a0 p).trans (wrap_word _ ny hny hy))
    ((Cert.ReferenceIdeal.GatherIndex.col339_apply a0 p).trans (wrap_word _ nx hnx hx))

end Cert.ReferenceIdeal.GatherValue

end
-- ==== Proof.Bridge.lean ====
/-
  The two programs sample the same numbers.

  Both programs derive, from the same coordinate columns by the same operations in the same order, the
  clipped integer corner coordinates and the per-point factors (weight · validity); so the reference's
  stages for them ARE the kernel-side functions of Proof/KSample.lean of those columns, by unfolding. Given
  that, at a point `p` and a channel `k` each corner contributes, on both sides, the plane's entry at channel
  `k`, row `ny`, column `nx` (the two small naturals the corner's coordinates convert to) times the same
  factor, and the four corners are added in the same order: the kernel's sample (rows gathered from the
  table by 256 · ny + nx) and the reference's (entries gathered from the plane by (ny, nx), then transposed)
  agree entry by entry — for the (x, y) sample and for the (x, z) sample alike.
-/
import proofs.«168587_j4406636446006_2_alg».proof.Proof.Gen.KernelIdeal
import proofs.«168587_j4406636446006_2_alg».proof.Proof.SampleRead
import proofs.«168587_j4406636446006_2_alg».proof.Proof.RefCorners
import proofs.«168587_j4406636446006_2_alg».proof.Proof.RefGather

noncomputable section

namespace Cert.Bridge

open Idealize.ShloMosaic Idealize.ShloMosaic.ValueIdx Cert.KernelIdeal Cert.KernelIdeal.Sample Cert.ReferenceIdeal.ReadP

/-! ## The reference's index and factor stages are the kernel-side functions of the same columns -/

theorem v44_eq (a0 : FVec Ideal S1x500000x3 .f32) : val_main_v44 (F := Ideal) a0 = clipI (flo (col0 a0)) := rfl
theorem v46_eq (a0 : FVec Ideal S1x500000x3 .f32) : val_main_v46 (F := Ideal) a0 = clipI (flo (col1 a0)) := rfl
theorem v79_eq (a0 : FVec Ideal S1x500000x3 .f32) : val_main_v79 (F := Ideal) a0 = clipI (flo1 (col0 a0)) := rfl
theorem v81_eq (a0 : FVec Ideal S1x500000x3 .f32) : val_main_v81 (F := Ideal) a0 = clipI (flo (col1 a0)) := rfl
theorem v115_eq (a0 : FVec Ideal S1x500000x3 .f32) : val_main_v115 (F := Ideal) a0 = clipI (flo (col0 a0)) := rfl
theorem v117_eq (a0 : FVec Ideal S1x500000x3 .f32) : val_main_v117 (F := Ideal) a0 = clipI (flo1 (col1 a0)) := rfl
theorem v151_eq (a0 : FVec Ideal S1x500000x3 .f32) : val_main_v151 (F := Ideal) a0 = clipI (flo1 (col0 a0)) := rfl
theorem v153_eq (a0 : FVec Ideal S1x500000x3 .f32) : val_main_v153 (F := Ideal) a0 = clipI (flo1 (col1 a0)) := rfl
theorem v216_eq (a0 : FVec Ideal S1x500000x3 .f32) : val_main_v216 (F := Ideal) a0 = clipI (flo (col0 a0)) := rfl
theorem v218_eq (a0 : FVec Ideal S1x500000x3 .f32) : val_main_v218 (F := Ideal) a0 = clipI (flo (col2 a0)) := rfl
theorem v251_eq (a0 : FVec Ideal S1x500000x3 .f32) : val_main_v251 (F := Ideal) a0 = clipI (flo1 (col0 a0)) := rfl
theorem v253_eq (a0 : FVec Ideal S1x500000x3 .f32) : val_main_v253 (F := Ideal) a0 = clipI (flo (col2 a0)) := rfl
theorem v287_eq (a0 : FVec Ideal S1x500000x3 .f32) : val_main_v287 (F := Ideal) a0 = clipI (flo (col0 a0)) := rfl
theorem v289_eq (a0 : FVec Ideal S1x500000x3 .f32) : val_main_v289 (F := Ideal) a0 = clipI (flo1 (col2 a0)) := rfl
theorem v323_eq (a0 : FVec Ideal S1x500000x3 .f32) : val_main_v323 (F := Ideal) a0 = clipI (flo1 (col0 a0)) := rfl
theorem v325_eq (a0 : FVec Ideal S1x500000x3 .f32) : val_main_v325 (F := Ideal) a0 = clipI (flo1 (col2 a0)) := rfl

theorem v61_eq (a0 : FVec Ideal S1x500000x3 .f32) : val_main_v61 (F := Ideal) a0 = mulf (mulf (fr0 (col0 a0)) (fr0 (col1 a0))) (valid (flo (col0 a0)) (flo (col1 a0))) := rfl
theorem v96_eq (a0 : FVec Ideal S1x500000x3 .f32) : val_main_v96 (F := Ideal) a0 = mulf (mulf (fr1 (col0 a0)) (fr0 (col1 a0))) (valid (flo1 (col0 a0)) (flo (col1 a0))) := rfl
theorem v132_eq (a0 : FVec Ideal S1x500000x3 .f32) : val_main_v132 (F := Ideal) a0 = mulf (mulf (fr0 (col0 a0)) (fr1 (col1 a0))) (valid (flo (col0 a0)) (flo1 (col1 a0))) := rfl
theorem v168_eq (a0 : FVec Ideal S1x500000x3 .f32) : val_main_v168 (F := Ideal) a0 = mulf (mulf (fr1 (col0 a0)) (fr1 (col1 a0))) (valid (flo1 (col0 a0)) (flo1 (col1 a0))) := rfl
theorem v233_eq (a0 : FVec Ideal S1x500000x3 .f32) : val_main_v233 (F := Ideal) a0 = mulf (mulf (fr0 (col0 a0)) (fr0 (col2 a0))) (valid (flo (col0 a0)) (flo (col2 a0))) := rfl
theorem v268_eq (a0 : FVec Ideal S1x500000x3 .f32) : val_main_v268 (F := Ideal) a0 = mulf (mulf (fr1 (col0 a0)) (fr0 (col2 a0))) (valid (flo1 (col0 a0)) (flo (col2 a0))) := rfl
theorem v304_eq (a0 : FVec Ideal S1x500000x3 .f32) : val_main_v304 (F := Ideal) a0 = mulf (mulf (fr0 (col0 a0)) (fr1 (col2 a0))) (valid (flo (col0 a0)) (flo1 (col2 a0))) := rfl
theorem v340_eq (a0 : FVec Ideal S1x500000x3 .f32) : val_main_v340 (F := Ideal) a0 = mulf (mulf (fr1 (col0 a0)) (fr1 (col2 a0))) (valid (flo1 (col0 a0)) (flo1 (col2 a0))) := rfl

/-! ## The samples agree -/

/-- The kernel's sample and the reference's agree at every point and channel (sample_xy). -/
theorem sample_xy (a0 : FVec Ideal S1x500000x3 .f32) (a1 : FVec Ideal S1x128x256x256 .f32) (p : Fin 500000) (k : Fin 128) :
    sample (table a1) (col0 a0) (col1 a0) (ix2 p k) = val_main_v173 (F := Ideal) a0 a1 (ix2 p k) := by
  rw [Cert.ReferenceIdeal.Corners.xy_apply a0 a1 p k]
  obtain ⟨ny0, hny0, hy0⟩ := Cert.ReferenceIdeal.GatherValue.word_v46 a0 p
  obtain ⟨nx0, hnx0, hx0⟩ := Cert.ReferenceIdeal.GatherValue.word_v44 a0 p
  rw [Cert.ReferenceIdeal.GatherValue.gather60_apply a0 a1 p k ny0 nx0 hny0 hnx0 hy0 hx0]
  obtain ⟨ny1, hny1, hy1⟩ := Cert.ReferenceIdeal.GatherValue.word_v81 a0 p
  obtain ⟨nx1, hnx1, hx1⟩ := Cert.ReferenceIdeal.GatherValue.word_v79 a0 p
  rw [Cert.ReferenceIdeal.GatherValue.gather95_apply a0 a1 p k ny1 nx1 hny1 hnx1 hy1 hx1]
  obtain ⟨ny2, hny2, hy2⟩ := Cert.ReferenceIdeal.GatherValue.word_v117 a0 p
  obtain ⟨nx2, hnx2, hx2⟩ := Cert.ReferenceIdeal.GatherValue.word_v115 a0 p
  rw [Cert.ReferenceIdeal.GatherValue.gather131_apply a0 a1 p k ny2 nx2 hny2 hnx2 hy2 hx2]
  obtain ⟨ny3, hny3, hy3⟩ := Cert.ReferenceIdeal.GatherValue.word_v153 a0 p
  obtain ⟨nx3, hnx3, hx3⟩ := Cert.ReferenceIdeal.GatherValue.word_v151 a0 p
  rw [Cert.ReferenceIdeal.GatherValue.gather167_apply a0 a1 p k ny3 nx3 hny3 hnx3 hy3 hx3]
  rw [v46_eq] at hy0
  rw [v44_eq] at hx0
  rw [v81_eq] at hy1
  rw [v79_eq] at hx1
  rw [v117_eq] at hy2
  rw [v115_eq] at hx2
  rw [v153_eq] at hy3
  rw [v151_eq] at hx3
  rw [v61_eq, v96_eq, v132_eq, v168_eq]
  unfold sample
  show ((corner _ _ _ _ (ix2 p k) + corner _ _ _ _ (ix2 p k)) + corner _ _ _ _ (ix2 p k)) + corner _ _ _ _ (ix2 p k) = _
  rw [Cert.KernelIdeal.SampleRead.corner_apply a1 _ _ _ p k ny0 nx0 hny0 hnx0 hy0 hx0,
    Cert.KernelIdeal.SampleRead.corner_apply a1 _ _ _ p k ny1 nx1 hny1 hnx1 hy1 hx1,
    Cert.KernelIdeal.SampleRead.corner_apply a1 _ _ _ p k ny2 nx2 hny2 hnx2 hy2 hx2,
    Cert.KernelIdeal.SampleRead.corner_apply a1 _ _ _ p k ny3 nx3 hny3 hnx3 hy3 hx3]
  rfl

/-- The kernel's sample and the reference's agree at every point and channel (sample_xz). -/
theorem sample_xz (a0 : FVec Ideal S1x500000x3 .f32) (a1 : FVec Ideal S1x128x256x256 .f32) (p : Fin 500000) (k : Fin 128) :
    sample (table a1) (col0 a0) (col2 a0) (ix2 p k) = val_main_v345 (F := Ideal) a0 a1 (ix2 p k) := by
  rw [Cert.ReferenceIdeal.Corners.xz_apply a0 a1 p k]
  obtain ⟨ny0, hny0, hy0⟩ := Cert.ReferenceIdeal.GatherValue.word_v218 a0 p
  obtain ⟨nx0, hnx0, hx0⟩ := Cert.ReferenceIdeal.GatherValue.word_v216 a0 p
  rw [Cert.ReferenceIdeal.GatherValue.gather232_apply a0 a1 p k ny0 nx0 hny0 hnx0 hy0 hx0]
  obtain ⟨ny1, hny1, hy1⟩ := Cert.ReferenceIdeal.GatherValue.word_v253 a0 p
  obtain ⟨nx1, hnx1, hx1⟩ := Cert.ReferenceIdeal.GatherValue.word_v251 a0 p
  rw [Cert.ReferenceIdeal.GatherValue.gather267_apply a0 a1 p k ny1 nx1 hny1 hnx1 hy1 hx1]
  obtain ⟨ny2, hny2, hy2⟩ := Cert.ReferenceIdeal.GatherValue.word_v289 a0 p
  obtain ⟨nx2, hnx2, hx2⟩ := Cert.ReferenceIdeal.GatherValue.word_v287 a0 p
  rw [Cert.ReferenceIdeal.GatherValue.gather303_apply a0 a1 p k ny2 nx2 hny2 hnx2 hy2 hx2]
  obtain ⟨ny3, hny3, hy3⟩ := Cert.ReferenceIdeal.GatherValue.word_v325 a0 p
  obtain ⟨nx3, hnx3, hx3⟩ := Cert.ReferenceIdeal.GatherValue.word_v323 a0 p
  rw [Cert.ReferenceIdeal.GatherValue.gather339_apply a0 a1 p k ny3 nx3 hny3 hnx3 hy3 hx3]
  rw [v218_eq] at hy0
  rw [v216_eq] at hx0
  rw [v253_eq] at hy1
  rw [v251_eq] at hx1
  rw [v289_eq] at hy2
  rw [v287_eq] at hx2
  rw [v325_eq] at hy3
  rw [v323_eq] at hx3
  rw [v233_eq, v268_eq, v304_eq, v340_eq]
  unfold sample
  show ((corner _ _ _ _ (ix2 p k) + corner _ _ _ _ (ix2 p k)) + corner _ _ _ _ (ix2 p k)) + corner _ _ _ _ (ix2 p k) = _
  rw [Cert.KernelIdeal.SampleRead.corner_apply a1 _ _ _ p k ny0 nx0 hny0 hnx0 hy0 hx0,
    Cert.KernelIdeal.SampleRead.corner_apply a1 _ _ _ p k ny1 nx1 hny1 hnx1 hy1 hx1,
    Cert.KernelIdeal.SampleRead.corner_apply a1 _ _ _ p k ny2 nx2 hny2 hnx2 hy2 hx2,
    Cert.KernelIdeal.SampleRead.corner_apply a1 _ _ _ p k ny3 nx3 hny3 hnx3 hy3 hx3]
  rfl

end Cert.Bridge

end
-- ==== Proof.lean ====
/-
  Tri-plane sampling followed by a three-layer sine network, 500000 points: the kernel against its reference.

  Both programs sample ONE plane (128 channels, 256 by 256) bilinearly at each point's (x, y) and (x, z)
  coordinates — four corners, each corner's channel row weighted by the product of the two one-dimensional
  weights and by a 0/1 validity factor —, multiply the two sampled rows channel by channel as (xy · xz) · xz,
  and apply the network of Proof/SineNet.lean. The kernel lays the plane out as a table of 65536 rows of 128
  channels and gathers one row per corner by the row index 256 · row + column, filling with a sentinel when
  that index is out of range; the reference gathers from the plane directly by (row, column). Every index is a
  clipped coordinate converted to an integer, hence between 0 and 255 (Proof/IndexRange.lean), so the row
  index is in range and both gathers read the same plane entry (Proof/GatherRead.lean). The kernel then runs
  the network on blocks of 8192 points (the last block zero-padded; the padding is sliced off), the reference
  on all points at once; at the ideal instance the block matrix products and the lane sum are the same sums
  over 128 channels as the reference's contractions.

  The three frames are the frame runs of the two kernel programs and the reference's run with its result
  dropped; the idealization rewrote nothing, so `preserves` is trivial.
-/
import proofs.«168587_j4406636446006_2_alg».proof.Defs
import proofs.«168587_j4406636446006_2_alg».proof.Proof.Gen.Kernel
import proofs.«168587_j4406636446006_2_alg».proof.Proof.Gen.KernelIdeal
import proofs.«168587_j4406636446006_2_alg».proof.Proof.Gen.ReferenceIdeal
import proofs.«168587_j4406636446006_2_alg».proof.Proof.Gen.Pre_finite_inputs
import proofs.«168587_j4406636446006_2_alg».proof.Proof.KernelFrameP
import proofs.«168587_j4406636446006_2_alg».proof.Proof.KernelIdealFrameP
import proofs.«168587_j4406636446006_2_alg».proof.Proof.ReferenceIdealRunP
import proofs.«168587_j4406636446006_2_alg».proof.Proof.ReferenceIdealReadP
import proofs.«168587_j4406636446006_2_alg».proof.Proof.NetValue
import proofs.«168587_j4406636446006_2_alg».proof.Proof.NetEntry
import proofs.«168587_j4406636446006_2_alg».proof.Proof.RefNet
import proofs.«168587_j4406636446006_2_alg».proof.Proof.Bridge
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The reference run's result, named as one composed term by the run, is the last stage of the reference read
    stage by stage: unfolding the name leaves the stages' composition. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v369 (F := Ideal) m c
      = Cert.ReferenceIdeal.ReadP.val_main_v369 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) := by
  unfold Cert.ReferenceIdeal.ValueP.res_main_v369; rfl

/-- At the ideal instance both programs end with the network of Proof/SineNet.lean applied, point by point, to the
    same two sampled rows: the kernel's result is that of its own region-entry rows (blocks, padding and the
    final reshapes resolved), the reference's that of its sampled rows, and the rows agree entry by entry. -/
theorem algebraic : Cert.algebraic_KernelIdeal_ReferenceIdeal := by
  intro m ρ m' ρ' _ hagree
  refine ⟨fun c i => Cert.SineNet.net
      (fun k => Cert.KernelIdeal.GenP.V m c Cert.KernelIdeal.main_v135 (ix2 (i 1) k))
      (fun k => Cert.KernelIdeal.GenP.V m c Cert.KernelIdeal.main_v267 (ix2 (i 1) k))
      (fun j i' => m ((c.tc : Thread Cert.KernelIdeal.nD Cert.KernelIdeal.τ).loc Cert.KernelIdeal.main_arg4) (ix2 j i')) (fun j => m ((c.tc : Thread Cert.KernelIdeal.nD Cert.KernelIdeal.τ).loc Cert.KernelIdeal.main_arg5) (ix1 j))
      (fun k j => m ((c.tc : Thread Cert.KernelIdeal.nD Cert.KernelIdeal.τ).loc Cert.KernelIdeal.main_arg6) (ix2 k j)) (fun k => m ((c.tc : Thread Cert.KernelIdeal.nD Cert.KernelIdeal.τ).loc Cert.KernelIdeal.main_arg7) (ix1 k))
      (fun k => m ((c.tc : Thread Cert.KernelIdeal.nD Cert.KernelIdeal.τ).loc Cert.KernelIdeal.main_arg8) (ix2 (0 : Fin 1) k)) (m ((c.tc : Thread Cert.KernelIdeal.nD Cert.KernelIdeal.τ).loc Cert.KernelIdeal.main_arg9) (ix1 (0 : Fin 1))), ?_, ?_⟩
  · -- the kernel: its result array is the network of its own sampled rows, point by point
    refine (θ_run Cert.KernelIdeal.defs _ _).mono (fun r h c => ⟨?_, (h c).2⟩) (Cert.KernelIdeal.NetValue.run m ρ)
    funext i
    obtain ⟨a, p, b, rfl⟩ : ∃ (a : Fin 1) (p : Fin 500000) (b : Fin 1), i = ix3 a p b := ⟨i 0, i 1, i 2, eq_ix3 i⟩
    obtain rfl : a = 0 := Subsingleton.elim _ _
    obtain rfl : b = 0 := Subsingleton.elim _ _
    exact (h c).1 p
  · -- the reference: the same network of ITS sampled rows, which are the kernel's (Proof/Bridge.lean)
    refine (θ_run Cert.ReferenceIdeal.defs _ _).mono (fun r h c => ⟨(h c).1.trans ?_, (h c).2⟩)
      (Cert.ReferenceIdeal.ValueP.run (F := Ideal) m' ρ')
    rw [res_eq]
    obtain ⟨h0, h1, _, _, h4, h5, h6, h7, h8, h9⟩ := hagree c
    rw [h0, h1, h4, h5, h6, h7, h8, h9]
    funext i
    obtain ⟨a, p, b, rfl⟩ : ∃ (a : Fin 1) (p : Fin 500000) (b : Fin 1), i = ix3 a p b := ⟨i 0, i 1, i 2, eq_ix3 i⟩
    obtain rfl : a = 0 := Subsingleton.elim _ _
    obtain rfl : b = 0 := Subsingleton.elim _ _
    rw [Cert.ReferenceIdeal.NetValue.result_apply]
    have exy : ∀ k : Fin 128, Cert.KernelIdeal.GenP.V m c Cert.KernelIdeal.main_v135 (ix2 p k)
        = Cert.ReferenceIdeal.ReadP.val_main_v173 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (ix2 p k) := fun k => by
      rw [Cert.KernelIdeal.NetValue.xy_entry m c]
      exact Cert.Bridge.sample_xy _ _ p k
    have exz : ∀ k : Fin 128, Cert.KernelIdeal.GenP.V m c Cert.KernelIdeal.main_v267 (ix2 p k)
        = Cert.ReferenceIdeal.ReadP.val_main_v345 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (ix2 p k) := fun k => by
      rw [Cert.KernelIdeal.NetValue.xz_entry m c]
      exact Cert.Bridge.sample_xz _ _ p k
    show _ = Cert.SineNet.net (fun k => Cert.KernelIdeal.GenP.V m c Cert.KernelIdeal.main_v135 (ix2 p k))
      (fun k => Cert.KernelIdeal.GenP.V m c Cert.KernelIdeal.main_v267 (ix2 p k)) _ _ _ _ _ _
    simp only [exy, exz]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
